-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S512x512x9 : Shape := ⟨3, ![512, 512, 9]⟩
abbrev S512x512 : Shape := ⟨2, ![512, 512]⟩
abbrev S128x256 : Shape := ⟨2, ![128, 256]⟩
abbrev S256 : Shape := ⟨1, ![256]⟩
abbrev S256x1 : Shape := ⟨2, ![256, 1]⟩
abbrev S1 : Shape := ⟨1, ![1]⟩
abbrev S9x256 : Shape := ⟨2, ![9, 256]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S512x512x9 : S_.BroadcastsInDim S512x512x9 (![] : Fin 0 → Fin S512x512x9.rank)
  reducesTo_S512x512x9_S_d0_1_2 : S512x512x9.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S9x256 : S_.BroadcastsInDim S9x256 (![] : Fin 0 → Fin S9x256.rank)
  reducesTo_S9x256_S_d0_1 : S9x256.ReducesTo [0, 1] S_

variable [Facts]

def fn_part3 {F : FTy → Type} [FloatOps F] (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x256 .f32) (main_arg9 : FVec F S9x256 .f32) (main_arg10 : FVec F S256 .f32) (main_arg11 : FVec F S256x1 .f32) (main_arg12 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S9x256 .f32 := Host.absf main_arg9
  let main_cst_14 : FVec F S_ .f32 := constant S_ .f32 0x7F800000#32
  let main_v40 : FVec F S9x256 .f32 := broadcastInDim S9x256 ![] bcast_S_S9x256 main_cst_14
  let main_v41 : IVec S9x256 1 := cmpf .olt main_v39 main_v40
  let main_c_15 : IVec S_ 1 := constantI S_ 1 1#1
  let main_v42 : IVec S_ 1 := (fun x v => Host.reduce IntOp.andi x v reducesTo_S9x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg12 main_v48 main_v49 main_v50

def fn_part1 {F : FTy → Type} [FloatOps F] (main_arg5 : FVec F S256x1 .f32) (main_arg6 : FVec F S1 .f32) (main_arg7 : FVec F S128x256 .f32) (main_arg8 : FVec F S128x256 .f32) (main_arg9 : FVec F S9x256 .f32) (main_arg10 : FVec F S256 .f32) (main_arg11 : FVec F S256x1 .f32) (main_arg12 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S2x512x128 .f32) (main_arg1 : FVec F S512x512x9 .f32) (main_arg2 : IVec S512x512 32) (main_arg3 : FVec F S128x256 .f32) (main_arg4 : FVec F S256 .f32) (main_arg5 : FVec F S256x1 .f32) (main_arg6 : FVec F S1 .f32) (main_arg7 : FVec F S128x256 .f32) (main_arg8 : FVec F S128x256 .f32) (main_arg9 : FVec F S9x256 .f32) (main_arg10 : FVec F S256 .f32) (main_arg11 : FVec F S256x1 .f32) (main_arg12 : FVec F S1 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S512x512x9 .f32 := Host.absf main_arg1
  let main_cst_0 : FVec F S_ .f32 := constant S_ .f32 0x7F800000#32
  let main_v5 : FVec F S512x512x9 .f32 := broadcastInDim S512x512x9 ![] bcast_S_S512x512x9 main_cst_0
  let main_v6 : IVec S512x512x9 1 := cmpf .olt main_v4 main_v5
  let main_c_1 : IVec S_ 1 := constantI S_ 1 1#1
  let main_v7 : IVec S_ 1 := (fun x v => Host.reduce IntOp.andi x v reducesTo_S512x512x9_S_d0_1_2 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S2x512x128 : Shape := ⟨3, ![2, 512, 128]⟩
abbrev S512x512x9 : Shape := ⟨3, ![512, 512, 9]⟩
abbrev S512x512 : Shape := ⟨2, ![512, 512]⟩
abbrev S128x256 : Shape := ⟨2, ![128, 256]⟩
abbrev S256 : Shape := ⟨1, ![256]⟩
abbrev S256x1 : Shape := ⟨2, ![256, 1]⟩
abbrev S1 : Shape := ⟨1, ![1]⟩
abbrev S9x256 : Shape := ⟨2, ![9, 256]⟩
abbrev S1024x128 : Shape := ⟨2, ![1024, 128]⟩
abbrev S1x256 : Shape := ⟨2, ![1, 256]⟩
abbrev S1x1 : Shape := ⟨2, ![1, 1]⟩
abbrev S1024 : Shape := ⟨1, ![1024]⟩
abbrev S1024x256 : Shape := ⟨2, ![1024, 256]⟩
abbrev S1024x1 : Shape := ⟨2, ![1024, 1]⟩
abbrev S2x512 : Shape := ⟨2, ![2, 512]⟩
abbrev S9x512x512 : Shape := ⟨3, ![9, 512, 512]⟩
abbrev S2x512x512 : Shape := ⟨3, ![2, 512, 512]⟩
abbrev S1x64x128 : Shape := ⟨3, ![1, 64, 128]⟩
abbrev S1x128x128 : Shape := ⟨3, ![1, 128, 128]⟩
abbrev S9x64x128 : Shape := ⟨3, ![9, 64, 128]⟩
abbrev S64x128 : Shape := ⟨2, ![64, 128]⟩
abbrev S128x128 : Shape := ⟨2, ![128, 128]⟩
abbrev S64x256 : Shape := ⟨2, ![64, 256]⟩
abbrev S64x128x256 : Shape := ⟨3, ![64, 128, 256]⟩
abbrev S64x128x1 : Shape := ⟨3, ![64, 128, 1]⟩
abbrev S1x1x256 : Shape := ⟨3, ![1, 1, 256]⟩
abbrev S64x1x256 : Shape := ⟨3, ![64, 1, 256]⟩
abbrev S1x128x256 : Shape := ⟨3, ![1, 128, 256]⟩
abbrev S8192x256 : Shape := ⟨2, ![8192, 256]⟩
abbrev S8192x1 : Shape := ⟨2, ![8192, 1]⟩
abbrev S8192 : Shape := ⟨1, ![8192]⟩

abbrev nBuf : Space → Nat
  | .hbm => 22
  | .vmem => 22
  | .smem => 0
  | _ => 0

abbrev bufTy : (tb : Table) → Fin (tcTables nBuf tb) → BufTy
  | .hbm, ⟨0, _⟩ => ⟨S2x512x128, .f32⟩
  | .hbm, ⟨1, _⟩ => ⟨S512x512x9, .f32⟩
  | .hbm, ⟨2, _⟩ => ⟨S512x512, .i32⟩
  | .hbm, ⟨3, _⟩ => ⟨S128x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S128x256, .f32⟩
  | .hbm, ⟨8, _⟩ => ⟨S128x256, .f32⟩
  | .hbm, ⟨9, _⟩ => ⟨S9x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S1024x128, .f32⟩
  | .hbm, ⟨14, _⟩ => ⟨S1x256, .f32⟩
  | .hbm, ⟨15, _⟩ => ⟨S1x1, .f32⟩
  | .hbm, ⟨16, _⟩ => ⟨S1024, .f32⟩
  | .hbm, ⟨17, _⟩ => ⟨S2x512, .f32⟩
  | .hbm, ⟨18, _⟩ => ⟨S9x512x512, .f32⟩
  | .hbm, ⟨19, _⟩ => ⟨S1x256, .f32⟩
  | .hbm, ⟨20, _⟩ => ⟨S1x1, .f32⟩
  | .hbm, ⟨21, _⟩ => ⟨S2x512x512, .f32⟩
  | .local _ .vmem, ⟨0, _⟩ => ⟨S1024x128, .f32⟩
  | .local _ .vmem, ⟨1, _⟩ => ⟨S128x256, .f32⟩
  | .local _ .vmem, ⟨2, _⟩ => ⟨S1x256, .f32⟩
  | .local _ .vmem, ⟨3, _⟩ => ⟨S256x1, .f32⟩
  | .local _ .vmem, ⟨4, _⟩ => ⟨S1x1, .f32⟩
  | .local _ .vmem, ⟨5, _⟩ => ⟨S1024, .f32⟩
  | .local _ .vmem, ⟨6, _⟩ => ⟨S1x64x128, .f32⟩
  | .local _ .vmem, ⟨7, _⟩ => ⟨S1x64x128, .f32⟩
  | .local _ .vmem, ⟨8, _⟩ => ⟨S1x128x128, .f32⟩
  | .local _ .vmem, ⟨9, _⟩ => ⟨S1x128x128, .f32⟩
  | .local _ .vmem, ⟨10, _⟩ => ⟨S9x64x128, .f32⟩
  | .local _ .vmem, ⟨11, _⟩ => ⟨S9x64x128, .f32⟩
  | .local _ .vmem, ⟨12, _⟩ => ⟨S64x128, .i32⟩
  | .local _ .vmem, ⟨13, _⟩ => ⟨S64x128, .i32⟩
  | .local _ .vmem, ⟨14, _⟩ => ⟨S128x256, .f32⟩
  | .local _ .vmem, ⟨15, _⟩ => ⟨S128x256, .f32⟩
  | .local _ .vmem, ⟨16, _⟩ => ⟨S9x256, .f32⟩
  | .local _ .vmem, ⟨17, _⟩ => ⟨S1x256, .f32⟩
  | .local _ .vmem, ⟨18, _⟩ => ⟨S256x1, .f32⟩
  | .local _ .vmem, ⟨19, _⟩ => ⟨S1x1, .f32⟩
  | .local _ .vmem, ⟨20, _⟩ => ⟨S1x64x128, .f32⟩
  | .local _ .vmem, ⟨21, _⟩ => ⟨S1x64x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S9x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S64x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S9x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 2 → Memref sig .tc .vmem S1x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

class Facts₀ : Prop where
  shapeCasts_S2x512x128_S1024x128 : S2x512x128.ShapeCasts S1024x128
  shapeCasts_S256_S1x256 : S256.ShapeCasts S1x256
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  shapeCasts_S1024x1_S1024 : S1024x1.ShapeCasts S1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024_S1024_0 : ∀ a, (![0] : Fin 1 → Nat) a + S1024.size a ≤ S1024.size a
  h_S1024 : 0 < S1024.numel
  shapeCasts_S1024_S2x512 : S1024.ShapeCasts S2x512
  transposes_S512x512x9_S9x512x512_2_0_1 : S512x512x9.Transposes [2, 0, 1] S9x512x512
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S9x64x128_S9x64x128_0_0_0 : ∀ a, (![0, 0, 0] : Fin 3 → Nat) a + S9x64x128.size a ≤ S9x64x128.size a
  h_S9x64x128 : 0 < S9x64x128.numel
  shapeCasts_S9x64x128_S9x64x128 : S9x64x128.ShapeCasts S9x64x128
  inb_S9x256_S9x256_0_0 : ∀ a, (![0, 0] : Fin 2 → Nat) a + S9x256.size a ≤ S9x256.size a
  h_S9x256 : 0 < S9x256.numel
  slices_S9x64x128_o0_0_0_S1x64x128 : S9x64x128.Slices ![0, 0, 0] S1x64x128
  shapeCasts_S64x128_S64x128x1 : S64x128.ShapeCasts S64x128x1
  slices_S9x256_o0_0_S1x256 : S9x256.Slices ![0, 0] S1x256
  shapeCasts_S256_S1x1x256 : S256.ShapeCasts S1x1x256
  broadcasts_S64x128x1_S64x128x256 : S64x128x1.Broadcasts S64x128x256
  broadcasts_S1x1x256_S64x128x256 : S1x1x256.Broadcasts S64x128x256
  slices_S9x64x128_o1_0_0_S1x64x128 : S9x64x128.Slices ![1, 0, 0] S1x64x128
  slices_S9x256_o1_0_S1x256 : S9x256.Slices ![1, 0] S1x256
  slices_S9x64x128_o2_0_0_S1x64x128 : S9x64x128.Slices ![2, 0, 0] S1x64x128
  slices_S9x256_o2_0_S1x256 : S9x256.Slices ![2, 0] S1x256
  slices_S9x64x128_o3_0_0_S1x64x128 : S9x64x128.Slices ![3, 0, 0] S1x64x128
  slices_S9x256_o3_0_S1x256 : S9x256.Slices ![3, 0] S1x256
  slices_S9x64x128_o4_0_0_S1x64x128 : S9x64x128.Slices ![4, 0, 0] S1x64x128
  slices_S9x256_o4_0_S1x256 : S9x256.Slices ![4, 0] S1x256
  slices_S9x64x128_o5_0_0_S1x64x128 : S9x64x128.Slices ![5, 0, 0] S1x64x128
  slices_S9x256_o5_0_S1x256 : S9x256.Slices ![5, 0] S1x256
  slices_S9x64x128_o6_0_0_S1x64x128 : S9x64x128.Slices ![6, 0, 0] S1x64x128
  slices_S9x256_o6_0_S1x256 : S9x256.Slices ![6, 0] S1x256
  slices_S9x64x128_o7_0_0_S1x64x128 : S9x64x128.Slices ![7, 0, 0] S1x64x128
  slices_S9x256_o7_0_S1x256 : S9x256.Slices ![7, 0] S1x256
  slices_S9x64x128_o8_0_0_S1x64x128 : S9x64x128.Slices ![8, 0, 0] S1x64x128
  slices_S9x256_o8_0_S1x256 : S9x256.Slices ![8, 0] S1x256
  shapeCasts_S64x256_S64x1x256 : S64x256.ShapeCasts S64x1x256
  broadcasts_S64x1x256_S64x128x256 : S64x1x256.Broadcasts S64x128x256
  shapeCasts_S128x256_S1x128x256 : S128x256.ShapeCasts S1x128x256
  broadcasts_S1x128x256_S64x128x256 : S1x128x256.Broadcasts S64x128x256
  shapeCasts_S64x128x256_S8192x256 : S64x128x256.ShapeCasts S8192x256
  shapeCasts_S8192x1_S8192 : S8192x1.ShapeCasts S8192
  shapeCasts_S8192_S64x128 : S8192.ShapeCasts S64x128
  inb_S64x128_S64x128_0_0 : ∀ a, (![0, 0] : Fin 2 → Nat) a + S64x128.size a ≤ S64x128.size a
  h_S64x128 : 0 < S64x128.numel
  shapeCasts_S64x128_S1x64x128 : S64x128.ShapeCasts S1x64x128
  dot_S1024x128_S128x256_S1024x256_1_0_0_1_n_n_wf : DotDims.WF S1024x128 S128x256 S1024x256 [1] [0] [0] [1] [] []
  dot_S1024x256_S256x1_S1024x1_1_0_0_1_n_n_wf : DotDims.WF S1024x256 S256x1 S1024x1 [1] [0] [0] [1] [] []
  dot_S64x128_S128x256_S64x256_1_0_0_1_n_n_wf : DotDims.WF S64x128 S128x256 S64x256 [1] [0] [0] [1] [] []
  dot_S128x128_S128x256_S128x256_1_0_0_1_n_n_wf : DotDims.WF S128x128 S128x256 S128x256 [1] [0] [0] [1] [] []
  dot_S8192x256_S256x1_S8192x1_1_0_0_1_n_n_wf : DotDims.WF S8192x256 S256x1 S8192x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S2x512x128.size a
  hwx1_0 : ∀ i : grid1.Coords, EltTy.bits .f32 = 32 ∨ (Rect.block (s := S2x512x128) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S2x512x128.size a
  hwx1_1 : ∀ i : grid1.Coords, EltTy.bits .f32 = 32 ∨ (Rect.block (s := S2x512x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S9x64x128.size a ≤ S9x512x512.size a
  hwx1_2 : ∀ i : grid1.Coords, EltTy.bits .f32 = 32 ∨ (Rect.block (s := S9x512x512) S9x64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S512x512.size a
  hwx1_3 : ∀ i : grid1.Coords, EltTy.bits .i32 = 32 ∨ (Rect.block (s := S512x512) S64x128.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x256.size a ≤ S9x256.size a
  hwx1_6 : ∀ i : grid1.Coords, EltTy.bits .f32 = 32 ∨ (Rect.block (s := S9x256) S9x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S256x1.size a
  hwx1_8 : ∀ i : grid1.Coords, EltTy.bits .f32 = 32 ∨ (Rect.block (s := S256x1) S256x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x64x128.size a ≤ S2x512x512.size a
  hwx1_10 : ∀ i : grid1.Coords, EltTy.bits .f32 = 32 ∨ (Rect.block (s := S2x512x512) S1x64x128.size (cc1_transform_10 i) (hinb1_10 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

abbrev win0_0 : Pipeline.Window sig grid0 :=
  Pipeline.Window.ofSpec (Memref.whole main_v0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S9x64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S9x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S256x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S1x64x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2x512x128 : Shape := ⟨3, ![2, 512, 128]⟩
abbrev S512x512x9 : Shape := ⟨3, ![512, 512, 9]⟩
abbrev S512x512 : Shape := ⟨2, ![512, 512]⟩
abbrev S128x256 : Shape := ⟨2, ![128, 256]⟩
abbrev S256 : Shape := ⟨1, ![256]⟩
abbrev S256x1 : Shape := ⟨2, ![256, 1]⟩
abbrev S1 : Shape := ⟨1, ![1]⟩
abbrev S9x256 : Shape := ⟨2, ![9, 256]⟩
abbrev S2x512x256 : Shape := ⟨3, ![2, 512, 256]⟩
abbrev S1x1x256 : Shape := ⟨3, ![1, 1, 256]⟩
abbrev S_ : Shape := ⟨0, ![]⟩
abbrev S2x512x1 : Shape := ⟨3, ![2, 512, 1]⟩
abbrev S1x1x1 : Shape := ⟨3, ![1, 1, 1]⟩
abbrev S2x512 : Shape := ⟨2, ![2, 512]⟩
abbrev S512x512x256 : Shape := ⟨3, ![512, 512, 256]⟩
abbrev S2x512x1x256 : Shape := ⟨4, ![2, 512, 1, 256]⟩
abbrev S2x1x512x256 : Shape := ⟨4, ![2, 1, 512, 256]⟩
abbrev S2x512x512x256 : Shape := ⟨4, ![2, 512, 512, 256]⟩
abbrev S1x512x512x256 : Shape := ⟨4, ![1, 512, 512, 256]⟩
abbrev S1x1x1x256 : Shape := ⟨4, ![1, 1, 1, 256]⟩
abbrev S2x512x512x1 : Shape := ⟨4, ![2, 512, 512, 1]⟩
abbrev S1x1x1x1 : Shape := ⟨4, ![1, 1, 1, 1]⟩
abbrev S2x512x512 : Shape := ⟨3, ![2, 512, 512]⟩
abbrev S1x512x512 : Shape := ⟨3, ![1, 512, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S512x512x9, .f32⟩
  | .hbm, ⟨2, _⟩ => ⟨S512x512, .i32⟩
  | .hbm, ⟨3, _⟩ => ⟨S128x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S128x256, .f32⟩
  | .hbm, ⟨8, _⟩ => ⟨S128x256, .f32⟩
  | .hbm, ⟨9, _⟩ => ⟨S9x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S2x512x256, .f32⟩
  | .hbm, ⟨14, _⟩ => ⟨S1x1x256, .f32⟩
  | .hbm, ⟨15, _⟩ => ⟨S2x512x256, .f32⟩
  | .hbm, ⟨16, _⟩ => ⟨S2x512x256, .f32⟩
  | .hbm, ⟨17, _⟩ => ⟨S_, .f32⟩
  | .hbm, ⟨18, _⟩ => ⟨S2x512x256, .f32⟩
  | .hbm, ⟨19, _⟩ => ⟨S2x512x256, .f32⟩
  | .hbm, ⟨20, _⟩ => ⟨S2x512x1, .f32⟩
  | .hbm, ⟨21, _⟩ => ⟨S1x1x1, .f32⟩
  | .hbm, ⟨22, _⟩ => ⟨S2x512x1, .f32⟩
  | .hbm, ⟨23, _⟩ => ⟨S2x512x1, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S_, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512x256, .f32⟩
  | .hbm, ⟨34, _⟩ => ⟨S2x512x256, .f32⟩
  | .hbm, ⟨35, _⟩ => ⟨S512x512x256, .f32⟩
  | .hbm, ⟨36, _⟩ => ⟨S2x512x1x256, .f32⟩
  | .hbm, ⟨37, _⟩ => ⟨S2x1x512x256, .f32⟩
  | .hbm, ⟨38, _⟩ => ⟨S2x512x512x256, .f32⟩
  | .hbm, ⟨39, _⟩ => ⟨S2x512x512x256, .f32⟩
  | .hbm, ⟨40, _⟩ => ⟨S2x512x512x256, .f32⟩
  | .hbm, ⟨41, _⟩ => ⟨S1x512x512x256, .f32⟩
  | .hbm, ⟨42, _⟩ => ⟨S2x512x512x256, .f32⟩
  | .hbm, ⟨43, _⟩ => ⟨S2x512x512x256, .f32⟩
  | .hbm, ⟨44, _⟩ => ⟨S1x1x1x256, .f32⟩
  | .hbm, ⟨45, _⟩ => ⟨S2x512x512x256, .f32⟩
  | .hbm, ⟨46, _⟩ => ⟨S2x512x512x256, .f32⟩
  | .hbm, ⟨47, _⟩ => ⟨S_, .f32⟩
  | .hbm, ⟨48, _⟩ => ⟨S2x512x512x256, .f32⟩
  | .hbm, ⟨49, _⟩ => ⟨S2x512x512x256, .f32⟩
  | .hbm, ⟨50, _⟩ => ⟨S2x512x512x1, .f32⟩
  | .hbm, ⟨51, _⟩ => ⟨S1x1x1x1, .f32⟩
  | .hbm, ⟨52, _⟩ => ⟨S2x512x512x1, .f32⟩
  | .hbm, ⟨53, _⟩ => ⟨S2x512x512x1, .f32⟩
  | .hbm, ⟨54, _⟩ => ⟨S2x512x512, .f32⟩
  | .hbm, ⟨55, _⟩ => ⟨S2x512x512, .f32⟩
  | .hbm, ⟨56, _⟩ => ⟨S2x512x512, .f32⟩
  | .hbm, ⟨57, _⟩ => ⟨S_, .f32⟩
  | .hbm, ⟨58, _⟩ => ⟨S2x512x512, .f32⟩
  | .hbm, ⟨59, _⟩ => ⟨S2x512x512, .f32⟩
  | .hbm, ⟨60, _⟩ => ⟨S_, .f32⟩
  | .hbm, ⟨61, _⟩ => ⟨S2x512x512, .f32⟩
  | .hbm, ⟨62, _⟩ => ⟨S2x512x512, .f32⟩
  | .hbm, ⟨63, _⟩ => ⟨S512x512, .f32⟩
  | .hbm, ⟨64, _⟩ => ⟨S1x512x512, .f32⟩
  | .hbm, ⟨65, _⟩ => ⟨S2x512x512, .f32⟩
  | .hbm, ⟨66, _⟩ => ⟨S2x512x512, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2x512x256_0_1_2 : S1x1x256.BroadcastsInDim S2x512x256 (![0, 1, 2] : Fin 3 → Fin S2x512x256.rank)
  bcast_S_S2x512x256 : S_.BroadcastsInDim S2x512x256 (![] : Fin 0 → Fin S2x512x256.rank)
  bcast_S1_S1x1x1_2 : S1.BroadcastsInDim S1x1x1 (![2] : Fin 1 → Fin S1x1x1.rank)
  bcast_S1x1x1_S2x512x1_0_1_2 : S1x1x1.BroadcastsInDim S2x512x1 (![0, 1, 2] : Fin 3 → Fin S2x512x1.rank)
  shapeCasts_S2x512x1_S2x512 : S2x512x1.ShapeCasts S2x512
  bcast_S_S2x512 : S_.BroadcastsInDim S2x512 (![] : Fin 0 → Fin S2x512.rank)
  bcast_S2x512x256_S2x512x1x256_0_1_3 : S2x512x256.BroadcastsInDim S2x512x1x256 (![0, 1, 3] : Fin 3 → Fin S2x512x1x256.rank)
  bcast_S2x512x256_S2x1x512x256_0_2_3 : S2x512x256.BroadcastsInDim S2x1x512x256 (![0, 2, 3] : Fin 3 → Fin S2x1x512x256.rank)
  bcast_S2x512x1x256_S2x512x512x256_0_1_2_3 : S2x512x1x256.BroadcastsInDim S2x512x512x256 (![0, 1, 2, 3] : Fin 4 → Fin S2x512x512x256.rank)
  bcast_S2x1x512x256_S2x512x512x256_0_1_2_3 : S2x1x512x256.BroadcastsInDim S2x512x512x256 (![0, 1, 2, 3] : Fin 4 → Fin S2x512x512x256.rank)
  bcast_S512x512x256_S1x512x512x256_1_2_3 : S512x512x256.BroadcastsInDim S1x512x512x256 (![1, 2, 3] : Fin 3 → Fin S1x512x512x256.rank)
  bcast_S1x512x512x256_S2x512x512x256_0_1_2_3 : S1x512x512x256.BroadcastsInDim S2x512x512x256 (![0, 1, 2, 3] : Fin 4 → Fin S2x512x512x256.rank)
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  bcast_S_S2x512x512 : S_.BroadcastsInDim S2x512x512 (![] : Fin 0 → Fin S2x512x512.rank)
  bcast_S512x512_S1x512x512_1_2 : S512x512.BroadcastsInDim S1x512x512 (![1, 2] : Fin 2 → Fin S1x512x512.rank)
  bcast_S1x512x512_S2x512x512_0_1_2 : S1x512x512.BroadcastsInDim S2x512x512 (![0, 1, 2] : Fin 3 → Fin S2x512x512.rank)
  dot_S2x512x128_S128x256_S2x512x256_2_0_01_1_n_n_wf : DotDims.WF S2x512x128 S128x256 S2x512x256 [2] [0] [0, 1] [1] [] []
  dot_S2x512x256_S256x1_S2x512x1_2_0_01_1_n_n_wf : DotDims.WF S2x512x256 S256x1 S2x512x1 [2] [0] [0, 1] [1] [] []
  dot_S512x512x9_S9x256_S512x512x256_2_0_01_1_n_n_wf : DotDims.WF S512x512x9 S9x256 S512x512x256 [2] [0] [0, 1] [1] [] []
  dot_S2x512x512x256_S256x1_S2x512x512x1_3_0_012_1_n_n_wf : DotDims.WF S2x512x512x256 S256x1 S2x512x512x1 [3] [0] [0, 1, 2] [1] [] []

variable [Facts₀]

def dot_S2x512x128_S128x256_S2x512x256_2_0_01_1_n_n : DotDims S2x512x128 S128x256 S2x512x256 where
  lhsContracting := [2]
  rhsContracting := [0]
  lhsNonContracting := [0, 1]
  rhsNonContracting := [1]
  lhsBatch := []
  rhsBatch := []
  wf := dot_S2x512x128_S128x256_S2x512x256_2_0_01_1_n_n_wf
def dot_S2x512x256_S256x1_S2x512x1_2_0_01_1_n_n : DotDims S2x512x256 S256x1 S2x512x1 where
  lhsContracting := [2]
  rhsContracting := [0]
  lhsNonContracting := [0, 1]
  rhsNonContracting := [1]
  lhsBatch := []
  rhsBatch := []
  wf := dot_S2x512x256_S256x1_S2x512x1_2_0_01_1_n_n_wf
def dot_S512x512x9_S9x256_S512x512x256_2_0_01_1_n_n : DotDims S512x512x9 S9x256 S512x512x256 where
  lhsContracting := [2]
  rhsContracting := [0]
  lhsNonContracting := [0, 1]
  rhsNonContracting := [1]
  lhsBatch := []
  rhsBatch := []
  wf := dot_S512x512x9_S9x256_S512x512x256_2_0_01_1_n_n_wf
def dot_S2x512x512x256_S256x1_S2x512x512x1_3_0_012_1_n_n : DotDims S2x512x512x256 S256x1 S2x512x512x1 where
  lhsContracting := [3]
  rhsContracting := [0]
  lhsNonContracting := [0, 1, 2]
  rhsNonContracting := [1]
  lhsBatch := []
  rhsBatch := []
  wf := dot_S2x512x512x256_S256x1_S2x512x512x1_3_0_012_1_n_n_wf

class Facts : Prop extends Facts₀ where

variable [Facts]
-- ==== Proof.KB.Region0.lean ====
/-
  The organ head's launch, as the pipeline sees it: one grid point, five input windows (the flattened node
  features, the first weight matrix, its bias row, the second weight column, its bias) each staged whole, and one
  output window, the 1024 results, staged whole and written back once.

  At the point the body finds each input's staging buffer holding that input's whole array; it loads the five,
  loads the output buffer (a value it does not use) and stores one vector, a pure function of the five loads.
  So after the body the output's buffer holds that function of the five arrays, and the inputs' buffers are as
  they were. Stated for any contents V of the core's buffers at the region's entry, and for any float instance.
-/
import proofs.«177483_j86474871537940_1_alg».proof.Proof.Gen.Kernel.Launch
import proofs.«177483_j86474871537940_1_alg».proof.Proof.Gen.Kernel.Skeleton
import proofs.«177483_j86474871537940_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Organ

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is V's and whose body leaves the block in place: one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 1024-vector: the one rectangle the body stores through. -/
abbrev rOut : Rect S1024 := Rect.unit (s := S1024) ![0] S1024.size inb_S1024_S1024_0
abbrev rA : Rect S1024x128 := Rect.unit (s := S1024x128) ![0, 0] S1024x128.size inb_S1024x128_S1024x128_0_0
abbrev rB : Rect S128x256 := Rect.unit (s := S128x256) ![0, 0] S128x256.size inb_S128x256_S128x256_0_0
abbrev rC : Rect S1x256 := Rect.unit (s := S1x256) ![0, 0] S1x256.size inb_S1x256_S1x256_0_0
abbrev rD : Rect S256x1 := Rect.unit (s := S256x1) ![0, 0] S256x1.size inb_S256x1_S256x1_0_0
abbrev rE : Rect S1x1 := Rect.unit (s := S1x1) ![0, 0] S1x1.size inb_S1x1_S1x1_0_0

/-- The output window's staging buffer after the body, from the five input blocks: its one store as a piece. -/
def out0 (x0 : Vec F S1024x128 .f32) (x1 : Vec F S128x256 .f32) (x2 : Vec F S1x256 .f32) (x3 : Vec F S256x1 .f32) (x4 : Vec F S1x1 .f32) : Vec F S1024 .f32 :=
  View.canon [⟨rOut, k0_pay1 (View.ld x0 rA) (View.ld x1 rB) (View.ld x2 rC) (View.ld x3 rD) (View.ld x4 rE)⟩]

/-- The one store covers the buffer. -/
theorem cover0 (p0 : Vec F S1024 .f32) (y : S1024.Idx) :
    ∃ pc ∈ ([⟨rOut, p0⟩] : List (View.Piece (Elt F) S1024 .f32)), y ∈ pc.1.set :=
  View.cover_of_tiled [⟨rOut, p0⟩] S1024.size (by rfl) y

set_option maxHeartbeats 1000000 in
/-- The body on whole staging memrefs, the inputs' at contents x0 … x4 and the output's at anything, runs to the
    continuation holding the inputs' as they were and the output's at out0 of the inputs'. -/
theorem sound_kernel0 (c : Dev nD) (E : Set ℕ) (i : grid0.Coords)
    (arg1 : Memref sig .tc .vmem S1024x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S256x1 .f32) (harg4 : arg4.IsWhole)
    (arg5 : Memref sig .tc .vmem S1x1 .f32) (harg5 : arg5.IsWhole) (arg6 : Memref sig .tc .vmem S1024 .f32) (harg6 : arg6.IsWhole)
    (x0 : Vec F S1024x128 .f32) (x1 : Vec F S128x256 .f32) (x2 : Vec F S1x256 .f32) (x3 : Vec F S256x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__organ_kernel i arg1 harg1 arg2 harg2 arg3 harg3 arg4 harg4 arg5 harg5 arg6 harg6) K := by
  simp only [cc0__organ_kernel_eq_skeleton]; unfold cc0__organ_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of the organ pipeline on core c: the arrays as the region finds them; after the body each
    input's buffer at its block and the output's at out0 of the input blocks; the class invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Organ

end
-- ==== Proof.KB.Region1.lean ====
/-
  The edge head's launch, as the pipeline sees it: a grid of 2 x 8 x 4 points (batch element, block of 64 source
  nodes, block of 128 target nodes); ten input windows — the source nodes' feature rows and the target nodes'
  feature rows, two windows on ONE array, the edge features laid out feature-first, the integer mask, and six
  small parameter arrays staged whole once — and one output window, the 64 x 128 block of edge values, written
  back at every point.

  At every point the body finds each input's staging buffer holding that input's block at the point (an input is
  not refetched while its block index stands still, and the body leaves it in place); it loads the ten, loads the
  output buffer (a value it does not use) and stores one block, a pure function of the ten loads. So after the
  body the output's buffer holds that function of the ten blocks. Stated for any contents V of the core's buffers
  at the region's entry, and for any float instance. The two windows on the node-feature array each hold half of
  the array's share: the left half and the right half of the full share.
-/
import proofs.«177483_j86474871537940_1_alg».proof.Proof.Gen.Kernel.Launch
import proofs.«177483_j86474871537940_1_alg».proof.Proof.Gen.Kernel.Skeleton
import proofs.«177483_j86474871537940_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is V's and whose body leaves the block in place: one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rZi : Rect S1x64x128 := Rect.unit (s := S1x64x128) ![0, 0, 0] S1x64x128.size inb_S1x64x128_S1x64x128_0_0_0
abbrev rZj : Rect S1x128x128 := Rect.unit (s := S1x128x128) ![0, 0, 0] S1x128x128.size inb_S1x128x128_S1x128x128_0_0_0
abbrev rEf : Rect S9x64x128 := Rect.unit (s := S9x64x128) ![0, 0, 0] S9x64x128.size inb_S9x64x128_S9x64x128_0_0_0
abbrev rMask : Rect S64x128 := Rect.unit (s := S64x128) ![0, 0] S64x128.size inb_S64x128_S64x128_0_0
abbrev rW : Rect S128x256 := Rect.unit (s := S128x256) ![0, 0] S128x256.size inb_S128x256_S128x256_0_0
abbrev rWe : Rect S9x256 := Rect.unit (s := S9x256) ![0, 0] S9x256.size inb_S9x256_S9x256_0_0
abbrev rB1 : Rect S1x256 := Rect.unit (s := S1x256) ![0, 0] S1x256.size inb_S1x256_S1x256_0_0
abbrev rW2 : Rect S256x1 := Rect.unit (s := S256x1) ![0, 0] S256x1.size inb_S256x1_S256x1_0_0
abbrev rB2 : Rect S1x1 := Rect.unit (s := S1x1) ![0, 0] S1x1.size inb_S1x1_S1x1_0_0
abbrev rOut : Rect S1x64x128 := Rect.unit (s := S1x64x128) ![0, 0, 0] S1x64x128.size inb_S1x64x128_S1x64x128_0_0_0

/-- The output window's staging buffer after the body, from the ten input blocks: its one store as a piece. -/
def out1 (x0 : Vec F S1x64x128 .f32) (x1 : Vec F S1x128x128 .f32) (x2 : Vec F S9x64x128 .f32) (x3 : Vec F S64x128 .i32) (x4 : Vec F S128x256 .f32) (x5 : Vec F S128x256 .f32) (x6 : Vec F S9x256 .f32) (x7 : Vec F S1x256 .f32) (x8 : Vec F S256x1 .f32) (x9 : Vec F S1x1 .f32) : Vec F S1x64x128 .f32 :=
  View.canon [⟨rOut, k1_pay1 (k1_pay2 (View.ld x0 rZi) (View.ld x4 rW)) (k1_pay3 (View.ld x1 rZj) (View.ld x5 rW)) (View.ld x6 rWe) (k1_pay7 (k1_pay4 (View.ld x2 rEf)) (View.ld x6 rWe) (k1_pay5 (View.ld x2 rEf) (View.ld x6 rWe)) (k1_pay6 (View.ld x2 rEf))) (k1_pay8 (k1_pay4 (View.ld x2 rEf))) (View.ld x7 rB1) (View.ld x8 rW2) (View.ld x9 rB2) (View.ld x3 rMask)⟩]

/-- The one store covers the buffer. -/
theorem cover1 (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

set_option maxHeartbeats 4000000 in
/-- The body on whole staging memrefs, the inputs' at contents x0 … x9 and the output's at anything, runs to the
    continuation holding the inputs' as they were and the output's at out1 of the inputs'. -/
theorem sound_kernel1 (c : Dev nD) (E : Set ℕ) (i : grid1.Coords)
    (arg3 : Memref sig .tc .vmem S1x64x128 .f32) (harg3 : arg3.IsWhole) (arg4 : Memref sig .tc .vmem S1x128x128 .f32) (harg4 : arg4.IsWhole) (arg5 : Memref sig .tc .vmem S9x64x128 .f32) (harg5 : arg5.IsWhole) (arg6 : Memref sig .tc .vmem S64x128 .i32) (harg6 : arg6.IsWhole) (arg7 : Memref sig .tc .vmem S128x256 .f32) (harg7 : arg7.IsWhole) (arg8 : Memref sig .tc .vmem S128x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S1x64x128 .f32) (harg13 : arg13.IsWhole)
    (x0 : Vec F S1x64x128 .f32) (x1 : Vec F S1x128x128 .f32) (x2 : Vec F S9x64x128 .f32) (x3 : Vec F S64x128 .i32) (x4 : Vec F S128x256 .f32) (x5 : Vec F S128x256 .f32) (x6 : Vec F S9x256 .f32) (x7 : Vec F S1x256 .f32) (x8 : Vec F S256x1 .f32) (x9 : Vec F S1x1 .f32)
    (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
            ∗ owns (c : Thread nD τ) arg13 fullShare (out1 x0 x1 x2 x3 x4 x5 x6 x7 x8 x9)) -∗ K ⟨⟩))
      ⊢ wp frame (wpE (defs₀ (F := F)) Variants.none c none) E (cc1__edge_kernel i arg3 harg3 arg4 harg4 arg5 harg5 arg6 harg6 arg7 harg7 arg8 harg8 arg9 harg9 arg10 harg10 arg11 harg11 arg12 harg12 arg13 harg13) K := by
  simp only [cc1__edge_kernel_eq_skeleton]; unfold cc1__edge_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1 _)

/-- The proof data of the edge pipeline on core c: the arrays as the region finds them; after the body each
    input's buffer at its block and the output's at out1 of the input blocks; the class invariant; nothing owed;
    the two windows on the node-feature array at the left and the right half of the full share, every other input
    at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Edge

end
-- ==== Proof.KB.Bounds.lean ====
/-
  The whole program's buffer contents, boundary by boundary: two stretches of host operations (reshapes of the inputs, one transpose) and the two
  launches, in order, each entered from a state that holds EVERY unscoped buffer of the core at named contents.

  The contents at the five boundaries: at launch the memory; after the first stretch its operations applied; after
  the organ launch the same with the organ result array at what the launch's one write-back leaves; after the
  second stretch its operations applied; after the edge launch the same with the edge result array at what the 64
  write-backs leave. No host operation and no launch writes an argument array, so each argument array is found at
  every boundary as it was launched.

  The organ launch's arrays are six distinct buffers. The edge launch reads the node-feature array through TWO
  windows: at its entry that array's ownership is split in two halves, one per window, and at its exit the two
  halves — neither window writes — are joined again.
-/
import proofs.«177483_j86474871537940_1_alg».proof.Proof.KB.Region0
import proofs.«177483_j86474871537940_1_alg».proof.Proof.KB.Region1
import proofs.«177483_j86474871537940_1_alg».proof.Proof.Gen.Kernel.Regions

set_option maxRecDepth 16384

noncomputable section

namespace Cert.Kernel.Run

open Cert.Kernel Cert.Kernel.Gen Cert.Kernel.Organ Cert.Kernel.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the first host stretch (the organ launch's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the organ launch's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the edge launch's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the edge launch's exit: the edge result array at what the pipeline leaves, every other buffer as entered
    (the launch's other arrays are inputs, never written). -/
def B4 (c : Dev nD) : Valuation τ sig (Elt F) :=
  Function.update (B3 m ρ c) (Proc.devRef .tc main_v8) ((dat1 (E3 m ρ) c).arrAt 10 cfg1.N)
theorem B4_out (c : Dev nD) : B4 m ρ c (Proc.devRef .tc main_v8) = (dat1 (E3 m ρ) c).arrAt 10 cfg1.N := by
  unfold B4; exact Function.update_self _ _ _
theorem B4_of_ne (c : Dev nD) (b : Ref sig .tc) (hb : b ≠ main_v8) :
    B4 m ρ c (Proc.devRef .tc b) = B3 m ρ c (Proc.devRef .tc b) := by
  unfold B4; exact Function.update_of_ne (StableHlo.devRef_ne_of_ne hb) _ _
abbrev E4 : (c : Dev nD) → (b : Ref sig .tc) → Buf (Elt F) ((c : Thread nD τ).loc b) := fun c b => B4 m ρ c b

/-- The organ launch leaves every buffer but its result array as entered: an input array is never written. -/
theorem B2_keep (c : Dev nD) (b : Ref sig .tc) (hb : b ≠ main_v3) : B2 m ρ c (Proc.devRef .tc b) = B1 m ρ c (Proc.devRef .tc b) := by
  by_cases h : ∃ w, Pipeline.arrRef spec0 w = b
  · obtain ⟨w, rfl⟩ := h
    rw [B2_arr]
    match w with
    | ⟨0, _⟩ => exact ((dat0 (E1 m ρ) c).arrAt_in 0 rfl _).trans (A_eq0 (E1 m ρ) c 0)
    | ⟨1, _⟩ => exact ((dat0 (E1 m ρ) c).arrAt_in 1 rfl _).trans (A_eq0 (E1 m ρ) c 1)
    | ⟨2, _⟩ => exact ((dat0 (E1 m ρ) c).arrAt_in 2 rfl _).trans (A_eq0 (E1 m ρ) c 2)
    | ⟨3, _⟩ => exact ((dat0 (E1 m ρ) c).arrAt_in 3 rfl _).trans (A_eq0 (E1 m ρ) c 3)
    | ⟨4, _⟩ => exact ((dat0 (E1 m ρ) c).arrAt_in 4 rfl _).trans (A_eq0 (E1 m ρ) c 4)
    | ⟨5, _⟩ => exact absurd rfl hb
  · exact B2_of_ne m ρ c b fun w e => h ⟨w, e⟩

/-- A buffer that no host operation and no launch writes holds its launch contents at the end. -/
theorem B4_kept (c : Dev nD) (b : Ref sig .tc) (h0 : b ∉ hostOps0_W) (h1 : b ∉ hostOps1_W) (h3 : b ≠ main_v3) (h8 : b ≠ main_v8) :
    B4 m ρ c (Proc.devRef .tc b) = m ((c : Thread nD τ).loc b) :=
  (B4_of_ne m ρ c b h8).trans <| (StableHlo.after_of_writes_sub hostOps1 _ hostOps1_writes h1).trans <|
    (B2_keep m ρ c b h3).trans <| (StableHlo.after_of_writes_sub hostOps0 _ hostOps0_writes h0).trans rfl

end Cert.Kernel.Run

end
-- ==== Proof.KB.Shares.lean ====
/-
  The edge launch reads the node-feature array through two windows, so the launch's eleven windows stand on ten
  distinct buffers. Ownership of a buffer can be divided: the whole is its left half together with its right half,
  both at the same contents. At the launch's entry the node-feature array, held whole, is handed to the two
  windows as its two halves; at the exit — no window wrote it, both halves still hold the entry contents — the two
  halves are put together again. Every other buffer goes to its one window whole.
-/
import proofs.«177483_j86474871537940_1_alg».proof.Proof.KB.Region1

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The ten distinct buffers behind the eleven windows (windows 0 and 1 stand on the same one), listed. -/
theorem arrBufs1_list (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = bigSepL [Pipeline.arrRef spec1 1, Pipeline.arrRef spec1 2, Pipeline.arrRef spec1 3, Pipeline.arrRef spec1 4, Pipeline.arrRef spec1 5, Pipeline.arrRef spec1 6, Pipeline.arrRef spec1 7, Pipeline.arrRef spec1 8, Pipeline.arrRef spec1 9, Pipeline.arrRef spec1 10] fun b => ((c : Thread nD τ).loc b) ↦{fullShare} Vv b := by
  unfold Pipeline.arrBufs; exact bigSep_eq_bigSepL_of_eq _ (by decide) (by decide) _

/-- The same, one by one. -/
theorem arrBufs1_chain (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop(
      (((c : Thread nD τ).loc (Pipeline.arrRef spec1 1)) ↦{fullShare} Vv (Pipeline.arrRef spec1 1))
      ∗ (((c : Thread nD τ).loc (Pipeline.arrRef spec1 2)) ↦{fullShare} Vv (Pipeline.arrRef spec1 2))
      ∗ (((c : Thread nD τ).loc (Pipeline.arrRef spec1 3)) ↦{fullShare} Vv (Pipeline.arrRef spec1 3))
      ∗ (((c : Thread nD τ).loc (Pipeline.arrRef spec1 4)) ↦{fullShare} Vv (Pipeline.arrRef spec1 4))
      ∗ (((c : Thread nD τ).loc (Pipeline.arrRef spec1 5)) ↦{fullShare} Vv (Pipeline.arrRef spec1 5))
      ∗ (((c : Thread nD τ).loc (Pipeline.arrRef spec1 6)) ↦{fullShare} Vv (Pipeline.arrRef spec1 6))
      ∗ (((c : Thread nD τ).loc (Pipeline.arrRef spec1 7)) ↦{fullShare} Vv (Pipeline.arrRef spec1 7))
      ∗ (((c : Thread nD τ).loc (Pipeline.arrRef spec1 8)) ↦{fullShare} Vv (Pipeline.arrRef spec1 8))
      ∗ (((c : Thread nD τ).loc (Pipeline.arrRef spec1 9)) ↦{fullShare} Vv (Pipeline.arrRef spec1 9))
      ∗ (((c : Thread nD τ).loc (Pipeline.arrRef spec1 10)) ↦{fullShare} Vv (Pipeline.arrRef spec1 10))) := by
  rw [arrBufs1_list]; rfl

/-- The share each window holds of its array: the halves for the two windows on the node-feature array. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl
theorem share1_10 (c : Dev nD) : (dat1 V c).share 10 = fullShare := rfl

/-- The windows' arrays, each a whole buffer, at contents read off one valuation of the buffers. -/
theorem arrays1_eq (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (dat1 V c).arrays G = bigSep Finset.univ fun w : Fin 11 => ((((c : Thread nD τ).loc (Pipeline.arrRef spec1 w)) ↦{(dat1 V c).share w} Vv (Pipeline.arrRef spec1 w)) : sProp 𝕄) := by
  unfold Dat.arrays
  exact bigSep_congr fun w _ => by rw [(arr_whole1 w).set_eq_univ, hG]

/-- The same, one by one: the node-feature array twice, at the left and at the right half. -/
theorem arrays1_chain (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (dat1 V c).arrays G = iprop(
      ((((c : Thread nD τ).loc (Pipeline.arrRef spec1 1)) ↦{fullShare.left} Vv (Pipeline.arrRef spec1 1)) : sProp 𝕄)
      ∗ (((c : Thread nD τ).loc (Pipeline.arrRef spec1 1)) ↦{fullShare.right} Vv (Pipeline.arrRef spec1 1))
      ∗ (((c : Thread nD τ).loc (Pipeline.arrRef spec1 2)) ↦{fullShare} Vv (Pipeline.arrRef spec1 2))
      ∗ (((c : Thread nD τ).loc (Pipeline.arrRef spec1 3)) ↦{fullShare} Vv (Pipeline.arrRef spec1 3))
      ∗ (((c : Thread nD τ).loc (Pipeline.arrRef spec1 4)) ↦{fullShare} Vv (Pipeline.arrRef spec1 4))
      ∗ (((c : Thread nD τ).loc (Pipeline.arrRef spec1 5)) ↦{fullShare} Vv (Pipeline.arrRef spec1 5))
      ∗ (((c : Thread nD τ).loc (Pipeline.arrRef spec1 6)) ↦{fullShare} Vv (Pipeline.arrRef spec1 6))
      ∗ (((c : Thread nD τ).loc (Pipeline.arrRef spec1 7)) ↦{fullShare} Vv (Pipeline.arrRef spec1 7))
      ∗ (((c : Thread nD τ).loc (Pipeline.arrRef spec1 8)) ↦{fullShare} Vv (Pipeline.arrRef spec1 8))
      ∗ (((c : Thread nD τ).loc (Pipeline.arrRef spec1 9)) ↦{fullShare} Vv (Pipeline.arrRef spec1 9))
      ∗ (((c : Thread nD τ).loc (Pipeline.arrRef spec1 10)) ↦{fullShare} Vv (Pipeline.arrRef spec1 10))) := by
  rw [arrays1_eq V c Vv G hG, bigSep_W1]
  beta_reduce
  rw [share1_0, share1_1, share1_2, share1_3, share1_4, share1_5, share1_6, share1_7, share1_8, share1_9, share1_10]

/-- ENTRY: the ten buffers held whole make the eleven windows' arrays, the node-feature array halved. -/
theorem arrays1_of_bufs (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (Pipeline.arrBufs (Ix := Unit) (Name := ℕ) (U := UR sig nD τ) (Lvl := ℕ) spec1 c Vv : sProp 𝕄) ⊢ (dat1 V c).arrays G := by
  rw [arrBufs1_chain, arrays1_chain V c Vv G hG]
  iintro ⟨H1, H2, H3, H4, H5, H6, H7, H8, H9, H10⟩
  ihave H01 := (pointsTo_share (PosShare.mem_left_op_right fullShare)).1 $$ H1
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- EXIT: the eleven windows' arrays, read off one valuation, make the ten buffers held whole: the two halves of the
    node-feature array joined. -/
theorem bufs_of_arrays1 (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (dat1 V c).arrays G ⊢ (Pipeline.arrBufs (Ix := Unit) (Name := ℕ) (U := UR sig nD τ) (Lvl := ℕ) spec1 c Vv : sProp 𝕄) := by
  rw [arrBufs1_chain, arrays1_chain V c Vv G hG]
  iintro ⟨Ha, Hb, H2, H3, H4, H5, H6, H7, H8, H9, H10⟩
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel.Edge

end
-- ==== Proof.KB.Run.lean ====
/-
  The whole program as a run: two stretches of host operations (reshapes of the inputs, one transpose) and the two
  launches, in order, each entered from a state that holds EVERY unscoped buffer of the core at the boundary's named
  contents, the core's random-generator register at some state, and nothing owed.

  A host stretch turns the buffers' contents into its operations applied to them. A launch takes its windows'
  arrays out of the unscoped buffers, runs its pipeline over them — the body's obligation at every grid point is the
  body's run — and puts them back at what the write-backs leave. The organ launch's arrays are six distinct buffers.
  The edge launch's eleven windows stand on ten buffers: the node-feature array is handed to its two windows as the
  two halves of its ownership and joined again at the exit.

  At the end every unscoped buffer is read against the final memory: the final memory IS the last boundary's
  contents, at every unscoped buffer, the arguments and the two results alike.
-/
import proofs.«177483_j86474871537940_1_alg».proof.Proof.KB.Bounds
import proofs.«177483_j86474871537940_1_alg».proof.Proof.KB.Shares

set_option maxRecDepth 16384

noncomputable section

namespace Cert.Kernel.Run

open Cert.Kernel Cert.Kernel.Gen Cert.Kernel.Organ Cert.Kernel.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The edge launch's exit contents, window by window -/

/-- At the edge launch's exit each window's array holds the exit valuation's contents: the result array what the
    write-backs leave, an input array — never written — what it held at entry. -/
theorem hF1 (c : Dev nD) (w : Fin cfg1.W) : (dat1 (E3 m ρ) c).arrAt w cfg1.N = E4 m ρ c (Pipeline.arrRef spec1 w) := by
  match w with
  | ⟨0, _⟩ => exact (((dat1 (E3 m ρ) c).arrAt_in 0 rfl _).trans (A_eq1 (E3 m ρ) c 0)).trans (B4_of_ne m ρ c _ (by decide)).symm
  | ⟨1, _⟩ => exact (((dat1 (E3 m ρ) c).arrAt_in 1 rfl _).trans (A_eq1 (E3 m ρ) c 1)).trans (B4_of_ne m ρ c _ (by decide)).symm
  | ⟨2, _⟩ => exact (((dat1 (E3 m ρ) c).arrAt_in 2 rfl _).trans (A_eq1 (E3 m ρ) c 2)).trans (B4_of_ne m ρ c _ (by decide)).symm
  | ⟨3, _⟩ => exact (((dat1 (E3 m ρ) c).arrAt_in 3 rfl _).trans (A_eq1 (E3 m ρ) c 3)).trans (B4_of_ne m ρ c _ (by decide)).symm
  | ⟨4, _⟩ => exact (((dat1 (E3 m ρ) c).arrAt_in 4 rfl _).trans (A_eq1 (E3 m ρ) c 4)).trans (B4_of_ne m ρ c _ (by decide)).symm
  | ⟨5, _⟩ => exact (((dat1 (E3 m ρ) c).arrAt_in 5 rfl _).trans (A_eq1 (E3 m ρ) c 5)).trans (B4_of_ne m ρ c _ (by decide)).symm
  | ⟨6, _⟩ => exact (((dat1 (E3 m ρ) c).arrAt_in 6 rfl _).trans (A_eq1 (E3 m ρ) c 6)).trans (B4_of_ne m ρ c _ (by decide)).symm
  | ⟨7, _⟩ => exact (((dat1 (E3 m ρ) c).arrAt_in 7 rfl _).trans (A_eq1 (E3 m ρ) c 7)).trans (B4_of_ne m ρ c _ (by decide)).symm
  | ⟨8, _⟩ => exact (((dat1 (E3 m ρ) c).arrAt_in 8 rfl _).trans (A_eq1 (E3 m ρ) c 8)).trans (B4_of_ne m ρ c _ (by decide)).symm
  | ⟨9, _⟩ => exact (((dat1 (E3 m ρ) c).arrAt_in 9 rfl _).trans (A_eq1 (E3 m ρ) c 9)).trans (B4_of_ne m ρ c _ (by decide)).symm
  | ⟨10, _⟩ => exact (B4_out m ρ c).symm
theorem hrest1 (c : Dev nD) : ∀ b, b ∉ Finset.univ.image (Pipeline.arrRef spec1) → E4 m ρ c b = E3 m ρ c b :=
  fun b hb => B4_of_ne m ρ c b fun e => hb (Finset.mem_image.mpr ⟨10, Finset.mem_univ _, e.symm⟩)

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev Vr : Variants := Variants.none
/-- No core owes another anything: no level is assigned. -/
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The last thread state without the owes: every unscoped buffer at the last boundary's contents, the generator
    register at some state. -/
abbrev Tend (c : Dev nD) : sProp 𝕄 := iprop(StableHlo.held (c : Thread nD τ) (Pipeline.ucRefs τ sig) (B4 m ρ c) ∗ ∃ r, prngReg c r)

/-! ## The launches as segments -/

set_option backward.isDefEq.respectTransparency.types false in
/-- The organ launch: entered from every unscoped buffer at B1, left at B2. -/
def reg0 : Pipeline.RegionSeg (pcfgs (F := F)) adm (pdats m ρ) () defs₀ Vr Lr lvr 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lr lvr 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge launch: entered from every unscoped buffer at B3, left at B4; the node-feature array split between its
    two windows at the entry and joined at the exit. -/
def reg1 : Pipeline.RegionSeg (pcfgs (F := F)) adm (pdats m ρ) () defs₀ Vr Lr lvr 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ Lr lvr 1 fun _ _ => rfl
  pre c := iprop(StableHlo.held (c : Thread nD τ) (Pipeline.ucRefs τ sig) (B3 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit : (unscopedBufs c (E3 m ρ c) : sProp 𝕄)
        ⊢ iprop((pdats m ρ 1 c).arrays ((pdats m ρ 1 c).arrAt · 0) ∗ Pipeline.unscopedRest spec1 c (E3 m ρ c)) := by
      rw [Pipeline.unscopedBufs_split₀ cfgs 1 winFacts₀1.arr_unscoped c (E3 m ρ c)]
      exact sep_mono (arrays1_of_bufs (E3 m ρ) c (E3 m ρ c) _ fun w => A_eq1 (E3 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E3 m ρ c))
        ⊢ (unscopedBufs c (E4 m ρ c) : sProp 𝕄) := by
      rw [Pipeline.unscopedBufs_split₀ cfgs 1 winFacts₀1.arr_unscoped c (E4 m ρ c)]
      refine sep_mono (bufs_of_arrays1 (E3 m ρ) c (E4 m ρ c) _ (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsRun : List (Pipeline.Seg (pcfgs (F := F)) adm (pdats m ρ) () defs₀ Vr Lr lvr) :=
  [ .host (hseg hostOps0 hostOps0_sub hostOps0_fresh (B0 m ρ)),
    .region (reg0 m ρ),
    .host (hseg hostOps1 hostOps1_sub hostOps1_fresh (B2 m ρ)),
    .region (reg1 m ρ) ]
/-- The program IS the run of the segments. -/
theorem main_run (c : Dev nD) : main (F := F) c = Pipeline.Seg.run (segsRun m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and the final memory holds, at every unscoped buffer of every core, the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ Vr Lr lvr m ρ main (segsRun m ρ)
    (fun c Q => by rw [main_run m ρ c])
    (by simp only [segsRun, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tend m ρ)
    (hch := ⟨fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument array ends as launched. -/
theorem kept (c : Dev nD) {r : PUnit × MemSt nD τ sig (Elt F)} (h : ∀ b ∈ Pipeline.ucRefs τ sig, r.2.mem (((c : Thread nD τ)).1, b) = B4 m ρ c b)
    (b : Ref sig .tc) (hu : ¬ (Proc.devRef .tc b : DevRef τ sig).isScoped) (h0 : b ∉ hostOps0_W) (h1 : b ∉ hostOps1_W) (h3 : b ≠ main_v3) (h8 : b ≠ main_v8) :
    r.2.mem ((c.tc : Thread nD τ).loc b) = m ((c.tc : Thread nD τ).loc b) :=
  (h _ (mem_uc b hu)).trans (B4_kept m ρ c b h0 h1 h3 h8)

end Cert.Kernel.Run

end
-- ==== Proof.KI.Region0.lean ====
/-
  The organ head's launch, as the pipeline sees it: one grid point, five input windows (the flattened node
  features, the first weight matrix, its bias row, the second weight column, its bias) each staged whole, and one
  output window, the 1024 results, staged whole and written back once.

  At the point the body finds each input's staging buffer holding that input's whole array; it loads the five,
  loads the output buffer (a value it does not use) and stores one vector, a pure function of the five loads.
  So after the body the output's buffer holds that function of the five arrays, and the inputs' buffers are as
  they were. Stated for any contents V of the core's buffers at the region's entry, and for any float instance.
-/
import proofs.«177483_j86474871537940_1_alg».proof.Proof.Gen.KernelIdeal.Launch
import proofs.«177483_j86474871537940_1_alg».proof.Proof.Gen.KernelIdeal.Skeleton
import proofs.«177483_j86474871537940_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Organ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is V's and whose body leaves the block in place: one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole 1024-vector: the one rectangle the body stores through. -/
abbrev rOut : Rect S1024 := Rect.unit (s := S1024) ![0] S1024.size inb_S1024_S1024_0
abbrev rA : Rect S1024x128 := Rect.unit (s := S1024x128) ![0, 0] S1024x128.size inb_S1024x128_S1024x128_0_0
abbrev rB : Rect S128x256 := Rect.unit (s := S128x256) ![0, 0] S128x256.size inb_S128x256_S128x256_0_0
abbrev rC : Rect S1x256 := Rect.unit (s := S1x256) ![0, 0] S1x256.size inb_S1x256_S1x256_0_0
abbrev rD : Rect S256x1 := Rect.unit (s := S256x1) ![0, 0] S256x1.size inb_S256x1_S256x1_0_0
abbrev rE : Rect S1x1 := Rect.unit (s := S1x1) ![0, 0] S1x1.size inb_S1x1_S1x1_0_0

/-- The output window's staging buffer after the body, from the five input blocks: its one store as a piece. -/
def out0 (x0 : Vec F S1024x128 .f32) (x1 : Vec F S128x256 .f32) (x2 : Vec F S1x256 .f32) (x3 : Vec F S256x1 .f32) (x4 : Vec F S1x1 .f32) : Vec F S1024 .f32 :=
  View.canon [⟨rOut, k0_pay1 (View.ld x0 rA) (View.ld x1 rB) (View.ld x2 rC) (View.ld x3 rD) (View.ld x4 rE)⟩]

/-- The one store covers the buffer. -/
theorem cover0 (p0 : Vec F S1024 .f32) (y : S1024.Idx) :
    ∃ pc ∈ ([⟨rOut, p0⟩] : List (View.Piece (Elt F) S1024 .f32)), y ∈ pc.1.set :=
  View.cover_of_tiled [⟨rOut, p0⟩] S1024.size (by rfl) y

set_option maxHeartbeats 1000000 in
/-- The body on whole staging memrefs, the inputs' at contents x0 … x4 and the output's at anything, runs to the
    continuation holding the inputs' as they were and the output's at out0 of the inputs'. -/
theorem sound_kernel0 (c : Dev nD) (E : Set ℕ) (i : grid0.Coords)
    (arg1 : Memref sig .tc .vmem S1024x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S256x1 .f32) (harg4 : arg4.IsWhole)
    (arg5 : Memref sig .tc .vmem S1x1 .f32) (harg5 : arg5.IsWhole) (arg6 : Memref sig .tc .vmem S1024 .f32) (harg6 : arg6.IsWhole)
    (x0 : Vec F S1024x128 .f32) (x1 : Vec F S128x256 .f32) (x2 : Vec F S1x256 .f32) (x3 : Vec F S256x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__organ_kernel i arg1 harg1 arg2 harg2 arg3 harg3 arg4 harg4 arg5 harg5 arg6 harg6) K := by
  simp only [cc0__organ_kernel_eq_skeleton]; unfold cc0__organ_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of the organ pipeline on core c: the arrays as the region finds them; after the body each
    input's buffer at its block and the output's at out0 of the input blocks; the class invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Organ

end
-- ==== Proof.KI.Region1.lean ====
/-
  The edge head's launch, as the pipeline sees it: a grid of 2 x 8 x 4 points (batch element, block of 64 source
  nodes, block of 128 target nodes); ten input windows — the source nodes' feature rows and the target nodes'
  feature rows, two windows on ONE array, the edge features laid out feature-first, the integer mask, and six
  small parameter arrays staged whole once — and one output window, the 64 x 128 block of edge values, written
  back at every point.

  At every point the body finds each input's staging buffer holding that input's block at the point (an input is
  not refetched while its block index stands still, and the body leaves it in place); it loads the ten, loads the
  output buffer (a value it does not use) and stores one block, a pure function of the ten loads. So after the
  body the output's buffer holds that function of the ten blocks. Stated for any contents V of the core's buffers
  at the region's entry, and for any float instance. The two windows on the node-feature array each hold half of
  the array's share: the left half and the right half of the full share.
-/
import proofs.«177483_j86474871537940_1_alg».proof.Proof.Gen.KernelIdeal.Launch
import proofs.«177483_j86474871537940_1_alg».proof.Proof.Gen.KernelIdeal.Skeleton
import proofs.«177483_j86474871537940_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is V's and whose body leaves the block in place: one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rZi : Rect S1x64x128 := Rect.unit (s := S1x64x128) ![0, 0, 0] S1x64x128.size inb_S1x64x128_S1x64x128_0_0_0
abbrev rZj : Rect S1x128x128 := Rect.unit (s := S1x128x128) ![0, 0, 0] S1x128x128.size inb_S1x128x128_S1x128x128_0_0_0
abbrev rEf : Rect S9x64x128 := Rect.unit (s := S9x64x128) ![0, 0, 0] S9x64x128.size inb_S9x64x128_S9x64x128_0_0_0
abbrev rMask : Rect S64x128 := Rect.unit (s := S64x128) ![0, 0] S64x128.size inb_S64x128_S64x128_0_0
abbrev rW : Rect S128x256 := Rect.unit (s := S128x256) ![0, 0] S128x256.size inb_S128x256_S128x256_0_0
abbrev rWe : Rect S9x256 := Rect.unit (s := S9x256) ![0, 0] S9x256.size inb_S9x256_S9x256_0_0
abbrev rB1 : Rect S1x256 := Rect.unit (s := S1x256) ![0, 0] S1x256.size inb_S1x256_S1x256_0_0
abbrev rW2 : Rect S256x1 := Rect.unit (s := S256x1) ![0, 0] S256x1.size inb_S256x1_S256x1_0_0
abbrev rB2 : Rect S1x1 := Rect.unit (s := S1x1) ![0, 0] S1x1.size inb_S1x1_S1x1_0_0
abbrev rOut : Rect S1x64x128 := Rect.unit (s := S1x64x128) ![0, 0, 0] S1x64x128.size inb_S1x64x128_S1x64x128_0_0_0

/-- The output window's staging buffer after the body, from the ten input blocks: its one store as a piece. -/
def out1 (x0 : Vec F S1x64x128 .f32) (x1 : Vec F S1x128x128 .f32) (x2 : Vec F S9x64x128 .f32) (x3 : Vec F S64x128 .i32) (x4 : Vec F S128x256 .f32) (x5 : Vec F S128x256 .f32) (x6 : Vec F S9x256 .f32) (x7 : Vec F S1x256 .f32) (x8 : Vec F S256x1 .f32) (x9 : Vec F S1x1 .f32) : Vec F S1x64x128 .f32 :=
  View.canon [⟨rOut, k1_pay1 (k1_pay2 (View.ld x0 rZi) (View.ld x4 rW)) (k1_pay3 (View.ld x1 rZj) (View.ld x5 rW)) (View.ld x6 rWe) (k1_pay7 (k1_pay4 (View.ld x2 rEf)) (View.ld x6 rWe) (k1_pay5 (View.ld x2 rEf) (View.ld x6 rWe)) (k1_pay6 (View.ld x2 rEf))) (k1_pay8 (k1_pay4 (View.ld x2 rEf))) (View.ld x7 rB1) (View.ld x8 rW2) (View.ld x9 rB2) (View.ld x3 rMask)⟩]

/-- The one store covers the buffer. -/
theorem cover1 (p0 : Vec F S1x64x128 .f32) (y : S1x64x128.Idx) :
    ∃ pc ∈ ([⟨rOut, p0⟩] : List (View.Piece (Elt F) S1x64x128 .f32)), y ∈ pc.1.set :=
  View.cover_of_tiled [⟨rOut, p0⟩] S1x64x128.size (by rfl) y

set_option maxHeartbeats 4000000 in
/-- The body on whole staging memrefs, the inputs' at contents x0 … x9 and the output's at anything, runs to the
    continuation holding the inputs' as they were and the output's at out1 of the inputs'. -/
theorem sound_kernel1 (c : Dev nD) (E : Set ℕ) (i : grid1.Coords)
    (arg3 : Memref sig .tc .vmem S1x64x128 .f32) (harg3 : arg3.IsWhole) (arg4 : Memref sig .tc .vmem S1x128x128 .f32) (harg4 : arg4.IsWhole) (arg5 : Memref sig .tc .vmem S9x64x128 .f32) (harg5 : arg5.IsWhole) (arg6 : Memref sig .tc .vmem S64x128 .i32) (harg6 : arg6.IsWhole) (arg7 : Memref sig .tc .vmem S128x256 .f32) (harg7 : arg7.IsWhole) (arg8 : Memref sig .tc .vmem S128x256 .f32) (harg8 : arg8.IsWhole) (arg9 : Memref sig .tc .vmem S9x256 .f32) (harg9 : arg9.IsWhole) (arg10 : Memref sig .tc .vmem S1x256 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S1x64x128 .f32) (harg13 : arg13.IsWhole)
    (x0 : Vec F S1x64x128 .f32) (x1 : Vec F S1x128x128 .f32) (x2 : Vec F S9x64x128 .f32) (x3 : Vec F S64x128 .i32) (x4 : Vec F S128x256 .f32) (x5 : Vec F S128x256 .f32) (x6 : Vec F S9x256 .f32) (x7 : Vec F S1x256 .f32) (x8 : Vec F S256x1 .f32) (x9 : Vec F S1x1 .f32)
    (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
            ∗ owns (c : Thread nD τ) arg13 fullShare (out1 x0 x1 x2 x3 x4 x5 x6 x7 x8 x9)) -∗ K ⟨⟩))
      ⊢ wp frame (wpE (defs₀ (F := F)) Variants.none c none) E (cc1__edge_kernel i arg3 harg3 arg4 harg4 arg5 harg5 arg6 harg6 arg7 harg7 arg8 harg8 arg9 harg9 arg10 harg10 arg11 harg11 arg12 harg12 arg13 harg13) K := by
  simp only [cc1__edge_kernel_eq_skeleton]; unfold cc1__edge_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1 _)

/-- The proof data of the edge pipeline on core c: the arrays as the region finds them; after the body each
    input's buffer at its block and the output's at out1 of the input blocks; the class invariant; nothing owed;
    the two windows on the node-feature array at the left and the right half of the full share, every other input
    at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t
    = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Edge

end
-- ==== Proof.KI.Bounds.lean ====
/-
  The whole program's buffer contents, boundary by boundary: two stretches of host operations (reshapes of the inputs, one transpose) and the two
  launches, in order, each entered from a state that holds EVERY unscoped buffer of the core at named contents.

  The contents at the five boundaries: at launch the memory; after the first stretch its operations applied; after
  the organ launch the same with the organ result array at what the launch's one write-back leaves; after the
  second stretch its operations applied; after the edge launch the same with the edge result array at what the 64
  write-backs leave. No host operation and no launch writes an argument array, so each argument array is found at
  every boundary as it was launched.

  The organ launch's arrays are six distinct buffers. The edge launch reads the node-feature array through TWO
  windows: at its entry that array's ownership is split in two halves, one per window, and at its exit the two
  halves — neither window writes — are joined again.
-/
import proofs.«177483_j86474871537940_1_alg».proof.Proof.KI.Region0
import proofs.«177483_j86474871537940_1_alg».proof.Proof.KI.Region1
import proofs.«177483_j86474871537940_1_alg».proof.Proof.Gen.KernelIdeal.Regions

set_option maxRecDepth 16384

noncomputable section

namespace Cert.KernelIdeal.Run

open Cert.KernelIdeal Cert.KernelIdeal.Gen Cert.KernelIdeal.Organ Cert.KernelIdeal.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the first host stretch (the organ launch's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the organ launch's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the edge launch's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the edge launch's exit: the edge result array at what the pipeline leaves, every other buffer as entered
    (the launch's other arrays are inputs, never written). -/
def B4 (c : Dev nD) : Valuation τ sig (Elt F) :=
  Function.update (B3 m ρ c) (Proc.devRef .tc main_v8) ((dat1 (E3 m ρ) c).arrAt 10 cfg1.N)
theorem B4_out (c : Dev nD) : B4 m ρ c (Proc.devRef .tc main_v8) = (dat1 (E3 m ρ) c).arrAt 10 cfg1.N := by
  unfold B4; exact Function.update_self _ _ _
theorem B4_of_ne (c : Dev nD) (b : Ref sig .tc) (hb : b ≠ main_v8) :
    B4 m ρ c (Proc.devRef .tc b) = B3 m ρ c (Proc.devRef .tc b) := by
  unfold B4; exact Function.update_of_ne (StableHlo.devRef_ne_of_ne hb) _ _
abbrev E4 : (c : Dev nD) → (b : Ref sig .tc) → Buf (Elt F) ((c : Thread nD τ).loc b) := fun c b => B4 m ρ c b

/-- The organ launch leaves every buffer but its result array as entered: an input array is never written. -/
theorem B2_keep (c : Dev nD) (b : Ref sig .tc) (hb : b ≠ main_v3) : B2 m ρ c (Proc.devRef .tc b) = B1 m ρ c (Proc.devRef .tc b) := by
  by_cases h : ∃ w, Pipeline.arrRef spec0 w = b
  · obtain ⟨w, rfl⟩ := h
    rw [B2_arr]
    match w with
    | ⟨0, _⟩ => exact ((dat0 (E1 m ρ) c).arrAt_in 0 rfl _).trans (A_eq0 (E1 m ρ) c 0)
    | ⟨1, _⟩ => exact ((dat0 (E1 m ρ) c).arrAt_in 1 rfl _).trans (A_eq0 (E1 m ρ) c 1)
    | ⟨2, _⟩ => exact ((dat0 (E1 m ρ) c).arrAt_in 2 rfl _).trans (A_eq0 (E1 m ρ) c 2)
    | ⟨3, _⟩ => exact ((dat0 (E1 m ρ) c).arrAt_in 3 rfl _).trans (A_eq0 (E1 m ρ) c 3)
    | ⟨4, _⟩ => exact ((dat0 (E1 m ρ) c).arrAt_in 4 rfl _).trans (A_eq0 (E1 m ρ) c 4)
    | ⟨5, _⟩ => exact absurd rfl hb
  · exact B2_of_ne m ρ c b fun w e => h ⟨w, e⟩

/-- A buffer that no host operation and no launch writes holds its launch contents at the end. -/
theorem B4_kept (c : Dev nD) (b : Ref sig .tc) (h0 : b ∉ hostOps0_W) (h1 : b ∉ hostOps1_W) (h3 : b ≠ main_v3) (h8 : b ≠ main_v8) :
    B4 m ρ c (Proc.devRef .tc b) = m ((c : Thread nD τ).loc b) :=
  (B4_of_ne m ρ c b h8).trans <| (StableHlo.after_of_writes_sub hostOps1 _ hostOps1_writes h1).trans <|
    (B2_keep m ρ c b h3).trans <| (StableHlo.after_of_writes_sub hostOps0 _ hostOps0_writes h0).trans rfl

end Cert.KernelIdeal.Run

end
-- ==== Proof.KI.Shares.lean ====
/-
  The edge launch reads the node-feature array through two windows, so the launch's eleven windows stand on ten
  distinct buffers. Ownership of a buffer can be divided: the whole is its left half together with its right half,
  both at the same contents. At the launch's entry the node-feature array, held whole, is handed to the two
  windows as its two halves; at the exit — no window wrote it, both halves still hold the entry contents — the two
  halves are put together again. Every other buffer goes to its one window whole.
-/
import proofs.«177483_j86474871537940_1_alg».proof.Proof.KI.Region1

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The ten distinct buffers behind the eleven windows (windows 0 and 1 stand on the same one), listed. -/
theorem arrBufs1_list (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = bigSepL [Pipeline.arrRef spec1 1, Pipeline.arrRef spec1 2, Pipeline.arrRef spec1 3, Pipeline.arrRef spec1 4, Pipeline.arrRef spec1 5, Pipeline.arrRef spec1 6, Pipeline.arrRef spec1 7, Pipeline.arrRef spec1 8, Pipeline.arrRef spec1 9, Pipeline.arrRef spec1 10] fun b => ((c : Thread nD τ).loc b) ↦{fullShare} Vv b := by
  unfold Pipeline.arrBufs; exact bigSep_eq_bigSepL_of_eq _ (by decide) (by decide) _

/-- The same, one by one. -/
theorem arrBufs1_chain (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop(
      (((c : Thread nD τ).loc (Pipeline.arrRef spec1 1)) ↦{fullShare} Vv (Pipeline.arrRef spec1 1))
      ∗ (((c : Thread nD τ).loc (Pipeline.arrRef spec1 2)) ↦{fullShare} Vv (Pipeline.arrRef spec1 2))
      ∗ (((c : Thread nD τ).loc (Pipeline.arrRef spec1 3)) ↦{fullShare} Vv (Pipeline.arrRef spec1 3))
      ∗ (((c : Thread nD τ).loc (Pipeline.arrRef spec1 4)) ↦{fullShare} Vv (Pipeline.arrRef spec1 4))
      ∗ (((c : Thread nD τ).loc (Pipeline.arrRef spec1 5)) ↦{fullShare} Vv (Pipeline.arrRef spec1 5))
      ∗ (((c : Thread nD τ).loc (Pipeline.arrRef spec1 6)) ↦{fullShare} Vv (Pipeline.arrRef spec1 6))
      ∗ (((c : Thread nD τ).loc (Pipeline.arrRef spec1 7)) ↦{fullShare} Vv (Pipeline.arrRef spec1 7))
      ∗ (((c : Thread nD τ).loc (Pipeline.arrRef spec1 8)) ↦{fullShare} Vv (Pipeline.arrRef spec1 8))
      ∗ (((c : Thread nD τ).loc (Pipeline.arrRef spec1 9)) ↦{fullShare} Vv (Pipeline.arrRef spec1 9))
      ∗ (((c : Thread nD τ).loc (Pipeline.arrRef spec1 10)) ↦{fullShare} Vv (Pipeline.arrRef spec1 10))) := by
  rw [arrBufs1_list]; rfl

/-- The share each window holds of its array: the halves for the two windows on the node-feature array. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl
theorem share1_9 (c : Dev nD) : (dat1 V c).share 9 = fullShare := rfl
theorem share1_10 (c : Dev nD) : (dat1 V c).share 10 = fullShare := rfl

/-- The windows' arrays, each a whole buffer, at contents read off one valuation of the buffers. -/
theorem arrays1_eq (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (dat1 V c).arrays G = bigSep Finset.univ fun w : Fin 11 => ((((c : Thread nD τ).loc (Pipeline.arrRef spec1 w)) ↦{(dat1 V c).share w} Vv (Pipeline.arrRef spec1 w)) : sProp 𝕄) := by
  unfold Dat.arrays
  exact bigSep_congr fun w _ => by rw [(arr_whole1 w).set_eq_univ, hG]

/-- The same, one by one: the node-feature array twice, at the left and at the right half. -/
theorem arrays1_chain (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (dat1 V c).arrays G = iprop(
      ((((c : Thread nD τ).loc (Pipeline.arrRef spec1 1)) ↦{fullShare.left} Vv (Pipeline.arrRef spec1 1)) : sProp 𝕄)
      ∗ (((c : Thread nD τ).loc (Pipeline.arrRef spec1 1)) ↦{fullShare.right} Vv (Pipeline.arrRef spec1 1))
      ∗ (((c : Thread nD τ).loc (Pipeline.arrRef spec1 2)) ↦{fullShare} Vv (Pipeline.arrRef spec1 2))
      ∗ (((c : Thread nD τ).loc (Pipeline.arrRef spec1 3)) ↦{fullShare} Vv (Pipeline.arrRef spec1 3))
      ∗ (((c : Thread nD τ).loc (Pipeline.arrRef spec1 4)) ↦{fullShare} Vv (Pipeline.arrRef spec1 4))
      ∗ (((c : Thread nD τ).loc (Pipeline.arrRef spec1 5)) ↦{fullShare} Vv (Pipeline.arrRef spec1 5))
      ∗ (((c : Thread nD τ).loc (Pipeline.arrRef spec1 6)) ↦{fullShare} Vv (Pipeline.arrRef spec1 6))
      ∗ (((c : Thread nD τ).loc (Pipeline.arrRef spec1 7)) ↦{fullShare} Vv (Pipeline.arrRef spec1 7))
      ∗ (((c : Thread nD τ).loc (Pipeline.arrRef spec1 8)) ↦{fullShare} Vv (Pipeline.arrRef spec1 8))
      ∗ (((c : Thread nD τ).loc (Pipeline.arrRef spec1 9)) ↦{fullShare} Vv (Pipeline.arrRef spec1 9))
      ∗ (((c : Thread nD τ).loc (Pipeline.arrRef spec1 10)) ↦{fullShare} Vv (Pipeline.arrRef spec1 10))) := by
  rw [arrays1_eq V c Vv G hG, bigSep_W1]
  beta_reduce
  rw [share1_0, share1_1, share1_2, share1_3, share1_4, share1_5, share1_6, share1_7, share1_8, share1_9, share1_10]

/-- ENTRY: the ten buffers held whole make the eleven windows' arrays, the node-feature array halved. -/
theorem arrays1_of_bufs (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (Pipeline.arrBufs (Ix := Unit) (Name := ℕ) (U := UR sig nD τ) (Lvl := ℕ) spec1 c Vv : sProp 𝕄) ⊢ (dat1 V c).arrays G := by
  rw [arrBufs1_chain, arrays1_chain V c Vv G hG]
  iintro ⟨H1, H2, H3, H4, H5, H6, H7, H8, H9, H10⟩
  ihave H01 := (pointsTo_share (PosShare.mem_left_op_right fullShare)).1 $$ H1
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- EXIT: the eleven windows' arrays, read off one valuation, make the ten buffers held whole: the two halves of the
    node-feature array joined. -/
theorem bufs_of_arrays1 (c : Dev nD) (Vv : (b : Ref sig .tc) → Buf (Elt F) ((c : Thread nD τ).loc b))
    (G : (w : Fin cfg1.W) → Buf (Elt F) ((cfg1.win w).arr.view.loc (c : Thread nD τ))) (hG : ∀ w, G w = Vv (Pipeline.arrRef spec1 w)) :
    (dat1 V c).arrays G ⊢ (Pipeline.arrBufs (Ix := Unit) (Name := ℕ) (U := UR sig nD τ) (Lvl := ℕ) spec1 c Vv : sProp 𝕄) := by
  rw [arrBufs1_chain, arrays1_chain V c Vv G hG]
  iintro ⟨Ha, Hb, H2, H3, H4, H5, H6, H7, H8, H9, H10⟩
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Edge

end
-- ==== Proof.KI.Run.lean ====
/-
  The whole program as a run: two stretches of host operations (reshapes of the inputs, one transpose) and the two
  launches, in order, each entered from a state that holds EVERY unscoped buffer of the core at the boundary's named
  contents, the core's random-generator register at some state, and nothing owed.

  A host stretch turns the buffers' contents into its operations applied to them. A launch takes its windows'
  arrays out of the unscoped buffers, runs its pipeline over them — the body's obligation at every grid point is the
  body's run — and puts them back at what the write-backs leave. The organ launch's arrays are six distinct buffers.
  The edge launch's eleven windows stand on ten buffers: the node-feature array is handed to its two windows as the
  two halves of its ownership and joined again at the exit.

  At the end every unscoped buffer is read against the final memory: the final memory IS the last boundary's
  contents, at every unscoped buffer, the arguments and the two results alike.
-/
import proofs.«177483_j86474871537940_1_alg».proof.Proof.KI.Bounds
import proofs.«177483_j86474871537940_1_alg».proof.Proof.KI.Shares

set_option maxRecDepth 16384

noncomputable section

namespace Cert.KernelIdeal.Run

open Cert.KernelIdeal Cert.KernelIdeal.Gen Cert.KernelIdeal.Organ Cert.KernelIdeal.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The edge launch's exit contents, window by window -/

/-- At the edge launch's exit each window's array holds the exit valuation's contents: the result array what the
    write-backs leave, an input array — never written — what it held at entry. -/
theorem hF1 (c : Dev nD) (w : Fin cfg1.W) : (dat1 (E3 m ρ) c).arrAt w cfg1.N = E4 m ρ c (Pipeline.arrRef spec1 w) := by
  match w with
  | ⟨0, _⟩ => exact (((dat1 (E3 m ρ) c).arrAt_in 0 rfl _).trans (A_eq1 (E3 m ρ) c 0)).trans (B4_of_ne m ρ c _ (by decide)).symm
  | ⟨1, _⟩ => exact (((dat1 (E3 m ρ) c).arrAt_in 1 rfl _).trans (A_eq1 (E3 m ρ) c 1)).trans (B4_of_ne m ρ c _ (by decide)).symm
  | ⟨2, _⟩ => exact (((dat1 (E3 m ρ) c).arrAt_in 2 rfl _).trans (A_eq1 (E3 m ρ) c 2)).trans (B4_of_ne m ρ c _ (by decide)).symm
  | ⟨3, _⟩ => exact (((dat1 (E3 m ρ) c).arrAt_in 3 rfl _).trans (A_eq1 (E3 m ρ) c 3)).trans (B4_of_ne m ρ c _ (by decide)).symm
  | ⟨4, _⟩ => exact (((dat1 (E3 m ρ) c).arrAt_in 4 rfl _).trans (A_eq1 (E3 m ρ) c 4)).trans (B4_of_ne m ρ c _ (by decide)).symm
  | ⟨5, _⟩ => exact (((dat1 (E3 m ρ) c).arrAt_in 5 rfl _).trans (A_eq1 (E3 m ρ) c 5)).trans (B4_of_ne m ρ c _ (by decide)).symm
  | ⟨6, _⟩ => exact (((dat1 (E3 m ρ) c).arrAt_in 6 rfl _).trans (A_eq1 (E3 m ρ) c 6)).trans (B4_of_ne m ρ c _ (by decide)).symm
  | ⟨7, _⟩ => exact (((dat1 (E3 m ρ) c).arrAt_in 7 rfl _).trans (A_eq1 (E3 m ρ) c 7)).trans (B4_of_ne m ρ c _ (by decide)).symm
  | ⟨8, _⟩ => exact (((dat1 (E3 m ρ) c).arrAt_in 8 rfl _).trans (A_eq1 (E3 m ρ) c 8)).trans (B4_of_ne m ρ c _ (by decide)).symm
  | ⟨9, _⟩ => exact (((dat1 (E3 m ρ) c).arrAt_in 9 rfl _).trans (A_eq1 (E3 m ρ) c 9)).trans (B4_of_ne m ρ c _ (by decide)).symm
  | ⟨10, _⟩ => exact (B4_out m ρ c).symm
theorem hrest1 (c : Dev nD) : ∀ b, b ∉ Finset.univ.image (Pipeline.arrRef spec1) → E4 m ρ c b = E3 m ρ c b :=
  fun b hb => B4_of_ne m ρ c b fun e => hb (Finset.mem_image.mpr ⟨10, Finset.mem_univ _, e.symm⟩)

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev Vr : Variants := Variants.none
/-- No core owes another anything: no level is assigned. -/
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The last thread state without the owes: every unscoped buffer at the last boundary's contents, the generator
    register at some state. -/
abbrev Tend (c : Dev nD) : sProp 𝕄 := iprop(StableHlo.held (c : Thread nD τ) (Pipeline.ucRefs τ sig) (B4 m ρ c) ∗ ∃ r, prngReg c r)

/-! ## The launches as segments -/

set_option backward.isDefEq.respectTransparency.types false in
/-- The organ launch: entered from every unscoped buffer at B1, left at B2. -/
def reg0 : Pipeline.RegionSeg (pcfgs (F := F)) adm (pdats m ρ) () defs₀ Vr Lr lvr 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lr lvr 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge launch: entered from every unscoped buffer at B3, left at B4; the node-feature array split between its
    two windows at the entry and joined at the exit. -/
def reg1 : Pipeline.RegionSeg (pcfgs (F := F)) adm (pdats m ρ) () defs₀ Vr Lr lvr 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ Lr lvr 1 fun _ _ => rfl
  pre c := iprop(StableHlo.held (c : Thread nD τ) (Pipeline.ucRefs τ sig) (B3 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit : (unscopedBufs c (E3 m ρ c) : sProp 𝕄)
        ⊢ iprop((pdats m ρ 1 c).arrays ((pdats m ρ 1 c).arrAt · 0) ∗ Pipeline.unscopedRest spec1 c (E3 m ρ c)) := by
      rw [Pipeline.unscopedBufs_split₀ cfgs 1 winFacts₀1.arr_unscoped c (E3 m ρ c)]
      exact sep_mono (arrays1_of_bufs (E3 m ρ) c (E3 m ρ c) _ fun w => A_eq1 (E3 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E3 m ρ c))
        ⊢ (unscopedBufs c (E4 m ρ c) : sProp 𝕄) := by
      rw [Pipeline.unscopedBufs_split₀ cfgs 1 winFacts₀1.arr_unscoped c (E4 m ρ c)]
      refine sep_mono (bufs_of_arrays1 (E3 m ρ) c (E4 m ρ c) _ (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsRun : List (Pipeline.Seg (pcfgs (F := F)) adm (pdats m ρ) () defs₀ Vr Lr lvr) :=
  [ .host (hseg hostOps0 hostOps0_sub hostOps0_fresh (B0 m ρ)),
    .region (reg0 m ρ),
    .host (hseg hostOps1 hostOps1_sub hostOps1_fresh (B2 m ρ)),
    .region (reg1 m ρ) ]
/-- The program IS the run of the segments. -/
theorem main_run (c : Dev nD) : main (F := F) c = Pipeline.Seg.run (segsRun m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and the final memory holds, at every unscoped buffer of every core, the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ Vr Lr lvr m ρ main (segsRun m ρ)
    (fun c Q => by rw [main_run m ρ c])
    (by simp only [segsRun, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tend m ρ)
    (hch := ⟨fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument array ends as launched. -/
theorem kept (c : Dev nD) {r : PUnit × MemSt nD τ sig (Elt F)} (h : ∀ b ∈ Pipeline.ucRefs τ sig, r.2.mem (((c : Thread nD τ)).1, b) = B4 m ρ c b)
    (b : Ref sig .tc) (hu : ¬ (Proc.devRef .tc b : DevRef τ sig).isScoped) (h0 : b ∉ hostOps0_W) (h1 : b ∉ hostOps1_W) (h3 : b ≠ main_v3) (h8 : b ≠ main_v8) :
    r.2.mem ((c.tc : Thread nD τ).loc b) = m ((c.tc : Thread nD τ).loc b) :=
  (h _ (mem_uc b hu)).trans (B4_kept m ρ c b h0 h1 h3 h8)

end Cert.KernelIdeal.Run

end
-- ==== Proof.LibLayout.lean ====
/-
  Layout operations of a vector program read at an index given by coordinates, at the arrangements a pair of
  multilayer heads meets: a trailing unit axis added or dropped, a unit axis put in the middle or two in front, a
  three-axis array flattened on its two leading axes to a matrix and a vector folded back to a matrix (the row of
  (i, j) is i * b + j), one slab cut along the leading axis, a unit axis broadcast along each position of a
  three-axis array, the one entry of a one-by-one array, and a plain matrix product accumulated into the zero
  splat as the sum over the contracted coordinate. Every statement is over arbitrary extents; each index is
  written by its coordinates, so that a statement applies to a printed operation by unification.
-/
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.Lib.Layout

open Idealize.ShloMosaic Idealize.ShloMosaic.ValueIdx

variable {α : Type}

/-! ## Shape casts -/

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- An [a] array cast to [1, 1, a] reads, at (u, v, i), the operand at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add, Nat.mul_one, Nat.add_zero])

/-- An [a, c] array cast to [a, 1, c] reads, at (i, u, k), the operand at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An [a, b, c] array flattened on its two leading axes to [m, c] reads, at (p, k) with p = i * b + j, the operand
    at (i, j, k). -/
theorem shapeCast_abc_mc_apply {a b c m : ℕ} (x : (⟨3, ![a, b, c]⟩ : Shape).Idx → α)
    (h : (⟨3, ![a, b, c]⟩ : Shape).ShapeCasts ⟨2, ![m, c]⟩) (p : Fin m) (k : Fin c) (i : Fin a) (j : Fin b)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- An [m] array folded to [a, b] reads, at (i, j), the operand at p = i * b + j. -/
theorem shapeCast_m_ab_apply {a b m : ℕ} (x : (⟨1, ![m]⟩ : Shape).Idx → α)
    (h : (⟨1, ![m]⟩ : Shape).ShapeCasts ⟨2, ![a, b]⟩) (i : Fin a) (j : Fin b) (p : Fin m)
    (hp : p.val = i.val * b + j.val) :
    shapeCast ⟨2, ![a, b]⟩ x h (ix2 i j) = x (ix1 p) :=
  shapeCast_apply x h _ _ (by
    rw [Shape.rowMajor_val_two, Shape.rowMajor_val_one]
    show p.val = i.val * b + j.val
    exact hp)

/-! ## One slab along the leading axis -/

/-- A rank-3 array cut along axis 0 from o reads, at (j, b, e), the source at (k, b, e) with k = o + j. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## A unit axis broadcast, at each position of a three-axis array -/

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, 1, c] array broadcast to [a, b, c] reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## The one entry of a one-by-one array -/

/-- The entry of a [1, 1] array extracted at position (0, 0) is the array at (0, 0). -/
theorem extractAt_00_apply (x : (⟨2, ![1, 1]⟩ : Shape).Idx → α)
    (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

/-! ## A plain matrix product into the zero splat -/

/-- At the extended reals, an m-by-k matrix times a k-by-n matrix accumulated into the zero splat reads, at
    (r, c), the sum over the contracted coordinate d of the products of the entries at (r, d) and (d, c). -/
theorem matmul_plain_zero_apply {m k n : ℕ} {φ₁ φ₂ : FTy} (prec : Option ContractPrecision)
    (A : FVec Ideal ⟨2, ![m, k]⟩ φ₁) (B : FVec Ideal ⟨2, ![k, n]⟩ φ₂) (r : Fin m) (c : Fin n) :
    matmul (DotDims.plain m k n) prec A B (constant (F := Ideal) ⟨2, ![m, n]⟩ .f32 0x00000000#32) (ix2 r c)
      = ∑ d : Fin k, A (ix2 r d) * B (ix2 d c) := by
  rw [matmul_zero_eq_dotGeneral]
  exact StackMember.dotGeneral_plain_apply prec A B r c

end Cert.Lib.Layout

end
-- ==== Proof.LibTranspose.lean ====
/-
  A three-axis array with its last axis moved to the front, read at an index given by coordinates: the
  transpose with permutation [2, 0, 1] of an [a, b, c] array is the [c, a, b] array whose entry at (k, i, j) is the
  operand's entry at (i, j, k). Stated over arbitrary extents.
-/
import Idealize.ShloMosaic.Lib.ValueIdx
import Idealize.ShloMosaic.Lib.Pipeline.Value

namespace Cert.Lib.Layout

open Idealize.ShloMosaic Idealize.ShloMosaic.ValueIdx

variable {α : Type}

/-- An [a, b, c] array transposed by [2, 0, 1] reads, at (k, i, j), the operand at (i, j, k). -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun e => match e with | ⟨0, _⟩ => rfl | ⟨1, _⟩ => rfl | ⟨2, _⟩ => rfl

end Cert.Lib.Layout
-- ==== Proof.KI.HostReads.lean ====
/-
  What the two stretches of host operations leave in the buffers the two launches read, entry by entry, in terms
  of the launch memory.

  Before the organ launch three reshapes run: the node features [2, 512, 128] flattened to [1024, 128] (row
  b * 512 + n is node n of batch element b), the first bias [256] as a row [1, 256], the scalar bias [1] as [1, 1].
  Between the launches four operations run: the organ result [1024] folded to [2, 512], the edge features
  [512, 512, 9] with their last axis moved to the front, [9, 512, 512], and the edge head's bias [256] and scalar
  bias [1] as [1, 256] and [1, 1]. No operation and no launch writes an argument array, so an argument array is read
  at either launch as it was launched.
-/
import proofs.«177483_j86474871537940_1_alg».proof.Proof.KI.Bounds
import proofs.«177483_j86474871537940_1_alg».proof.Proof.LibLayout
import proofs.«177483_j86474871537940_1_alg».proof.Proof.LibTranspose
import Idealize.ShloMosaic.Lib.ValueIdx
import Idealize.ShloMosaic.Lib.Pipeline.Value
import Idealize.ShloMosaic.Lib.ValueLayout

set_option maxRecDepth 16384

noncomputable section

namespace Cert.KernelIdeal.Results

open Cert.KernelIdeal Cert.KernelIdeal.Gen Cert.KernelIdeal.Run
open Idealize.ShloMosaic Idealize.ShloMosaic.TcCoe Idealize.SL.Sem Idealize.ShloMosaic.ValueIdx Cert.Lib.Layout

variable (m : (ℓ : Loc nD τ sig) → Buf (Elt Ideal) ℓ) (ρ : Dev nD → PrngReg)

/-! ## Buffers nothing has written -/

/-- At the organ launch's entry a buffer the first stretch does not write holds its launch contents. -/
theorem E1_kept (c : Dev nD) (b : Ref sig .tc) (h0 : b ∉ hostOps0_W) : E1 m ρ c b = m ((c : Thread nD τ).loc b) :=
  (StableHlo.after_of_writes_sub hostOps0 _ hostOps0_writes h0).trans rfl

/-- After the organ launch a buffer that neither the first stretch nor the launch writes holds its launch
    contents. -/
theorem B2_kept (c : Dev nD) (b : Ref sig .tc) (h0 : b ∉ hostOps0_W) (h3 : b ≠ main_v3) :
    B2 m ρ c (Proc.devRef .tc b) = m ((c : Thread nD τ).loc b) :=
  (B2_keep m ρ c b h3).trans (E1_kept m ρ c b h0)

/-- At the edge launch's entry a buffer that no stretch and no launch has written holds its launch contents. -/
theorem E3_kept (c : Dev nD) (b : Ref sig .tc) (h0 : b ∉ hostOps0_W) (h1 : b ∉ hostOps1_W) (h3 : b ≠ main_v3) :
    E3 m ρ c b = m ((c : Thread nD τ).loc b) :=
  (StableHlo.after_of_writes_sub hostOps1 _ hostOps1_writes h1).trans (B2_kept m ρ c b h0 h3)

/-! ## The first stretch's results -/

/-- The flattened node features are the reshape of the launched node features. -/
theorem E1_v0_eq (c : Dev nD) :
    (E1 m ρ c main_v0 : S1024x128.Idx → EReal)
      = shapeCast S1024x128 (m ((c : Thread nD τ).loc main_arg0) : S2x512x128.Idx → EReal)
          Facts₀.shapeCasts_S2x512x128_S1024x128 := by
  show StableHlo.after hostOps0 (B0 m ρ c) (Proc.devRef .tc main_v0) = _
  after_results
  rfl

/-- Row b * 512 + n of the flattened node features is node n of batch element b. -/
theorem E1_v0_apply (c : Dev nD) (r : Fin 1024) (d : Fin 128) (b : Fin 2) (n : Fin 512)
    (hr : r.val = b.val * 512 + n.val) :
    (E1 m ρ c main_v0 : S1024x128.Idx → EReal) (ix2 r d)
      = (m ((c : Thread nD τ).loc main_arg0) : S2x512x128.Idx → EReal) (ix3 b n d) := by
  rw [E1_v0_eq]
  exact shapeCast_abc_mc_apply _ _ r d b n hr

/-- The organ head's bias row is the reshape of the launched bias. -/
theorem E1_v1_eq (c : Dev nD) :
    (E1 m ρ c main_v1 : S1x256.Idx → EReal)
      = shapeCast S1x256 (m ((c : Thread nD τ).loc main_arg4) : S256.Idx → EReal) Facts₀.shapeCasts_S256_S1x256 := by
  show StableHlo.after hostOps0 (B0 m ρ c) (Proc.devRef .tc main_v1) = _
  after_results
  rfl

theorem E1_v1_apply (c : Dev nD) (u : Fin 1) (h : Fin 256) :
    (E1 m ρ c main_v1 : S1x256.Idx → EReal) (ix2 u h) = (m ((c : Thread nD τ).loc main_arg4) : S256.Idx → EReal) (ix1 h) := by
  rw [E1_v1_eq]
  exact shapeCast_a_1a_apply _ _ u h

/-- The organ head's scalar bias as a one-by-one array is the reshape of the launched scalar. -/
theorem E1_v2_eq (c : Dev nD) :
    (E1 m ρ c main_v2 : S1x1.Idx → EReal)
      = shapeCast S1x1 (m ((c : Thread nD τ).loc main_arg6) : S1.Idx → EReal) Facts₀.shapeCasts_S1_S1x1 := by
  show StableHlo.after hostOps0 (B0 m ρ c) (Proc.devRef .tc main_v2) = _
  after_results
  rfl

theorem E1_v2_apply (c : Dev nD) (u v : Fin 1) :
    (E1 m ρ c main_v2 : S1x1.Idx → EReal) (ix2 u v) = (m ((c : Thread nD τ).loc main_arg6) : S1.Idx → EReal) (ix1 v) := by
  rw [E1_v2_eq]
  exact shapeCast_a_1a_apply _ _ u v

/-! ## The second stretch's results -/

/-- The organ result folded to [2, 512] is the reshape of the organ launch's result array. -/
theorem B3_v4_eq (c : Dev nD) :
    (B3 m ρ c (Proc.devRef .tc main_v4) : S2x512.Idx → EReal)
      = shapeCast S2x512 (B2 m ρ c (Proc.devRef .tc main_v3) : S1024.Idx → EReal) Facts₀.shapeCasts_S1024_S2x512 := by
  show StableHlo.after hostOps1 (B2 m ρ c) (Proc.devRef .tc main_v4) = _
  after_results
  rfl

/-- Entry (b, n) of the folded organ result is entry b * 512 + n of the organ launch's result array. -/
theorem B3_v4_apply (c : Dev nD) (b : Fin 2) (n : Fin 512) (r : Fin 1024) (hr : r.val = b.val * 512 + n.val) :
    (B3 m ρ c (Proc.devRef .tc main_v4) : S2x512.Idx → EReal) (ix2 b n)
      = (B2 m ρ c (Proc.devRef .tc main_v3) : S1024.Idx → EReal) (ix1 r) := by
  rw [B3_v4_eq]
  exact shapeCast_m_ab_apply _ _ b n r hr

/-- The edge features with their last axis in front are the transpose of the launched edge features. -/
theorem E3_v5_eq (c : Dev nD) :
    (E3 m ρ c main_v5 : S9x512x512.Idx → EReal)
      = transpose S9x512x512 [2, 0, 1] (m ((c : Thread nD τ).loc main_arg1) : S512x512x9.Idx → EReal)
          Facts₀.transposes_S512x512x9_S9x512x512_2_0_1 := by
  show StableHlo.after hostOps1 (B2 m ρ c) (Proc.devRef .tc main_v5) = _
  after_results
  rw [B2_kept m ρ c main_arg1 (by decide) (by decide)]

/-- Entry (d, i, j) of the transposed edge features is entry (i, j, d) of the launched edge features. -/
theorem E3_v5_apply (c : Dev nD) (d : Fin 9) (i j : Fin 512) :
    (E3 m ρ c main_v5 : S9x512x512.Idx → EReal) (ix3 d i j)
      = (m ((c : Thread nD τ).loc main_arg1) : S512x512x9.Idx → EReal) (ix3 i j d) := by
  rw [E3_v5_eq]
  exact transpose_ix3_201_apply _ _ d i j

/-- The edge head's bias row is the reshape of the launched bias. -/
theorem E3_v6_eq (c : Dev nD) :
    (E3 m ρ c main_v6 : S1x256.Idx → EReal)
      = shapeCast S1x256 (m ((c : Thread nD τ).loc main_arg10) : S256.Idx → EReal) Facts₀.shapeCasts_S256_S1x256 := by
  show StableHlo.after hostOps1 (B2 m ρ c) (Proc.devRef .tc main_v6) = _
  after_results
  rw [B2_kept m ρ c main_arg10 (by decide) (by decide)]
  rfl

theorem E3_v6_apply (c : Dev nD) (u : Fin 1) (h : Fin 256) :
    (E3 m ρ c main_v6 : S1x256.Idx → EReal) (ix2 u h) = (m ((c : Thread nD τ).loc main_arg10) : S256.Idx → EReal) (ix1 h) := by
  rw [E3_v6_eq]
  exact shapeCast_a_1a_apply _ _ u h

/-- The edge head's scalar bias as a one-by-one array is the reshape of the launched scalar. -/
theorem E3_v7_eq (c : Dev nD) :
    (E3 m ρ c main_v7 : S1x1.Idx → EReal)
      = shapeCast S1x1 (m ((c : Thread nD τ).loc main_arg12) : S1.Idx → EReal) Facts₀.shapeCasts_S1_S1x1 := by
  show StableHlo.after hostOps1 (B2 m ρ c) (Proc.devRef .tc main_v7) = _
  after_results
  rw [B2_kept m ρ c main_arg12 (by decide) (by decide)]
  rfl

theorem E3_v7_apply (c : Dev nD) (u v : Fin 1) :
    (E3 m ρ c main_v7 : S1x1.Idx → EReal) (ix2 u v) = (m ((c : Thread nD τ).loc main_arg12) : S1.Idx → EReal) (ix1 v) := by
  rw [E3_v7_eq]
  exact shapeCast_a_1a_apply _ _ u v

end Cert.KernelIdeal.Results

end
-- ==== Proof.Spec.lean ====
/-
  The two heads as functions of single rows, over the extended reals.

  Organ head, at one node with feature row z (128 numbers): a hidden layer of 256 rectified units
  max (sum_d z d * W1 d h + b1 h, 0), contracted with the column W2, shifted by b2, through the logistic function.

  Edge head, at one ordered pair (i, j) of nodes of one batch element, with feature rows zi, zj (128 numbers each),
  edge features e (9 numbers) and a mask value: 256 rectified units over the sum of three projections
  sum_d zi d * Wi d h, sum_d zj d * Wj d h, sum_d e d * We d h and a bias b1 h, contracted with W2, shifted by b2,
  through the logistic function, times the mask value.

  The same edge value can be accumulated in another order: the nine-term projection of the edge features summed
  term by term from zero, and the three projections and the bias added as ((pe + pi) + pj) + b1 instead of
  ((pi + pj) + pe) + b1. Addition on the extended reals is commutative and associative and zero is neutral, at the
  infinities too, so the two orders give one value for all extended-real inputs: no finiteness is used.

  Zero is kept as the single-precision word 0x00000000 wherever a program writes that word; it denotes 0.
-/
import Idealize.ShloMosaic.PureOps.Ideal
import Idealize.ShloMosaic.PureOps.Ideal.Laws
import Mathlib.Algebra.BigOperators.Fin

noncomputable section

namespace Cert.Spec

open Idealize.ShloMosaic

/-- A rectified unit: the maximum with zero, zero written as the single-precision zero word. -/
def relu (x : EReal) : EReal := max x (Ideal.ofBits .f32 0x00000000#32)

/-- The organ head at one node: logistic ((sum_h relu (sum_d z d * W1 d h + b1 h) * W2 h) + b2). -/
def organAt (z : Fin 128 → EReal) (W1 : Fin 128 → Fin 256 → EReal) (b1 : Fin 256 → EReal) (W2 : Fin 256 → EReal)
    (b2 : EReal) : EReal :=
  Ideal.logistic ((∑ h : Fin 256, relu ((∑ d : Fin 128, z d * W1 d h) + b1 h) * W2 h) + b2)

/-- The edge head at one ordered pair of nodes, the three projections added as ((pi + pj) + pe) + b1. -/
def edgeAt (zi zj : Fin 128 → EReal) (e : Fin 9 → EReal) (mask : EReal) (Wi Wj : Fin 128 → Fin 256 → EReal)
    (We : Fin 9 → Fin 256 → EReal) (b1 W2 : Fin 256 → EReal) (b2 : EReal) : EReal :=
  Ideal.logistic ((∑ h : Fin 256, relu ((((∑ d : Fin 128, zi d * Wi d h) + (∑ d : Fin 128, zj d * Wj d h))
      + (∑ d : Fin 9, e d * We d h)) + b1 h) * W2 h) + b2) * mask

/-- Nine products added one after the other, starting from the zero word. -/
def acc9 (e w : Fin 9 → EReal) : EReal :=
  ((((((((Ideal.ofBits .f32 0x00000000#32 + e 0 * w 0) + e 1 * w 1) + e 2 * w 2) + e 3 * w 3) + e 4 * w 4)
    + e 5 * w 5) + e 6 * w 6) + e 7 * w 7) + e 8 * w 8

/-- The edge head with the edge-feature projection accumulated term by term and the summands added as
    ((pe + pi) + pj) + b1. -/
def edgeAccAt (zi zj : Fin 128 → EReal) (e : Fin 9 → EReal) (mask : EReal) (Wi Wj : Fin 128 → Fin 256 → EReal)
    (We : Fin 9 → Fin 256 → EReal) (b1 W2 : Fin 256 → EReal) (b2 : EReal) : EReal :=
  Ideal.logistic ((∑ h : Fin 256, relu ((((acc9 e fun d => We d h) + (∑ d : Fin 128, zi d * Wi d h))
      + (∑ d : Fin 128, zj d * Wj d h)) + b1 h) * W2 h) + b2) * mask

/-- Adding nine terms one by one from zero gives their sum. -/
theorem acc9_eq (e w : Fin 9 → EReal) : acc9 e w = ∑ d : Fin 9, e d * w d := by
  unfold acc9
  rw [Ideal.ofBits_zero_f32]
  simp only [Fin.sum_univ_castSucc, Fin.sum_univ_zero]
  rfl

/-- The two orders of accumulation give the same edge value, at every extended-real input. -/
theorem edgeAccAt_eq (zi zj : Fin 128 → EReal) (e : Fin 9 → EReal) (mask : EReal) (Wi Wj : Fin 128 → Fin 256 → EReal)
    (We : Fin 9 → Fin 256 → EReal) (b1 W2 : Fin 256 → EReal) (b2 : EReal) :
    edgeAccAt zi zj e mask Wi Wj We b1 W2 b2 = edgeAt zi zj e mask Wi Wj We b1 W2 b2 := by
  unfold edgeAccAt edgeAt
  refine congrArg (fun s => Ideal.logistic (s + b2) * mask) (Finset.sum_congr rfl fun h _ => ?_)
  rw [acc9_eq]
  refine congrArg (fun s => relu (s + b1 h) * W2 h) ?_
  rw [add_comm (∑ d : Fin 9, e d * We d h) (∑ d : Fin 128, zi d * Wi d h), add_right_comm]

end Cert.Spec

end
-- ==== Proof.KI.ResCongr.lean ====
/-
  The two heads depend on their arguments only through the arguments' values: heads of rows that agree entry by
  entry are equal.
-/
import proofs.«177483_j86474871537940_1_alg».proof.Proof.Spec

noncomputable section

namespace Cert.KernelIdeal.Results

/-- Organ heads of arguments that agree entry by entry are equal. -/
theorem organAt_congr {z z' : Fin 128 → EReal} {W1 W1' : Fin 128 → Fin 256 → EReal} {b1 b1' W2 W2' : Fin 256 → EReal}
    {b2 b2' : EReal} (hz : ∀ d, z d = z' d) (hW1 : ∀ d h, W1 d h = W1' d h) (hb1 : ∀ h, b1 h = b1' h)
    (hW2 : ∀ h, W2 h = W2' h) (hb2 : b2 = b2') :
    Cert.Spec.organAt z W1 b1 W2 b2 = Cert.Spec.organAt z' W1' b1' W2' b2' := by
  obtain rfl : z = z' := funext hz
  obtain rfl : W1 = W1' := funext fun d => funext (hW1 d)
  obtain rfl : b1 = b1' := funext hb1
  obtain rfl : W2 = W2' := funext hW2
  rw [hb2]

/-- Edge heads of arguments that agree entry by entry are equal. -/
theorem edgeAt_congr {zi zi' zj zj' : Fin 128 → EReal} {e e' : Fin 9 → EReal} {mask mask' : EReal}
    {Wi Wi' Wj Wj' : Fin 128 → Fin 256 → EReal} {We We' : Fin 9 → Fin 256 → EReal} {b1 b1' W2 W2' : Fin 256 → EReal}
    {b2 b2' : EReal} (hzi : ∀ d, zi d = zi' d) (hzj : ∀ d, zj d = zj' d) (he : ∀ d, e d = e' d) (hmask : mask = mask')
    (hWi : ∀ d h, Wi d h = Wi' d h) (hWj : ∀ d h, Wj d h = Wj' d h) (hWe : ∀ d h, We d h = We' d h)
    (hb1 : ∀ h, b1 h = b1' h) (hW2 : ∀ h, W2 h = W2' h) (hb2 : b2 = b2') :
    Cert.Spec.edgeAt zi zj e mask Wi Wj We b1 W2 b2 = Cert.Spec.edgeAt zi' zj' e' mask' Wi' Wj' We' b1' W2' b2' := by
  obtain rfl : zi = zi' := funext hzi
  obtain rfl : zj = zj' := funext hzj
  obtain rfl : e = e' := funext he
  obtain rfl : Wi = Wi' := funext fun d => funext (hWi d)
  obtain rfl : Wj = Wj' := funext fun d => funext (hWj d)
  obtain rfl : We = We' := funext fun d => funext (hWe d)
  obtain rfl : b1 = b1' := funext hb1
  obtain rfl : W2 = W2' := funext hW2
  rw [hmask, hb2]

end Cert.KernelIdeal.Results

end
-- ==== Proof.PayOrgan.lean ====
/-
  The organ head's stored value, read at one row.

  The body multiplies the 1024 feature rows by the first weight matrix into a zero accumulator, adds the bias row
  to every row, takes the maximum with zero, multiplies by the one-column second weight matrix into a zero
  accumulator, reads the resulting column as a vector, adds the scalar bias and applies the logistic function.
  Over the extended reals a change of float format is the identity and a matrix product into zero is the plain sum
  over the contracted coordinate, so at row r the stored value is the organ head of Spec at the r-th feature row.
-/
import proofs.«177483_j86474871537940_1_alg».proof.Proof.Gen.KernelIdeal.Skeleton
import proofs.«177483_j86474871537940_1_alg».proof.Proof.Spec
import proofs.«177483_j86474871537940_1_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KerBridge

open Cert.KernelIdeal Cert.KernelIdeal.Gen Idealize.ShloMosaic Idealize.ShloMosaic.ValueIdx Cert.Lib.Layout

/-- The hidden layer before the rectifier: row r of the features times column h of the first weights, plus the
    bias at h. -/
theorem organ_hidden (v0 : Vec Ideal S1024x128 .f32) (v3 : Vec Ideal S128x256 .f32) (v6 : Vec Ideal S1x256 .f32)
    (r : Fin 1024) (h : Fin 256) :
    addf (matmul dot_S1024x128_S128x256_S1024x256_1_0_0_1_n_n none
            (truncf .bf16 (shapeCast S1024x128 v0 Facts₀.shapeCasts_S1024x128_S1024x128) Facts₀.bitsLt_bf16_f32)
            (truncf .bf16 v3 Facts₀.bitsLt_bf16_f32) (constant (F := Ideal) S1024x256 .f32 0x00000000#32))
         (broadcastTo S1024x256 (shapeCast S1x256 (shapeCast S256 v6 Facts₀.shapeCasts_S1x256_S256)
            Facts₀.shapeCasts_S256_S1x256) Facts₀.broadcasts_S1x256_S1024x256) (ix2 r h)
      = (∑ d : Fin 128, v0 (ix2 r d) * v3 (ix2 d h)) + v6 (ix2 0 h) := by
  rw [shapeCast_self, shapeCast_shapeCast]
  show (matmul (F := Ideal) (DotDims.plain 1024 128 256) none _ _ _ (ix2 r h) : EReal) + broadcastTo S1024x256 v6 _ (ix2 r h) = _
  rw [matmul_plain_zero_apply, broadcastTo_1b_ab_apply]
  rfl

/-- The organ body's stored value at row r is the organ head of feature row r. -/
theorem organ_payload
    (v0 : Vec Ideal S1024x128 .f32) (v3 : Vec Ideal S128x256 .f32) (v6 : Vec Ideal S1x256 .f32)
    (v14 : Vec Ideal S256x1 .f32) (v18 : Vec Ideal S1x1 .f32) (r : Fin 1024) :
    k0_pay1 (F := Ideal) v0 v3 v6 v14 v18 (ix1 r)
      = Cert.Spec.organAt (fun d => v0 (ix2 r d)) (fun d h => v3 (ix2 d h)) (fun h => v6 (ix2 0 h))
          (fun h => v14 (ix2 h 0)) (v18 (ix2 0 0)) := by
  unfold k0_pay1 Cert.Spec.organAt
  dsimp only
  show Ideal.logistic ((shapeCast S1024 _ _ (ix1 r) : EReal) + extractAt ![0, 0] v18 _) = _
  rw [shapeCast_a1_a_apply, extractAt_00_apply]
  show Ideal.logistic ((matmul (F := Ideal) (DotDims.plain 1024 256 1) none _ _ _ (ix2 r (0 : Fin 1)) : EReal) + _) = _
  rw [matmul_plain_zero_apply]
  refine congrArg (fun s => Ideal.logistic (s + v18 (ix2 0 0))) (Finset.sum_congr rfl fun h _ => ?_)
  show max ((addf (F := Ideal) _ _ (ix2 r h) : EReal)) (Ideal.ofBits .f32 0x00000000#32) * v14 (ix2 h 0) = _
  rw [organ_hidden]
  rfl

end Cert.KerBridge

end
-- ==== Proof.KI.OrganArray.lean ====
/-
  The organ head's result array, entry by entry.

  The launch has one grid point. Every window's block index is zero on every axis, so each input window's block is
  its whole array and the output window's block is the whole 1024-vector. The body stores one vector, the stored
  value of the five loaded blocks, and at row r that value is the specification's organ head of the r-th feature
  row. The one write-back therefore writes, at every row, the organ head computed from the arrays as the region
  finds them, and its block covers the array: the result array ends holding that function of the arrays.
-/
import proofs.«177483_j86474871537940_1_alg».proof.Proof.KI.Region0
import proofs.«177483_j86474871537940_1_alg».proof.Proof.Spec
import proofs.«177483_j86474871537940_1_alg».proof.Proof.PayOrgan
import Idealize.ShloMosaic.Lib.Pipeline.Value
import Idealize.ShloMosaic.Lib.ValueIdx

noncomputable section

namespace Cert.KernelIdeal.Arrays

open Cert.KernelIdeal Cert.KernelIdeal.Gen Cert.KernelIdeal.Organ
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem organ_hz1 : (![0] : Fin 1 → Nat) = fun _ => 0 := funext fun a => by fin_cases a <;> rfl
theorem organ_hz2 : (![0, 0] : Fin 2 → Nat) = fun _ => 0 := funext fun a => by fin_cases a <;> rfl

/-- The organ head of every row, from the arrays as the region finds them. -/
def organG (c : Dev nD) : S1024.Idx → EReal := fun idx =>
  Cert.Spec.organAt (fun d => V c main_v0 (ix2 (idx 0 : Fin 1024) d)) (fun d h => V c main_arg3 (ix2 d h))
    (fun h => V c main_v1 (ix2 (0 : Fin 1) h)) (fun h => V c main_arg5 (ix2 h (0 : Fin 1))) (V c main_v2 (ix2 (0 : Fin 1) (0 : Fin 1)))

/-- At the one grid point every window's block index is zero on every axis. -/
theorem organ_idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- Each input window's block is its whole array. -/
theorem organ_blk0 (c : Dev nD) (t : Fin cfg0.N) : iblk0 V c 0 t = (V c main_v0 : S1024x128.Idx → EReal) := by
  obtain ⟨e0, e1, -⟩ := organ_idx_facts t
  funext y
  show V c main_v0 (((cfg0.win 0).blk t).view.emb y) = V c main_v0 y
  have h : ((cfg0.win 0).blk t).view.emb y = y := by
    funext a; apply Fin.ext
    match a with
    | ⟨0, _⟩ => show win0_0.index t (0 : Fin 2) * 1024 + 1 * (y 0).val = (y 0).val; omega
    | ⟨1, _⟩ => show win0_0.index t (1 : Fin 2) * 128 + 1 * (y 1).val = (y 1).val; omega
  rw [h]

theorem organ_blk1 (c : Dev nD) (t : Fin cfg0.N) : iblk0 V c 1 t = (V c main_arg3 : S128x256.Idx → EReal) := by
  obtain ⟨-, -, e0, e1, -⟩ := organ_idx_facts t
  funext y
  show V c main_arg3 (((cfg0.win 1).blk t).view.emb y) = V c main_arg3 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 256 + 1 * (y 1).val = (y 1).val; omega
  rw [h]

theorem organ_blk2 (c : Dev nD) (t : Fin cfg0.N) : iblk0 V c 2 t = (V c main_v1 : S1x256.Idx → EReal) := by
  obtain ⟨-, -, -, -, e0, e1, -⟩ := organ_idx_facts t
  funext y
  show V c main_v1 (((cfg0.win 2).blk t).view.emb y) = V c main_v1 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 256 + 1 * (y 1).val = (y 1).val; omega
  rw [h]

theorem organ_blk3 (c : Dev nD) (t : Fin cfg0.N) : iblk0 V c 3 t = (V c main_arg5 : S256x1.Idx → EReal) := by
  obtain ⟨-, -, -, -, -, -, e0, e1, -⟩ := organ_idx_facts t
  funext y
  show V c main_arg5 (((cfg0.win 3).blk t).view.emb y) = V c main_arg5 y
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 1 + 1 * (y 1).val = (y 1).val; omega
  rw [h]

theorem organ_blk4 (c : Dev nD) (t : Fin cfg0.N) : iblk0 V c 4 t = (V c main_v2 : S1x1.Idx → EReal) := by
  obtain ⟨-, -, -, -, -, -, -, -, e0, e1, -⟩ := organ_idx_facts t
  funext y
  show V c main_v2 (((cfg0.win 4).blk t).view.emb y) = V c main_v2 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 1 + 1 * (y 1).val = (y 1).val; omega
  rw [h]

/-- The stored vector at an entry of the staging buffer is the organ head at the row where the entry lands. -/
theorem organ_point (c : Dev nD) (x e : S1024.Idx) (hxe : (x 0).val = (e 0).val) :
    k0_pay1 (F := Ideal) (V c main_v0 : Vec Ideal S1024x128 .f32) (V c main_arg3 : Vec Ideal S128x256 .f32)
        (V c main_v1 : Vec Ideal S1x256 .f32) (V c main_arg5 : Vec Ideal S256x1 .f32) (V c main_v2 : Vec Ideal S1x1 .f32) x
      = organG V c e := by
  obtain ⟨r, rfl⟩ : ∃ r : Fin 1024, x = ix1 r := ⟨x 0, eq_ix1 x⟩
  obtain ⟨r', rfl⟩ : ∃ r' : Fin 1024, e = ix1 r' := ⟨e 0, eq_ix1 e⟩
  obtain rfl : r = r' := Fin.ext hxe
  rw [Cert.KerBridge.organ_payload]
  rfl

/-- What the one point writes back is the block of the organ heads. -/
theorem organ_flushed (c : Dev nD) (t : Fin cfg0.N) :
    (dat0 V c).flushed 5 t = ((cfg0.win 5).blk t).view.read (Elt Ideal) (organG V c) := by
  show (cfg0.win 5).cut (grid0.coords t) ((dat0 V c).after 5 t) = _
  rw [after0_5]
  unfold out0
  rw [View.canon_unit_zero organ_hz1]
  simp only [View.ld_unit_zero (S := S1024x128) organ_hz2, View.ld_unit_zero (S := S128x256) organ_hz2,
    View.ld_unit_zero (S := S1x256) organ_hz2, View.ld_unit_zero (S := S256x1) organ_hz2,
    View.ld_unit_zero (S := S1x1) organ_hz2]
  rw [organ_blk0, organ_blk1, organ_blk2, organ_blk3, organ_blk4]
  obtain ⟨-, -, -, -, -, -, -, -, -, -, e0⟩ := organ_idx_facts t
  funext y
  refine organ_point V c _ _ ?_
  show (y 0).val = win0_5.index t (0 : Fin 1) * 1024 + 1 * (y 0).val
  omega

/-- An index of the array is in the point's block iff its coordinate is in the block's range. -/
theorem organ_mem_blk (t : Fin cfg0.N) (i : S1024.Idx) :
    i ∈ ((cfg0.win 5).blk t).view.set ↔ ∀ a : Fin 1, win0_5.index t a * S1024.size a ≤ (i a).val ∧ (i a).val < win0_5.index t a * S1024.size a + S1024.size a := by
  show i ∈ ((View.whole main_v3).slice (win0_5.rect t)).set ↔ _
  rw [View.set_slice_whole, Rect.mem_set_unit]
  exact Iff.rfl

/-- The result array ends holding the organ heads. -/
theorem organ_final (c : Dev nD) : (dat0 V c).arrAt 5 cfg0.N = organG V c :=
  (dat0 V c).arrAt_eq_of_cover 5 (organG V c) (fun t _ => organ_flushed V c t) fun i => by
    refine ⟨t0_0, flush0_5 t0_0, ?_⟩
    rw [organ_mem_blk]
    obtain ⟨-, -, -, -, -, -, -, -, -, -, e0⟩ := organ_idx_facts t0_0
    have hi : (i 0).val < 1024 := (i 0).isLt
    intro a
    match a with
    | ⟨0, _⟩ => show win0_5.index t0_0 (0 : Fin 1) * 1024 ≤ (i 0).val ∧ (i 0).val < win0_5.index t0_0 (0 : Fin 1) * 1024 + 1024; omega

/-- The result array at row r is the organ head of the r-th feature row. -/
theorem organ_array (V : (c : Dev nD) → (b : Ref sig .tc) → Buf (Elt Ideal) ((c : Thread nD τ).loc b)) (c : Dev nD) (r : Fin 1024) :
    ((Cert.KernelIdeal.Organ.dat0 (F := Ideal) V c).arrAt 5 cfg0.N : S1024.Idx → EReal) (ix1 r)
      = Cert.Spec.organAt (fun d => V c main_v0 (ix2 r d)) (fun d h => V c main_arg3 (ix2 d h)) (fun h => V c main_v1 (ix2 0 h)) (fun h => V c main_arg5 (ix2 h 0)) (V c main_v2 (ix2 0 0)) :=
  (congrFun (organ_final V c) (ix1 r)).trans rfl

end Cert.KernelIdeal.Arrays

end
-- ==== Proof.LibSigmoid.lean ====
/-
  The logistic function over the extended reals, against the quotient a host program spells for it.

  Over the extended reals the logistic function is by definition the quotient 1 / (1 + e^(-x)), with the
  conventions e^(-oo) = 0 and e^(+oo) = +oo, so that it is 0 at -oo and 1 at +oo. A host program that expands the
  sigmoid writes that very quotient with its own negation, exponential, sum and quotient, and with the
  single-precision word 0x3F800000 for the numerator and the summand; that word denotes the real number 1. Hence a
  kernel's one-operation logistic and the host's four-operation expansion are the same function of x, at every
  extended real x, the infinities included: no finiteness is needed.

  With tanh likewise one function on both sides, a gated recurrent cell
      r = s(a_r + b_r),  z = s(a_z + b_z),  n = tanh(a_n + r * b_n),  h' = (1 - z) * n + z * h
  computed with s the logistic operation is, entry by entry, the cell computed with s the spelled-out quotient.
-/
import Idealize.ShloMosaic.PureOps.Ideal
import Idealize.ShloMosaic.PureOps.Vector

noncomputable section

namespace Cert.Lib.Sigmoid

open Idealize.ShloMosaic

/-- The single-precision word 0x3F800000 denotes the real number 1. -/
theorem ofBits_one_f32 : Ideal.ofBits .f32 0x3F800000#32 = 1 := by
  simp [Ideal.ofBits, Ideal.ieee, -EReal.coe_mul]; norm_num

/-- At one extended real: the logistic operation is the host's spelled-out quotient 1 / (1 + exp (-x)). -/
theorem logistic_eq_quotient (x : Ideal .f32) :
    FloatOps.logistic x
      = FloatOps.hostDivf (Ideal.ofBits .f32 0x3F800000#32)
          (FloatOps.addf (Ideal.ofBits .f32 0x3F800000#32) (FloatOps.hostUnary .exp (FloatOps.hostNegf x))) := by
  rw [ofBits_one_f32]; rfl

/-- Over a whole vector of any shape: a kernel's logistic of x is the host's quotient of the all-ones vector by the
    all-ones vector plus the exponential of the negated x, the all-ones vectors being any vectors one that hold the
    word 0x3F800000 at every index. -/
theorem vec_logistic_eq_quotient {s : Shape} (one one' x : FVec Ideal s .f32)
    (h1 : ∀ i, one i = Ideal.ofBits .f32 0x3F800000#32) (h1' : ∀ i, one' i = Ideal.ofBits .f32 0x3F800000#32) :
    logistic x = Host.divf one (addf one' (Host.exp (Host.negf x))) := by
  funext i
  simp only [logistic, Host.divf, addf, Host.exp, Host.negf, h1 i, h1' i]
  exact logistic_eq_quotient (x i)

/-- tanh is one function whether a kernel or a host program applies it. -/
theorem vec_tanh_eq_host {s : Shape} (x : FVec Ideal s .f32) : tanh x = Host.tanh x := rfl

/-- One gated recurrent cell, over vectors of any shape. With gate pre-activations a_r + b_r, a_z + b_z and
    a_n + r * b_n and the old state h, the new state (1 - z) * n + z * h computed with the kernel's operations (the
    logistic operation, tanh, the scalar 1 broadcast) is the new state computed with the host's (the quotient
    1 / (1 + exp (-x)) for each gate, the host's tanh, all-ones vectors), entry by entry, at every extended real. -/
theorem gru_cell_eq {s : Shape} (ar br az bz an bn h : FVec Ideal s .f32)
    (one_r one_r' one_z one_z' one_s : FVec Ideal s .f32)
    (hr : ∀ i, one_r i = Ideal.ofBits .f32 0x3F800000#32) (hr' : ∀ i, one_r' i = Ideal.ofBits .f32 0x3F800000#32)
    (hz : ∀ i, one_z i = Ideal.ofBits .f32 0x3F800000#32) (hz' : ∀ i, one_z' i = Ideal.ofBits .f32 0x3F800000#32)
    (hs : ∀ i, one_s i = Ideal.ofBits .f32 0x3F800000#32) :
    addf (mulf (subf (broadcast s (Scalar.ofBits .f32 0x3F800000#32)) (logistic (addf az bz)))
            (tanh (addf an (mulf (logistic (addf ar br)) bn))))
         (mulf (logistic (addf az bz)) h)
      = addf (mulf (subf one_s (Host.divf one_z (addf one_z' (Host.exp (Host.negf (addf az bz))))))
                (Host.tanh (addf an (mulf (Host.divf one_r (addf one_r' (Host.exp (Host.negf (addf ar br))))) bn))))
             (mulf (Host.divf one_z (addf one_z' (Host.exp (Host.negf (addf az bz))))) h) := by
  have hb : broadcast s (Scalar.ofBits (F := Ideal) .f32 0x3F800000#32) = one_s := funext fun i => (hs i).symm
  rw [← vec_logistic_eq_quotient one_r one_r' (addf ar br) hr hr', ← vec_logistic_eq_quotient one_z one_z' (addf az bz) hz hz',
    ← vec_tanh_eq_host, hb]

end Cert.Lib.Sigmoid

end
-- ==== Proof.RefOrgan.lean ====
/-
  The reference program's organ head, read at one node.

  The program computes, for a batch element b and a node n: the 256 hidden values
      max ((sum_d z[b,n,d] * W1[d,h]) + b1[h], 0),
  their contraction with the single column of W2, the shift by the single entry of b2, and then the quotient
  1 / (1 + exp (-x)) of that number x. The hidden values are the specification's rectified units, the quotient is
  the logistic function at every extended real, and the squeeze of the trailing axis of extent one reads the entry
  (b, n, 0); so the program's first result at (b, n) is the specification's organ head of the feature row z[b,n,:].
-/
import proofs.«177483_j86474871537940_1_alg».proof.Proof.Gen.ReferenceIdeal.Read
import proofs.«177483_j86474871537940_1_alg».proof.Proof.Spec
import proofs.«177483_j86474871537940_1_alg».proof.Proof.LibSigmoid
import Idealize.ShloMosaic.Lib.ValueIdx
import Idealize.ShloMosaic.Lib.Pipeline.Value
import Idealize.ShloMosaic.PureOps.Ideal.Laws

noncomputable section

namespace Cert.RefBridge

open Cert.ReferenceIdeal Cert.ReferenceIdeal.Read Idealize.ShloMosaic Idealize.ShloMosaic.ValueIdx

/-- The hidden layer at (b, n, h): the rectified unit of the h-th column of W1 against the row z[b,n,:], plus b1[h]. -/
theorem organ_hidden
    (x0 : (⟨S2x512x128, .f32⟩ : BufTy).Contents (Elt Ideal)) (x3 : (⟨S128x256, .f32⟩ : BufTy).Contents (Elt Ideal))
    (x4 : (⟨S256, .f32⟩ : BufTy).Contents (Elt Ideal)) (b : Fin 2) (n : Fin 512) (h : Fin 256) :
    val_main_v4 (F := Ideal) x0 x3 x4 (ix3 b n h)
      = Cert.Spec.relu ((∑ d : Fin 128, x0 (ix3 b n d) * x3 (ix2 d h)) + x4 (ix1 h)) := by
  have el : ∀ k : Fin 128, lidx_main_v0 (ix3 b n h) k = ix3 b n k := fun k => funext fun a => Fin.ext (by
    match a with | ⟨0, _⟩ => rfl | ⟨1, _⟩ => rfl | ⟨2, _⟩ => rfl)
  have er : ∀ k : Fin 128, ridx_main_v0 (ix3 b n h) k = ix2 k h := fun k => funext fun a => Fin.ext (by
    match a with | ⟨0, _⟩ => rfl | ⟨1, _⟩ => rfl)
  have eb : idx_main_v1 (idx_main_v2 (ix3 b n h)) = ix1 h := funext fun a => Fin.ext (by
    match a with | ⟨0, _⟩ => rfl)
  rw [val_main_v4_apply, val_main_v3_apply, val_main_v0_apply, val_main_v2_apply, val_main_v1_apply,
    val_main_call0_v0_apply, val_main_call0_cst_apply, eb]
  simp only [el, er]
  rfl

/-- Before the logistic function, at (b, n, 0): the hidden layer contracted with the column of W2, plus b2. -/
theorem organ_pre
    (x0 : (⟨S2x512x128, .f32⟩ : BufTy).Contents (Elt Ideal)) (x3 : (⟨S128x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) (b : Fin 2) (n : Fin 512) :
    val_main_v8 (F := Ideal) x0 x3 x4 x5 x6 (ix3 b n (0 : Fin 1))
      = (∑ h : Fin 256, val_main_v4 (F := Ideal) x0 x3 x4 (ix3 b n h) * x5 (ix2 h (0 : Fin 1))) + x6 (ix1 (0 : Fin 1)) := by
  have el : ∀ k : Fin 256, lidx_main_v5 (ix3 b n (0 : Fin 1)) k = ix3 b n k := fun k => funext fun a => Fin.ext (by
    match a with | ⟨0, _⟩ => rfl | ⟨1, _⟩ => rfl | ⟨2, _⟩ => rfl)
  have er : ∀ k : Fin 256, ridx_main_v5 (ix3 b n (0 : Fin 1)) k = ix2 k (0 : Fin 1) := fun k => funext fun a => Fin.ext (by
    match a with | ⟨0, _⟩ => rfl | ⟨1, _⟩ => rfl)
  have eb : idx_main_v6 (idx_main_v7 (ix3 b n (0 : Fin 1))) = ix1 (0 : Fin 1) := funext fun a => Fin.ext (by
    match a with | ⟨0, _⟩ => rfl)
  rw [val_main_v8_apply, val_main_v5_apply, val_main_v7_apply, val_main_v6_apply, eb]
  simp only [el, er]
  rfl

/-- The squeeze of the trailing unit axis reads (b, n) at (b, n, 0). -/
theorem organ_squeeze_idx (b : Fin 2) (n : Fin 512) : idx_main_v9 (ix2 b n) = ix3 b n (0 : Fin 1) := by
  have hb : b.val < 2 := b.isLt
  have hn : n.val < 512 := n.isLt
  exact funext fun a => Fin.ext (by
    match a with
    | ⟨0, _⟩ => show (b.val * 512 + n.val) / 512 = b.val; omega
    | ⟨1, _⟩ => show (b.val * 512 + n.val) / 1 % 512 = n.val; omega
    | ⟨2, _⟩ => rfl)

/-- The reference program's first result at (b, n) is the organ head of the row z[b,n,:]. -/
theorem ref_organ
    (x0 : (⟨Cert.ReferenceIdeal.S2x512x128, .f32⟩ : BufTy).Contents (Elt Ideal)) (x3 : (⟨Cert.ReferenceIdeal.S128x256, .f32⟩ : BufTy).Contents (Elt Ideal))
    (x4 : (⟨Cert.ReferenceIdeal.S256, .f32⟩ : BufTy).Contents (Elt Ideal)) (x5 : (⟨Cert.ReferenceIdeal.S256x1, .f32⟩ : BufTy).Contents (Elt Ideal))
    (x6 : (⟨Cert.ReferenceIdeal.S1, .f32⟩ : BufTy).Contents (Elt Ideal)) (b : Fin 2) (n : Fin 512) :
    Cert.ReferenceIdeal.Read.val_main_v15 (F := Ideal) x0 x3 x4 x5 x6 (ValueIdx.ix2 b n)
      = Cert.Spec.organAt (fun d => x0 (ValueIdx.ix3 b n d)) (fun d h => x3 (ValueIdx.ix2 d h)) (fun h => x4 (ValueIdx.ix1 h))
          (fun h => x5 (ValueIdx.ix2 h 0)) (x6 (ValueIdx.ix1 0)) := by
  rw [val_main_v15_apply, val_main_v14_apply, val_main_cst_0_apply, val_main_v13_apply, val_main_v12_apply,
    val_main_cst_apply, val_main_v11_apply, val_main_v10_apply]
  refine (Cert.Lib.Sigmoid.logistic_eq_quotient _).symm.trans ?_
  rw [val_main_v9_apply, organ_squeeze_idx, organ_pre]
  unfold Cert.Spec.organAt
  simp only [organ_hidden]
  rfl

end Cert.RefBridge

end
-- ==== Proof.KI.ResOrgan.lean ====
/-
  The organ result buffer at the end of the program is the reference's organ result of the same launch memory.

  The last launch leaves the folded organ result untouched; it is the fold to [2, 512] of the organ launch's
  result array, whose entry b * 512 + n is the organ head of row b * 512 + n of the flattened node features, that
  is of node n of batch element b, with the weights and biases as launched. The reference's first result at
  (b, n) is the same organ head.
-/
import proofs.«177483_j86474871537940_1_alg».proof.Proof.KI.Bounds
import proofs.«177483_j86474871537940_1_alg».proof.Proof.KI.HostReads
import proofs.«177483_j86474871537940_1_alg».proof.Proof.KI.ResCongr
import proofs.«177483_j86474871537940_1_alg».proof.Proof.KI.OrganArray
import proofs.«177483_j86474871537940_1_alg».proof.Proof.RefOrgan
import proofs.«177483_j86474871537940_1_alg».proof.Proof.LibLayout
import Idealize.ShloMosaic.Lib.ValueIdx
import Idealize.ShloMosaic.Lib.Pipeline.Value
import Idealize.ShloMosaic.Lib.ValueLayout

set_option maxRecDepth 16384

noncomputable section

namespace Cert.KernelIdeal.Results

open Cert.KernelIdeal Cert.KernelIdeal.Gen Cert.KernelIdeal.Run
open Idealize.ShloMosaic Idealize.ShloMosaic.TcCoe Idealize.SL.Sem Idealize.ShloMosaic.ValueIdx Cert.Lib.Layout

variable (m : (ℓ : Loc nD τ sig) → Buf (Elt Ideal) ℓ) (ρ : Dev nD → PrngReg)

/-- At the end the organ result buffer holds the reference's organ result of the launch memory. -/
theorem organ_result (c : Dev nD)
    (x0 : (⟨Cert.ReferenceIdeal.S2x512x128, .f32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (x5 : (⟨Cert.ReferenceIdeal.S256x1, .f32⟩ : BufTy).Contents (Elt Ideal))
    (x6 : (⟨Cert.ReferenceIdeal.S1, .f32⟩ : BufTy).Contents (Elt Ideal))
    (h0 : x0 = m ((c : Thread nD τ).loc main_arg0)) (h3 : x3 = m ((c : Thread nD τ).loc main_arg3))
    (h4 : x4 = m ((c : Thread nD τ).loc main_arg4)) (h5 : x5 = m ((c : Thread nD τ).loc main_arg5))
    (h6 : x6 = m ((c : Thread nD τ).loc main_arg6)) :
    B4 m ρ c (Proc.devRef .tc main_v4) = Cert.ReferenceIdeal.Read.val_main_v15 (F := Ideal) x0 x3 x4 x5 x6 := by
  show (B4 m ρ c (Proc.devRef .tc main_v4) : S2x512.Idx → EReal) = _
  funext idx
  obtain ⟨b, n, rfl⟩ : ∃ (b : Fin 2) (n : Fin 512), idx = ix2 b n := ⟨idx 0, idx 1, eq_ix2 idx⟩
  have hr : b.val * 512 + n.val < 1024 := by have := b.isLt; have := n.isLt; omega
  refine Eq.trans ?_ (Cert.RefBridge.ref_organ x0 x3 x4 x5 x6 b n).symm
  rw [B4_of_ne m ρ c main_v4 (by decide)]
  refine (B3_v4_apply m ρ c b n ⟨b.val * 512 + n.val, hr⟩ rfl).trans ?_
  rw [show B2 m ρ c (Proc.devRef .tc main_v3) = (Cert.KernelIdeal.Organ.dat0 (E1 m ρ) c).arrAt 5 cfg0.N from B2_arr m ρ c 5]
  refine (Cert.KernelIdeal.Arrays.organ_array (E1 m ρ) c ⟨b.val * 512 + n.val, hr⟩).trans ?_
  subst h0 h3 h4 h5 h6
  exact organAt_congr (fun d => E1_v0_apply m ρ c ⟨b.val * 512 + n.val, hr⟩ d b n rfl)
    (fun d h => congrFun (E1_kept m ρ c main_arg3 (by decide)) (ix2 d h))
    (fun h => E1_v1_apply m ρ c 0 h)
    (fun h => congrFun (E1_kept m ρ c main_arg5 (by decide)) (ix2 h 0))
    (E1_v2_apply m ρ c 0 0)

end Cert.KernelIdeal.Results

end
-- ==== Proof.RefEdge.lean ====
/-
  The reference program's edge head, read at one ordered pair of nodes.

  For a batch element b and nodes i, j the program forms three projections into 256 hidden units,
      pi[b,i,h] = sum_d z[b,i,d] * Wi[d,h],   pj[b,j,h] = sum_d z[b,j,d] * Wj[d,h],   pe[i,j,h] = sum_d e[i,j,d] * We[d,h],
  spreads pi along the axis of j, pj along the axis of i and pe along the batch axis, adds them and the bias as
  ((pi + pj) + pe) + b1[h], takes the maximum with zero, contracts with the single column of W2, adds the single
  entry of b2, applies the quotient 1 / (1 + exp (-x)) and multiplies by the mask entry (i, j) converted from an
  integer, the mask being spread along the batch axis. Each spreading reads its operand at the coordinates it keeps,
  the squeeze of the trailing axis of extent one reads the entry (b, i, j, 0), and the quotient is the logistic
  function at every extended real; so the program's second result at (b, i, j) is the specification's edge head of
  the rows z[b,i,:], z[b,j,:], e[i,j,:] and the mask value at (i, j), with the summands in the specification's order.
-/
import proofs.«177483_j86474871537940_1_alg».proof.Proof.Gen.ReferenceIdeal.Read
import proofs.«177483_j86474871537940_1_alg».proof.Proof.Spec
import proofs.«177483_j86474871537940_1_alg».proof.Proof.LibSigmoid
import Idealize.ShloMosaic.Lib.ValueIdx
import Idealize.ShloMosaic.Lib.Pipeline.Value
import Idealize.ShloMosaic.PureOps.Ideal.Laws

noncomputable section

namespace Cert.RefBridge

open Cert.ReferenceIdeal Cert.ReferenceIdeal.Read Idealize.ShloMosaic Idealize.ShloMosaic.ValueIdx

/-- The projection of the row z[b,i,:], spread along the axis of j, at (b, i, j, h). -/
theorem edge_proj_i (x0 : (⟨S2x512x128, .f32⟩ : BufTy).Contents (Elt Ideal)) (x7 : (⟨S128x256, .f32⟩ : BufTy).Contents (Elt Ideal))
    (b : Fin 2) (i j : Fin 512) (h : Fin 256) :
    val_main_v21 (F := Ideal) x0 x7 (ix4 b i j h) = ∑ d : Fin 128, x0 (ix3 b i d) * x7 (ix2 d h) := by
  have el : ∀ k : Fin 128, lidx_main_v16 (idx_main_v19 (idx_main_v21 (ix4 b i j h))) k = ix3 b i k :=
    fun k => funext fun a => Fin.ext (by match a with | ⟨0, _⟩ => rfl | ⟨1, _⟩ => rfl | ⟨2, _⟩ => rfl)
  have er : ∀ k : Fin 128, ridx_main_v16 (idx_main_v19 (idx_main_v21 (ix4 b i j h))) k = ix2 k h :=
    fun k => funext fun a => Fin.ext (by match a with | ⟨0, _⟩ => rfl | ⟨1, _⟩ => rfl)
  rw [val_main_v21_apply, val_main_v19_apply, val_main_v16_apply]
  simp only [el, er]

/-- The projection of the row z[b,j,:], spread along the axis of i, at (b, i, j, h). -/
theorem edge_proj_j (x0 : (⟨S2x512x128, .f32⟩ : BufTy).Contents (Elt Ideal)) (x8 : (⟨S128x256, .f32⟩ : BufTy).Contents (Elt Ideal))
    (b : Fin 2) (i j : Fin 512) (h : Fin 256) :
    val_main_v22 (F := Ideal) x0 x8 (ix4 b i j h) = ∑ d : Fin 128, x0 (ix3 b j d) * x8 (ix2 d h) := by
  have el : ∀ k : Fin 128, lidx_main_v17 (idx_main_v20 (idx_main_v22 (ix4 b i j h))) k = ix3 b j k :=
    fun k => funext fun a => Fin.ext (by match a with | ⟨0, _⟩ => rfl | ⟨1, _⟩ => rfl | ⟨2, _⟩ => rfl)
  have er : ∀ k : Fin 128, ridx_main_v17 (idx_main_v20 (idx_main_v22 (ix4 b i j h))) k = ix2 k h :=
    fun k => funext fun a => Fin.ext (by match a with | ⟨0, _⟩ => rfl | ⟨1, _⟩ => rfl)
  rw [val_main_v22_apply, val_main_v20_apply, val_main_v17_apply]
  simp only [el, er]

/-- The projection of the edge features e[i,j,:], spread along the batch axis, at (b, i, j, h). -/
theorem edge_proj_e (x1 : (⟨S512x512x9, .f32⟩ : BufTy).Contents (Elt Ideal)) (x9 : (⟨S9x256, .f32⟩ : BufTy).Contents (Elt Ideal))
    (b : Fin 2) (i j : Fin 512) (h : Fin 256) :
    val_main_v25 (F := Ideal) x1 x9 (ix4 b i j h) = ∑ d : Fin 9, x1 (ix3 i j d) * x9 (ix2 d h) := by
  have el : ∀ k : Fin 9, lidx_main_v18 (idx_main_v24 (idx_main_v25 (ix4 b i j h))) k = ix3 i j k :=
    fun k => funext fun a => Fin.ext (by match a with | ⟨0, _⟩ => rfl | ⟨1, _⟩ => rfl | ⟨2, _⟩ => rfl)
  have er : ∀ k : Fin 9, ridx_main_v18 (idx_main_v24 (idx_main_v25 (ix4 b i j h))) k = ix2 k h :=
    fun k => funext fun a => Fin.ext (by match a with | ⟨0, _⟩ => rfl | ⟨1, _⟩ => rfl)
  rw [val_main_v25_apply, val_main_v24_apply, val_main_v18_apply]
  simp only [el, er]

/-- The bias b1, spread along the batch axis and both node axes, at (b, i, j, h). -/
theorem edge_bias (x10 : (⟨S256, .f32⟩ : BufTy).Contents (Elt Ideal)) (b : Fin 2) (i j : Fin 512) (h : Fin 256) :
    val_main_v28 (F := Ideal) x10 (ix4 b i j h) = x10 (ix1 h) := by
  have eb : idx_main_v27 (idx_main_v28 (ix4 b i j h)) = ix1 h :=
    funext fun a => Fin.ext (by match a with | ⟨0, _⟩ => rfl)
  rw [val_main_v28_apply, val_main_v27_apply, eb]

/-- The hidden layer at (b, i, j, h): the rectified unit of ((pi + pj) + pe) + b1[h]. -/
theorem edge_hidden (x0 : (⟨S2x512x128, .f32⟩ : BufTy).Contents (Elt Ideal)) (x1 : (⟨S512x512x9, .f32⟩ : BufTy).Contents (Elt Ideal)) (x7 x8 : (⟨S128x256, .f32⟩ : BufTy).Contents (Elt Ideal)) (x9 : (⟨S9x256, .f32⟩ : BufTy).Contents (Elt Ideal)) (x10 : (⟨S256, .f32⟩ : BufTy).Contents (Elt Ideal))
    (b : Fin 2) (i j : Fin 512) (h : Fin 256) :
    val_main_v30 (F := Ideal) x0 x1 x7 x8 x9 x10 (ix4 b i j h)
      = Cert.Spec.relu ((((∑ d : Fin 128, x0 (ix3 b i d) * x7 (ix2 d h)) + (∑ d : Fin 128, x0 (ix3 b j d) * x8 (ix2 d h)))
          + (∑ d : Fin 9, x1 (ix3 i j d) * x9 (ix2 d h))) + x10 (ix1 h)) := by
  rw [val_main_v30_apply, val_main_v29_apply, val_main_v26_apply, val_main_v23_apply, edge_proj_i, edge_proj_j,
    edge_proj_e, edge_bias, val_main_call1_v0_apply, val_main_call1_cst_apply]
  rfl

/-- Before the logistic function, at (b, i, j, 0): the hidden layer contracted with the column of W2, plus b2. -/
theorem edge_pre (x0 : (⟨S2x512x128, .f32⟩ : BufTy).Contents (Elt Ideal)) (x1 : (⟨S512x512x9, .f32⟩ : BufTy).Contents (Elt Ideal)) (x7 x8 : (⟨S128x256, .f32⟩ : BufTy).Contents (Elt Ideal)) (x9 : (⟨S9x256, .f32⟩ : BufTy).Contents (Elt Ideal)) (x10 : (⟨S256, .f32⟩ : BufTy).Contents (Elt Ideal)) (x11 : (⟨S256x1, .f32⟩ : BufTy).Contents (Elt Ideal)) (x12 : (⟨S1, .f32⟩ : BufTy).Contents (Elt Ideal))
    (b : Fin 2) (i j : Fin 512) :
    val_main_v34 (F := Ideal) x0 x1 x7 x8 x9 x10 x11 x12 (ix4 b i j (0 : Fin 1))
      = (∑ h : Fin 256, val_main_v30 (F := Ideal) x0 x1 x7 x8 x9 x10 (ix4 b i j h) * x11 (ix2 h (0 : Fin 1)))
          + x12 (ix1 (0 : Fin 1)) := by
  have el : ∀ k : Fin 256, lidx_main_v31 (ix4 b i j (0 : Fin 1)) k = ix4 b i j k := fun k => funext fun a => Fin.ext (by
    match a with | ⟨0, _⟩ => rfl | ⟨1, _⟩ => rfl | ⟨2, _⟩ => rfl | ⟨3, _⟩ => rfl)
  have er : ∀ k : Fin 256, ridx_main_v31 (ix4 b i j (0 : Fin 1)) k = ix2 k (0 : Fin 1) := fun k => funext fun a => Fin.ext (by
    match a with | ⟨0, _⟩ => rfl | ⟨1, _⟩ => rfl)
  have eb : idx_main_v32 (idx_main_v33 (ix4 b i j (0 : Fin 1))) = ix1 (0 : Fin 1) := funext fun a => Fin.ext (by
    match a with | ⟨0, _⟩ => rfl)
  rw [val_main_v34_apply, val_main_v31_apply, val_main_v33_apply, val_main_v32_apply, eb]
  simp only [el, er]
  rfl

/-- The squeeze of the trailing unit axis reads (b, i, j) at (b, i, j, 0). -/
theorem edge_squeeze_idx (b : Fin 2) (i j : Fin 512) : idx_main_v35 (ix3 b i j) = ix4 b i j (0 : Fin 1) := by
  have hb : b.val < 2 := b.isLt
  have hi : i.val < 512 := i.isLt
  have hj : j.val < 512 := j.isLt
  exact funext fun a => Fin.ext (by
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl)

/-- The mask, converted from an integer and spread along the batch axis, at (b, i, j). -/
theorem edge_mask (x2 : (⟨S512x512, .i32⟩ : BufTy).Contents (Elt Ideal)) (b : Fin 2) (i j : Fin 512) :
    val_main_v44 (F := Ideal) x2 (ix3 b i j) = FloatOps.sitofp (F := Ideal) .f32 (x2 (ix2 i j)) := by
  have eb : idx_main_v43 (idx_main_v44 (ix3 b i j)) = ix2 i j :=
    funext fun a => Fin.ext (by match a with | ⟨0, _⟩ => rfl | ⟨1, _⟩ => rfl)
  rw [val_main_v44_apply, val_main_v43_apply, val_main_v42_apply, eb]

/-- The reference program's second result at (b, i, j) is the edge head of the rows z[b,i,:], z[b,j,:], e[i,j,:]
    and the mask value at (i, j). -/
theorem ref_edge
    (x0 : (⟨Cert.ReferenceIdeal.S2x512x128, .f32⟩ : BufTy).Contents (Elt Ideal)) (x1 : (⟨Cert.ReferenceIdeal.S512x512x9, .f32⟩ : BufTy).Contents (Elt Ideal))
    (x2 : (⟨Cert.ReferenceIdeal.S512x512, .i32⟩ : BufTy).Contents (Elt Ideal)) (x7 x8 : (⟨Cert.ReferenceIdeal.S128x256, .f32⟩ : BufTy).Contents (Elt Ideal))
    (x9 : (⟨Cert.ReferenceIdeal.S9x256, .f32⟩ : BufTy).Contents (Elt Ideal)) (x10 : (⟨Cert.ReferenceIdeal.S256, .f32⟩ : BufTy).Contents (Elt Ideal))
    (x11 : (⟨Cert.ReferenceIdeal.S256x1, .f32⟩ : BufTy).Contents (Elt Ideal)) (x12 : (⟨Cert.ReferenceIdeal.S1, .f32⟩ : BufTy).Contents (Elt Ideal))
    (b : Fin 2) (i j : Fin 512) :
    Cert.ReferenceIdeal.Read.val_main_v45 (F := Ideal) x0 x1 x2 x7 x8 x9 x10 x11 x12 (ValueIdx.ix3 b i j)
      = Cert.Spec.edgeAt (fun d => x0 (ValueIdx.ix3 b i d)) (fun d => x0 (ValueIdx.ix3 b j d)) (fun d => x1 (ValueIdx.ix3 i j d))
          (FloatOps.sitofp (F := Ideal) .f32 (x2 (ValueIdx.ix2 i j)))
          (fun d h => x7 (ValueIdx.ix2 d h)) (fun d h => x8 (ValueIdx.ix2 d h)) (fun d h => x9 (ValueIdx.ix2 d h))
          (fun h => x10 (ValueIdx.ix1 h)) (fun h => x11 (ValueIdx.ix2 h 0)) (x12 (ValueIdx.ix1 0)) := by
  rw [val_main_v45_apply, edge_mask, val_main_v41_apply, val_main_v40_apply, val_main_cst_2_apply, val_main_v39_apply,
    val_main_v38_apply, val_main_cst_1_apply, val_main_v37_apply, val_main_v36_apply]
  refine (congrArg (fun s => FloatOps.mulf s (FloatOps.sitofp (F := Ideal) .f32 (x2 (ix2 i j))))
    (Cert.Lib.Sigmoid.logistic_eq_quotient _).symm).trans ?_
  rw [val_main_v35_apply, edge_squeeze_idx, edge_pre]
  unfold Cert.Spec.edgeAt
  simp only [edge_hidden]
  rfl

end Cert.RefBridge

end
-- ==== Proof.KI.ResEdge.lean ====
/-
  The edge result buffer at the end of the program is the reference's edge result of the same launch memory,
  given what the edge launch's result array holds entry by entry.

  The edge launch's result array at (b, i, j) is the edge head of nodes i and j of batch element b, of the edge
  features at (d, i, j) as the launch finds them — the launched edge features at (i, j, d), their last axis having
  been moved to the front — of the mask at (i, j), and of the weights and biases as launched. The reference's
  second result at (b, i, j) is the same edge head.
-/
import proofs.«177483_j86474871537940_1_alg».proof.Proof.KI.Bounds
import proofs.«177483_j86474871537940_1_alg».proof.Proof.KI.HostReads
import proofs.«177483_j86474871537940_1_alg».proof.Proof.KI.ResCongr
import proofs.«177483_j86474871537940_1_alg».proof.Proof.RefEdge
import proofs.«177483_j86474871537940_1_alg».proof.Proof.LibLayout
import Idealize.ShloMosaic.Lib.ValueIdx
import Idealize.ShloMosaic.Lib.Pipeline.Value
import Idealize.ShloMosaic.Lib.ValueLayout

set_option maxRecDepth 16384

noncomputable section

namespace Cert.KernelIdeal.Results

open Cert.KernelIdeal Cert.KernelIdeal.Gen Cert.KernelIdeal.Run
open Idealize.ShloMosaic Idealize.ShloMosaic.TcCoe Idealize.SL.Sem Idealize.ShloMosaic.ValueIdx Cert.Lib.Layout

variable (m : (ℓ : Loc nD τ sig) → Buf (Elt Ideal) ℓ) (ρ : Dev nD → PrngReg)

/-- What the edge launch's result array holds, entry by entry, whatever the arrays the launch finds. -/
def EdgeArraySpec : Prop :=
  ∀ (V : (c : Dev nD) → (b : Ref sig .tc) → Buf (Elt Ideal) ((c : Thread nD τ).loc b)) (c : Dev nD) (b : Fin 2)
    (i j : Fin 512),
    ((Cert.KernelIdeal.Edge.dat1 (F := Ideal) V c).arrAt 10 cfg1.N : S2x512x512.Idx → EReal) (ix3 b i j)
      = Cert.Spec.edgeAt (fun d => V c main_arg0 (ix3 b i d)) (fun d => V c main_arg0 (ix3 b j d))
          (fun d => V c main_v5 (ix3 d i j)) (FloatOps.sitofp (F := Ideal) .f32 (V c main_arg2 (ix2 i j)))
          (fun d h => V c main_arg7 (ix2 d h)) (fun d h => V c main_arg8 (ix2 d h)) (fun d h => V c main_arg9 (ix2 d h))
          (fun h => V c main_v6 (ix2 0 h)) (fun h => V c main_arg11 (ix2 h 0)) (V c main_v7 (ix2 0 0))

/-- At the end the edge result buffer holds the reference's edge result of the launch memory, given the edge
    launch's result array entry by entry. -/
theorem edge_result_of (harr : EdgeArraySpec) (c : Dev nD)
    (x0 : (⟨Cert.ReferenceIdeal.S2x512x128, .f32⟩ : BufTy).Contents (Elt Ideal))
    (x1 : (⟨Cert.ReferenceIdeal.S512x512x9, .f32⟩ : BufTy).Contents (Elt Ideal))
    (x2 : (⟨Cert.ReferenceIdeal.S512x512, .i32⟩ : BufTy).Contents (Elt Ideal))
    (x7 x8 : (⟨Cert.ReferenceIdeal.S128x256, .f32⟩ : BufTy).Contents (Elt Ideal))
    (x9 : (⟨Cert.ReferenceIdeal.S9x256, .f32⟩ : BufTy).Contents (Elt Ideal))
    (x10 : (⟨Cert.ReferenceIdeal.S256, .f32⟩ : BufTy).Contents (Elt Ideal))
    (x11 : (⟨Cert.ReferenceIdeal.S256x1, .f32⟩ : BufTy).Contents (Elt Ideal))
    (x12 : (⟨Cert.ReferenceIdeal.S1, .f32⟩ : BufTy).Contents (Elt Ideal))
    (h0 : x0 = m ((c : Thread nD τ).loc main_arg0)) (h1 : x1 = m ((c : Thread nD τ).loc main_arg1))
    (h2 : x2 = m ((c : Thread nD τ).loc main_arg2)) (h7 : x7 = m ((c : Thread nD τ).loc main_arg7))
    (h8 : x8 = m ((c : Thread nD τ).loc main_arg8)) (h9 : x9 = m ((c : Thread nD τ).loc main_arg9))
    (h10 : x10 = m ((c : Thread nD τ).loc main_arg10)) (h11 : x11 = m ((c : Thread nD τ).loc main_arg11))
    (h12 : x12 = m ((c : Thread nD τ).loc main_arg12)) :
    B4 m ρ c (Proc.devRef .tc main_v8)
      = Cert.ReferenceIdeal.Read.val_main_v45 (F := Ideal) x0 x1 x2 x7 x8 x9 x10 x11 x12 := by
  show (B4 m ρ c (Proc.devRef .tc main_v8) : S2x512x512.Idx → EReal) = _
  funext idx
  obtain ⟨b, i, j, rfl⟩ : ∃ (b : Fin 2) (i j : Fin 512), idx = ix3 b i j := ⟨idx 0, idx 1, idx 2, eq_ix3 idx⟩
  refine Eq.trans ?_ (Cert.RefBridge.ref_edge x0 x1 x2 x7 x8 x9 x10 x11 x12 b i j).symm
  rw [B4_out]
  refine (harr (E3 m ρ) c b i j).trans ?_
  subst h0 h1 h2 h7 h8 h9 h10 h11 h12
  exact edgeAt_congr
    (fun d => congrFun (E3_kept m ρ c main_arg0 (by decide) (by decide) (by decide)) (ix3 b i d))
    (fun d => congrFun (E3_kept m ρ c main_arg0 (by decide) (by decide) (by decide)) (ix3 b j d))
    (fun d => E3_v5_apply m ρ c d i j)
    (congrArg (FloatOps.sitofp (F := Ideal) .f32)
      (congrFun (E3_kept m ρ c main_arg2 (by decide) (by decide) (by decide)) (ix2 i j)))
    (fun d h => congrFun (E3_kept m ρ c main_arg7 (by decide) (by decide) (by decide)) (ix2 d h))
    (fun d h => congrFun (E3_kept m ρ c main_arg8 (by decide) (by decide) (by decide)) (ix2 d h))
    (fun d h => congrFun (E3_kept m ρ c main_arg9 (by decide) (by decide) (by decide)) (ix2 d h))
    (fun h => E3_v6_apply m ρ c 0 h)
    (fun h => congrFun (E3_kept m ρ c main_arg11 (by decide) (by decide) (by decide)) (ix2 h 0))
    (E3_v7_apply m ρ c 0 0)

end Cert.KernelIdeal.Results

end
-- ==== Proof.KI.EdgeArray.lean ====
/-
  The edge head's result array, entry by entry.

  The launch's grid has 2 x 8 x 4 points (b, bi, bj). At a point the output window's block is the 1 x 64 x 128 box
  of the result at batch element b, rows 64 bi ... 64 bi + 63 and columns 128 bj ... 128 bj + 127. The input windows
  move with it: the block of the features of the row nodes is the 64 rows 64 bi ... of batch element b, the block of
  the features of the column nodes is the 128 rows 128 bj ... of batch element b, the block of the edge features and
  of the mask is the same box of rows and columns, and the six weight and bias windows are their whole arrays.
  The body stores one block whose entry (0, i, j) is the specification's edge head of row i of the first block,
  row j of the second, the nine edge features at (i, j) and the mask at (i, j); read where the blocks sit in their
  arrays, that is the edge head of nodes 64 bi + i and 128 bj + j of batch element b. So every point writes back the
  restriction to its box of one function of the arrays as the region finds them, and the 64 boxes cover the result
  array: the result array ends holding that function.
-/
import proofs.«177483_j86474871537940_1_alg».proof.Proof.KI.Region1
import proofs.«177483_j86474871537940_1_alg».proof.Proof.Spec
import Idealize.ShloMosaic.Lib.Pipeline.Value
import Idealize.ShloMosaic.Lib.ValueIdx

noncomputable section

namespace Cert.KernelIdeal.Arrays

open Cert.KernelIdeal Cert.KernelIdeal.Gen Cert.KernelIdeal.Edge
open Idealize.ShloMosaic Idealize.ShloMosaic.TcCoe Idealize.SL.Sem Idealize.ShloMosaic.ValueIdx
open Idealize.ShloMosaic.Pipeline (Dat)

/-- The body's stored block, entry (0, i, j), is the edge head of row i of the row nodes' block, row j of the column
    nodes' block, the edge features and the mask at (i, j) of their blocks, and the weights. -/
def EdgePayloadSpec : Prop :=
  ∀ (v0 : Vec Ideal S1x64x128 .f32) (v3 : Vec Ideal S1x128x128 .f32) (v6 v8 : Vec Ideal S128x256 .f32) (v12 : Vec Ideal S9x64x128 .f32) (v14 : Vec Ideal S9x256 .f32)
    (v106 : Vec Ideal S1x256 .f32) (v121 : Vec Ideal S256x1 .f32) (v126 : Vec Ideal S1x1 .f32) (v131 : Vec Ideal S64x128 .i32) (i : Fin 64) (j : Fin 128),
    k1_pay1 (F := Ideal) (k1_pay2 v0 v6) (k1_pay3 v3 v8) v14 (k1_pay7 (k1_pay4 v12) v14 (k1_pay5 v12 v14) (k1_pay6 v12)) (k1_pay8 (k1_pay4 v12)) v106 v121 v126 v131 (ix3 0 i j)
      = Cert.Spec.edgeAt (fun d => v0 (ix3 0 i d)) (fun d => v3 (ix3 0 j d)) (fun d => v12 (ix3 d i j))
          (FloatOps.sitofp (F := Ideal) .f32 (v131 (ix2 i j)))
          (fun d h => v6 (ix2 d h)) (fun d h => v8 (ix2 d h)) (fun d h => v14 (ix2 d h))
          (fun h => v106 (ix2 0 h)) (fun h => v121 (ix2 h 0)) (v126 (ix2 0 0))

variable (V : (c : Dev nD) → (b : Ref sig .tc) → Buf (Elt Ideal) ((c : Thread nD τ).loc b))

theorem edge_hz2 : (![0, 0] : Fin 2 → Nat) = fun _ => 0 := funext fun a => by fin_cases a <;> rfl
theorem edge_hz3 : (![0, 0, 0] : Fin 3 → Nat) = fun _ => 0 := funext fun a => by fin_cases a <;> rfl

/-- The edge head of every ordered pair of nodes of every batch element, from the arrays as the region finds them. -/
def edgeG (c : Dev nD) : S2x512x512.Idx → EReal := fun idx =>
  Cert.Spec.edgeAt (fun d => V c main_arg0 (ix3 (idx 0 : Fin 2) (idx 1 : Fin 512) d))
    (fun d => V c main_arg0 (ix3 (idx 0 : Fin 2) (idx 2 : Fin 512) d))
    (fun d => V c main_v5 (ix3 d (idx 1 : Fin 512) (idx 2 : Fin 512)))
    (FloatOps.sitofp (F := Ideal) .f32 (V c main_arg2 (ix2 (idx 1 : Fin 512) (idx 2 : Fin 512))))
    (fun d h => V c main_arg7 (ix2 d h)) (fun d h => V c main_arg8 (ix2 d h)) (fun d h => V c main_arg9 (ix2 d h))
    (fun h => V c main_v6 (ix2 (0 : Fin 1) h)) (fun h => V c main_arg11 (ix2 h (0 : Fin 1))) (V c main_v7 (ix2 (0 : Fin 1) (0 : Fin 1)))

/-- The block indices of the four moving input windows against the output window's, at every grid point, and the
    output's ranges. -/
theorem edge_idx_facts : ∀ t : Fin cfg1.N,
    win1_0.index t (0 : Fin 3) = win1_10.index t (0 : Fin 3) ∧ win1_0.index t (1 : Fin 3) = win1_10.index t (1 : Fin 3)
    ∧ win1_0.index t (2 : Fin 3) = 0
    ∧ win1_1.index t (0 : Fin 3) = win1_10.index t (0 : Fin 3) ∧ win1_1.index t (1 : Fin 3) = win1_10.index t (2 : Fin 3)
    ∧ win1_1.index t (2 : Fin 3) = 0
    ∧ win1_2.index t (0 : Fin 3) = 0 ∧ win1_2.index t (1 : Fin 3) = win1_10.index t (1 : Fin 3)
    ∧ win1_2.index t (2 : Fin 3) = win1_10.index t (2 : Fin 3)
    ∧ win1_3.index t (0 : Fin 2) = win1_10.index t (1 : Fin 3) ∧ win1_3.index t (1 : Fin 2) = win1_10.index t (2 : Fin 3)
    ∧ win1_10.index t (0 : Fin 3) ≤ 1 ∧ win1_10.index t (1 : Fin 3) ≤ 7 ∧ win1_10.index t (2 : Fin 3) ≤ 3 :=
  (by decide +kernel : ∀ t : Fin grid1.N, _)

/-- The block indices of the six whole-array windows are zero at every grid point. -/
theorem edge_idx_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Every block of the output's 2 x 8 x 4 boxes is some point's. -/
theorem edge_idx_onto : ∀ (q0 : Fin 2) (q1 : Fin 8) (q2 : Fin 4), ∃ t : Fin cfg1.N, win1_10.index t = ![q0.val, q1.val, q2.val] :=
  (by decide +kernel : ∀ (q0 : Fin 2) (q1 : Fin 8) (q2 : Fin 4), ∃ t : Fin grid1.N, win1_10.index t = ![q0.val, q1.val, q2.val])

/-- Each of the six weight and bias windows' block is its whole array. -/
theorem edge_blk4 (c : Dev nD) (t : Fin cfg1.N) : iblk1 V c 4 t = (V c main_arg7 : S128x256.Idx → EReal) := by
  obtain ⟨e0, e1, -⟩ := edge_idx_whole t
  funext y
  show V c main_arg7 (((cfg1.win 4).blk t).view.emb y) = V c main_arg7 y
  have h : ((cfg1.win 4).blk t).view.emb y = y := by
    funext a; apply Fin.ext
    match a with
    | ⟨0, _⟩ => show win1_4.index t (0 : Fin 2) * 128 + 1 * (y 0).val = (y 0).val; omega
    | ⟨1, _⟩ => show win1_4.index t (1 : Fin 2) * 256 + 1 * (y 1).val = (y 1).val; omega
  rw [h]

theorem edge_blk5 (c : Dev nD) (t : Fin cfg1.N) : iblk1 V c 5 t = (V c main_arg8 : S128x256.Idx → EReal) := by
  obtain ⟨-, -, e0, e1, -⟩ := edge_idx_whole t
  funext y
  show V c main_arg8 (((cfg1.win 5).blk t).view.emb y) = V c main_arg8 y
  have h : ((cfg1.win 5).blk t).view.emb y = y := by
    funext a; apply Fin.ext
    match a with
    | ⟨0, _⟩ => show win1_5.index t (0 : Fin 2) * 128 + 1 * (y 0).val = (y 0).val; omega
    | ⟨1, _⟩ => show win1_5.index t (1 : Fin 2) * 256 + 1 * (y 1).val = (y 1).val; omega
  rw [h]

theorem edge_blk6 (c : Dev nD) (t : Fin cfg1.N) : iblk1 V c 6 t = (V c main_arg9 : S9x256.Idx → EReal) := by
  obtain ⟨-, -, -, -, e0, e1, -⟩ := edge_idx_whole t
  funext y
  show V c main_arg9 (((cfg1.win 6).blk t).view.emb y) = V c main_arg9 y
  have h : ((cfg1.win 6).blk t).view.emb y = y := by
    funext a; apply Fin.ext
    match a with
    | ⟨0, _⟩ => show win1_6.index t (0 : Fin 2) * 9 + 1 * (y 0).val = (y 0).val; omega
    | ⟨1, _⟩ => show win1_6.index t (1 : Fin 2) * 256 + 1 * (y 1).val = (y 1).val; omega
  rw [h]

theorem edge_blk7 (c : Dev nD) (t : Fin cfg1.N) : iblk1 V c 7 t = (V c main_v6 : S1x256.Idx → EReal) := by
  obtain ⟨-, -, -, -, -, -, e0, e1, -⟩ := edge_idx_whole t
  funext y
  show V c main_v6 (((cfg1.win 7).blk t).view.emb y) = V c main_v6 y
  have h : ((cfg1.win 7).blk t).view.emb y = y := by
    funext a; apply Fin.ext
    match a with
    | ⟨0, _⟩ => show win1_7.index t (0 : Fin 2) * 1 + 1 * (y 0).val = (y 0).val; omega
    | ⟨1, _⟩ => show win1_7.index t (1 : Fin 2) * 256 + 1 * (y 1).val = (y 1).val; omega
  rw [h]

theorem edge_blk8 (c : Dev nD) (t : Fin cfg1.N) : iblk1 V c 8 t = (V c main_arg11 : S256x1.Idx → EReal) := by
  obtain ⟨-, -, -, -, -, -, -, -, e0, e1, -⟩ := edge_idx_whole t
  funext y
  show V c main_arg11 (((cfg1.win 8).blk t).view.emb y) = V c main_arg11 y
  have h : ((cfg1.win 8).blk t).view.emb y = y := by
    funext a; apply Fin.ext
    match a with
    | ⟨0, _⟩ => show win1_8.index t (0 : Fin 2) * 256 + 1 * (y 0).val = (y 0).val; omega
    | ⟨1, _⟩ => show win1_8.index t (1 : Fin 2) * 1 + 1 * (y 1).val = (y 1).val; omega
  rw [h]

theorem edge_blk9 (c : Dev nD) (t : Fin cfg1.N) : iblk1 V c 9 t = (V c main_v7 : S1x1.Idx → EReal) := by
  obtain ⟨-, -, -, -, -, -, -, -, -, -, e0, e1⟩ := edge_idx_whole t
  funext y
  show V c main_v7 (((cfg1.win 9).blk t).view.emb y) = V c main_v7 y
  have h : ((cfg1.win 9).blk t).view.emb y = y := by
    funext a; apply Fin.ext
    match a with
    | ⟨0, _⟩ => show win1_9.index t (0 : Fin 2) * 1 + 1 * (y 0).val = (y 0).val; omega
    | ⟨1, _⟩ => show win1_9.index t (1 : Fin 2) * 1 + 1 * (y 1).val = (y 1).val; omega
  rw [h]

/-- An entry of the row nodes' block is the entry of the features where the block sits. -/
theorem edge_blk0_apply (c : Dev nD) (t : Fin cfg1.N) (x : S1x64x128.Idx) (k : S2x512x128.Idx)
    (h0 : (k 0).val = win1_0.index t (0 : Fin 3) * 1 + (x 0).val)
    (h1 : (k 1).val = win1_0.index t (1 : Fin 3) * 64 + (x 1).val)
    (h2 : (k 2).val = win1_0.index t (2 : Fin 3) * 128 + (x 2).val) :
    (iblk1 V c 0 t : Vec Ideal S1x64x128 .f32) x = (V c main_arg0 : S2x512x128.Idx → EReal) k := by
  show V c main_arg0 (((cfg1.win 0).blk t).view.emb x) = V c main_arg0 k
  have h : ((cfg1.win 0).blk t).view.emb x = k := by
    funext a; apply Fin.ext
    match a with
    | ⟨0, _⟩ => show win1_0.index t (0 : Fin 3) * 1 + 1 * (x 0).val = (k 0).val; omega
    | ⟨1, _⟩ => show win1_0.index t (1 : Fin 3) * 64 + 1 * (x 1).val = (k 1).val; omega
    | ⟨2, _⟩ => show win1_0.index t (2 : Fin 3) * 128 + 1 * (x 2).val = (k 2).val; omega
  rw [h]

/-- An entry of the column nodes' block is the entry of the features where the block sits. -/
theorem edge_blk1_apply (c : Dev nD) (t : Fin cfg1.N) (x : S1x128x128.Idx) (k : S2x512x128.Idx)
    (h0 : (k 0).val = win1_1.index t (0 : Fin 3) * 1 + (x 0).val)
    (h1 : (k 1).val = win1_1.index t (1 : Fin 3) * 128 + (x 1).val)
    (h2 : (k 2).val = win1_1.index t (2 : Fin 3) * 128 + (x 2).val) :
    (iblk1 V c 1 t : Vec Ideal S1x128x128 .f32) x = (V c main_arg0 : S2x512x128.Idx → EReal) k := by
  show V c main_arg0 (((cfg1.win 1).blk t).view.emb x) = V c main_arg0 k
  have h : ((cfg1.win 1).blk t).view.emb x = k := by
    funext a; apply Fin.ext
    match a with
    | ⟨0, _⟩ => show win1_1.index t (0 : Fin 3) * 1 + 1 * (x 0).val = (k 0).val; omega
    | ⟨1, _⟩ => show win1_1.index t (1 : Fin 3) * 128 + 1 * (x 1).val = (k 1).val; omega
    | ⟨2, _⟩ => show win1_1.index t (2 : Fin 3) * 128 + 1 * (x 2).val = (k 2).val; omega
  rw [h]

/-- An entry of the edge features' block is the entry of the edge features where the block sits. -/
theorem edge_blk2_apply (c : Dev nD) (t : Fin cfg1.N) (x : S9x64x128.Idx) (k : S9x512x512.Idx)
    (h0 : (k 0).val = win1_2.index t (0 : Fin 3) * 9 + (x 0).val)
    (h1 : (k 1).val = win1_2.index t (1 : Fin 3) * 64 + (x 1).val)
    (h2 : (k 2).val = win1_2.index t (2 : Fin 3) * 128 + (x 2).val) :
    (iblk1 V c 2 t : Vec Ideal S9x64x128 .f32) x = (V c main_v5 : S9x512x512.Idx → EReal) k := by
  show V c main_v5 (((cfg1.win 2).blk t).view.emb x) = V c main_v5 k
  have h : ((cfg1.win 2).blk t).view.emb x = k := by
    funext a; apply Fin.ext
    match a with
    | ⟨0, _⟩ => show win1_2.index t (0 : Fin 3) * 9 + 1 * (x 0).val = (k 0).val; omega
    | ⟨1, _⟩ => show win1_2.index t (1 : Fin 3) * 64 + 1 * (x 1).val = (k 1).val; omega
    | ⟨2, _⟩ => show win1_2.index t (2 : Fin 3) * 128 + 1 * (x 2).val = (k 2).val; omega
  rw [h]

/-- An entry of the mask's block is the entry of the mask where the block sits. -/
theorem edge_blk3_apply (c : Dev nD) (t : Fin cfg1.N) (x : S64x128.Idx) (k : S512x512.Idx)
    (h0 : (k 0).val = win1_3.index t (0 : Fin 2) * 64 + (x 0).val)
    (h1 : (k 1).val = win1_3.index t (1 : Fin 2) * 128 + (x 1).val) :
    (iblk1 V c 3 t : Vec Ideal S64x128 .i32) x = (V c main_arg2 : S512x512.Idx → Elt Ideal .i32) k := by
  show V c main_arg2 (((cfg1.win 3).blk t).view.emb x) = V c main_arg2 k
  have h : ((cfg1.win 3).blk t).view.emb x = k := by
    funext a; apply Fin.ext
    match a with
    | ⟨0, _⟩ => show win1_3.index t (0 : Fin 2) * 64 + 1 * (x 0).val = (k 0).val; omega
    | ⟨1, _⟩ => show win1_3.index t (1 : Fin 2) * 128 + 1 * (x 1).val = (k 1).val; omega
  rw [h]

/-- The stored block at an entry of the staging buffer is the edge head at the place of the result where the entry
    lands, once each moving input block's entries are the entries of its array at the matching places. -/
theorem edge_point (hp : EdgePayloadSpec) (c : Dev nD)
    (v0 : Vec Ideal S1x64x128 .f32) (v3 : Vec Ideal S1x128x128 .f32) (v12 : Vec Ideal S9x64x128 .f32) (v131 : Vec Ideal S64x128 .i32)
    (x : S1x64x128.Idx) (e : S2x512x512.Idx)
    (h0 : ∀ d : Fin 128, v0 (ix3 (0 : Fin 1) (x 1 : Fin 64) d) = V c main_arg0 (ix3 (e 0 : Fin 2) (e 1 : Fin 512) d))
    (h1 : ∀ d : Fin 128, v3 (ix3 (0 : Fin 1) (x 2 : Fin 128) d) = V c main_arg0 (ix3 (e 0 : Fin 2) (e 2 : Fin 512) d))
    (h2 : ∀ d : Fin 9, v12 (ix3 d (x 1 : Fin 64) (x 2 : Fin 128)) = V c main_v5 (ix3 d (e 1 : Fin 512) (e 2 : Fin 512)))
    (h3 : v131 (ix2 (x 1 : Fin 64) (x 2 : Fin 128)) = V c main_arg2 (ix2 (e 1 : Fin 512) (e 2 : Fin 512))) :
    k1_pay1 (F := Ideal) (k1_pay2 v0 (V c main_arg7 : Vec Ideal S128x256 .f32)) (k1_pay3 v3 (V c main_arg8 : Vec Ideal S128x256 .f32))
        (V c main_arg9 : Vec Ideal S9x256 .f32)
        (k1_pay7 (k1_pay4 v12) (V c main_arg9 : Vec Ideal S9x256 .f32) (k1_pay5 v12 (V c main_arg9 : Vec Ideal S9x256 .f32)) (k1_pay6 v12))
        (k1_pay8 (k1_pay4 v12)) (V c main_v6 : Vec Ideal S1x256 .f32) (V c main_arg11 : Vec Ideal S256x1 .f32)
        (V c main_v7 : Vec Ideal S1x1 .f32) v131 x
      = edgeG V c e := by
  obtain ⟨a, i, j, rfl⟩ : ∃ (a : Fin 1) (i : Fin 64) (j : Fin 128), x = ix3 a i j := ⟨x 0, x 1, x 2, eq_ix3 x⟩
  obtain rfl : a = 0 := Subsingleton.elim _ _
  refine (hp v0 v3 _ _ v12 _ _ _ _ v131 i j).trans ?_
  have e0 : (fun d : Fin 128 => v0 (ix3 (0 : Fin 1) i d)) = fun d => V c main_arg0 (ix3 (e 0 : Fin 2) (e 1 : Fin 512) d) := funext h0
  have e1 : (fun d : Fin 128 => v3 (ix3 (0 : Fin 1) j d)) = fun d => V c main_arg0 (ix3 (e 0 : Fin 2) (e 2 : Fin 512) d) := funext h1
  have e2 : (fun d : Fin 9 => v12 (ix3 d i j)) = fun d => V c main_v5 (ix3 d (e 1 : Fin 512) (e 2 : Fin 512)) := funext h2
  have e3 : v131 (ix2 i j) = V c main_arg2 (ix2 (e 1 : Fin 512) (e 2 : Fin 512)) := h3
  rw [e0, e1, e2, e3]
  rfl

/-- What a point writes back is its block of the edge heads. -/
theorem edge_flushed (hp : EdgePayloadSpec) (c : Dev nD) (t : Fin cfg1.N) :
    (dat1 V c).flushed 10 t = ((cfg1.win 10).blk t).view.read (Elt Ideal) (edgeG V c) := by
  show (cfg1.win 10).cut (grid1.coords t) ((dat1 V c).after 10 t) = _
  rw [after1_10]
  unfold out1
  rw [View.canon_unit_zero edge_hz3]
  simp only [View.ld_unit_zero (S := S1x64x128) edge_hz3, View.ld_unit_zero (S := S1x128x128) edge_hz3,
    View.ld_unit_zero (S := S9x64x128) edge_hz3, View.ld_unit_zero (S := S64x128) edge_hz2,
    View.ld_unit_zero (S := S128x256) edge_hz2, View.ld_unit_zero (S := S9x256) edge_hz2,
    View.ld_unit_zero (S := S1x256) edge_hz2, View.ld_unit_zero (S := S256x1) edge_hz2,
    View.ld_unit_zero (S := S1x1) edge_hz2]
  rw [edge_blk4, edge_blk5, edge_blk6, edge_blk7, edge_blk8, edge_blk9]
  obtain ⟨a00, a01, a02, a10, a11, a12, a20, a21, a22, a30, a31, r0, r1, r2⟩ := edge_idx_facts t
  funext y
  have hy0 : (y 0).val < 1 := (y 0).isLt
  have hy1 : (y 1).val < 64 := (y 1).isLt
  have hy2 : (y 2).val < 128 := (y 2).isLt
  refine edge_point V hp c (iblk1 V c 0 t) (iblk1 V c 1 t) (iblk1 V c 2 t) (iblk1 V c 3 t) _ _
    (fun d => ?_) (fun d => ?_) (fun d => ?_) ?_
  · refine edge_blk0_apply V c t _ _ ?_ ?_ ?_
    · show win1_10.index t (0 : Fin 3) * 1 + 1 * (y 0).val = win1_0.index t (0 : Fin 3) * 1 + 0; omega
    · show win1_10.index t (1 : Fin 3) * 64 + 1 * (y 1).val = win1_0.index t (1 : Fin 3) * 64 + (y 1).val; omega
    · show d.val = win1_0.index t (2 : Fin 3) * 128 + d.val; omega
  · refine edge_blk1_apply V c t _ _ ?_ ?_ ?_
    · show win1_10.index t (0 : Fin 3) * 1 + 1 * (y 0).val = win1_1.index t (0 : Fin 3) * 1 + 0; omega
    · show win1_10.index t (2 : Fin 3) * 128 + 1 * (y 2).val = win1_1.index t (1 : Fin 3) * 128 + (y 2).val; omega
    · show d.val = win1_1.index t (2 : Fin 3) * 128 + d.val; omega
  · refine edge_blk2_apply V c t _ _ ?_ ?_ ?_
    · show d.val = win1_2.index t (0 : Fin 3) * 9 + d.val; omega
    · show win1_10.index t (1 : Fin 3) * 64 + 1 * (y 1).val = win1_2.index t (1 : Fin 3) * 64 + (y 1).val; omega
    · show win1_10.index t (2 : Fin 3) * 128 + 1 * (y 2).val = win1_2.index t (2 : Fin 3) * 128 + (y 2).val; omega
  · refine edge_blk3_apply V c t _ _ ?_ ?_
    · show win1_10.index t (1 : Fin 3) * 64 + 1 * (y 1).val = win1_3.index t (0 : Fin 2) * 64 + (y 1).val; omega
    · show win1_10.index t (2 : Fin 3) * 128 + 1 * (y 2).val = win1_3.index t (1 : Fin 2) * 128 + (y 2).val; omega

/-- An index of the result is in a point's block iff each coordinate is in the block's range on its axis. -/
theorem edge_mem_blk (t : Fin cfg1.N) (i : S2x512x512.Idx) :
    i ∈ ((cfg1.win 10).blk t).view.set ↔ ∀ a : Fin 3, win1_10.index t a * S1x64x128.size a ≤ (i a).val ∧ (i a).val < win1_10.index t a * S1x64x128.size a + S1x64x128.size a := by
  show i ∈ ((View.whole main_v8).slice (win1_10.rect t)).set ↔ _
  rw [View.set_slice_whole, Rect.mem_set_unit]
  exact Iff.rfl

/-- The result array ends holding the edge heads: the point (b, i / 64, j / 128) covers the entry (b, i, j). -/
theorem edge_final (hp : EdgePayloadSpec) (c : Dev nD) : (dat1 V c).arrAt 10 cfg1.N = edgeG V c :=
  (dat1 V c).arrAt_eq_of_cover 10 (edgeG V c) (fun t _ => edge_flushed V hp c t) fun i => by
    have hi0 : (i 0).val < 2 := (i 0).isLt
    have hi1 : (i 1).val < 512 := (i 1).isLt
    have hi2 : (i 2).val < 512 := (i 2).isLt
    obtain ⟨t, ht⟩ := edge_idx_onto ⟨(i 0).val, hi0⟩ ⟨(i 1).val / 64, by omega⟩ ⟨(i 2).val / 128, by omega⟩
    have q0 : win1_10.index t (0 : Fin 3) = (i 0).val := congrFun ht 0
    have q1 : win1_10.index t (1 : Fin 3) = (i 1).val / 64 := congrFun ht 1
    have q2 : win1_10.index t (2 : Fin 3) = (i 2).val / 128 := congrFun ht 2
    refine ⟨t, flush1_10 t, ?_⟩
    rw [edge_mem_blk]
    intro a
    match a with
    | ⟨0, _⟩ => show win1_10.index t (0 : Fin 3) * 1 ≤ (i 0).val ∧ (i 0).val < win1_10.index t (0 : Fin 3) * 1 + 1; omega
    | ⟨1, _⟩ => show win1_10.index t (1 : Fin 3) * 64 ≤ (i 1).val ∧ (i 1).val < win1_10.index t (1 : Fin 3) * 64 + 64; omega
    | ⟨2, _⟩ => show win1_10.index t (2 : Fin 3) * 128 ≤ (i 2).val ∧ (i 2).val < win1_10.index t (2 : Fin 3) * 128 + 128; omega

/-- The result array at (b, i, j) is the edge head of nodes i and j of batch element b. -/
theorem edge_array (hp : EdgePayloadSpec) (V : (c : Dev nD) → (b : Ref sig .tc) → Buf (Elt Ideal) ((c : Thread nD τ).loc b)) (c : Dev nD) (b : Fin 2) (i j : Fin 512) :
    ((Cert.KernelIdeal.Edge.dat1 (F := Ideal) V c).arrAt 10 cfg1.N : S2x512x512.Idx → EReal) (ix3 b i j)
      = Cert.Spec.edgeAt (fun d => V c main_arg0 (ix3 b i d)) (fun d => V c main_arg0 (ix3 b j d)) (fun d => V c main_v5 (ix3 d i j))
          (FloatOps.sitofp (F := Ideal) .f32 (V c main_arg2 (ix2 i j)))
          (fun d h => V c main_arg7 (ix2 d h)) (fun d h => V c main_arg8 (ix2 d h)) (fun d h => V c main_arg9 (ix2 d h))
          (fun h => V c main_v6 (ix2 0 h)) (fun h => V c main_arg11 (ix2 h 0)) (V c main_v7 (ix2 0 0)) :=
  (congrFun (edge_final V hp c) (ix3 b i j)).trans rfl

end Cert.KernelIdeal.Arrays

end
-- ==== Proof.PayEdgeProj.lean ====
/-
  The two node projections of the edge head, read at one entry.

  The block of 64 node rows (and the block of 128 node rows) is read as a matrix, its leading unit axis dropped,
  and multiplied by a weight matrix into a zero accumulator. Over the extended reals the entry at (row, h) is the
  sum over the 128 features d of the row's feature d times the weight at (d, h).
-/
import proofs.«177483_j86474871537940_1_alg».proof.Proof.Gen.KernelIdeal.Skeleton
import proofs.«177483_j86474871537940_1_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KerBridge

open Cert.KernelIdeal Cert.KernelIdeal.Gen Idealize.ShloMosaic Idealize.ShloMosaic.ValueIdx Cert.Lib.Layout

/-- The projection of the 64 row-side nodes: at (i, h), the sum over d of node i's feature d times the weight
    at (d, h). -/
theorem pay2_apply (v0 : Vec Ideal S1x64x128 .f32) (v6 : Vec Ideal S128x256 .f32) (i : Fin 64) (h : Fin 256) :
    k1_pay2 (F := Ideal) v0 v6 (ix2 i h) = ∑ d : Fin 128, v0 (ix3 0 i d) * v6 (ix2 d h) := by
  unfold k1_pay2
  show (matmul (F := Ideal) (DotDims.plain 64 128 256) none _ _ _ (ix2 i h) : EReal) = _
  rw [matmul_plain_zero_apply]
  refine Finset.sum_congr rfl fun d _ => ?_
  show (shapeCast S64x128 v0 _ (ix2 i d) : EReal) * v6 (ix2 d h) = _
  rw [shapeCast_1ab_ab_apply]

/-- The projection of the 128 column-side nodes: at (j, h), the sum over d of node j's feature d times the
    weight at (d, h). -/
theorem pay3_apply (v3 : Vec Ideal S1x128x128 .f32) (v8 : Vec Ideal S128x256 .f32) (j : Fin 128) (h : Fin 256) :
    k1_pay3 (F := Ideal) v3 v8 (ix2 j h) = ∑ d : Fin 128, v3 (ix3 0 j d) * v8 (ix2 d h) := by
  unfold k1_pay3
  show (matmul (F := Ideal) (DotDims.plain 128 128 256) none _ _ _ (ix2 j h) : EReal) = _
  rw [matmul_plain_zero_apply]
  refine Finset.sum_congr rfl fun d _ => ?_
  show (shapeCast S128x128 v3 _ (ix2 j d) : EReal) * v8 (ix2 d h) = _
  rw [shapeCast_1ab_ab_apply]

end Cert.KerBridge

end
-- ==== Proof.PayEdgeTerms.lean ====
/-
  The edge head's accumulation of the nine edge-feature products, read at one entry.

  The edge features lie as nine slabs [64, 128] and their weights as nine rows [256]. Term d of the accumulation
  is slab d laid along a new last axis times row d laid along two new leading axes: at (i, j, h) it is the
  product of slab d at (i, j) and row d at h. The body adds terms 0 and 1 to a zero splat, then terms 2 to 7, one
  after the other; the slabs of terms 2 and 8 are handed on as separate one-column arrays.
-/
import proofs.«177483_j86474871537940_1_alg».proof.Proof.Gen.KernelIdeal.Skeleton
import proofs.«177483_j86474871537940_1_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KerBridge

open Cert.KernelIdeal Cert.KernelIdeal.Gen Idealize.ShloMosaic Idealize.ShloMosaic.ValueIdx Cert.Lib.Layout

/-- Slab o of the edge features laid along a new last axis reads, at (i, j, u), the features at (o, i, j). -/
theorem edge_col (v13 : FVec Ideal S9x64x128 .f32) (o : ℕ) (k : Fin 9) (hk : k.val = o)
    (hs : S9x64x128.Slices ![o, 0, 0] S1x64x128) (i : Fin 64) (j : Fin 128) (u : Fin 1) :
    shapeCast S64x128x1 (shapeCast S64x128 (extractStridedSlice S1x64x128 ![o, 0, 0] v13 hs)
      Facts₀.shapeCasts_S1x64x128_S64x128) Facts₀.shapeCasts_S64x128_S64x128x1 (ix3 i j u) = v13 (ix3 k i j) := by
  rw [shapeCast_ab_ab1_apply, shapeCast_1ab_ab_apply]
  exact slice3_axis0_apply o v13 hs 0 i j k (by rw [hk]; rfl)

/-- Row o of the edge weights laid along two new leading axes and broadcast reads, at (i, j, h), the weights at
    (o, h). -/
theorem edge_row (v14 : Vec Ideal S9x256 .f32) (o : ℕ) (k : Fin 9) (hk : k.val = o)
    (hs : S9x256.Slices ![o, 0] S1x256) (i : Fin 64) (j : Fin 128) (h : Fin 256) :
    broadcastTo S64x128x256 (shapeCast S1x1x256 (shapeCast S256 (extractStridedSlice S1x256 ![o, 0] v14 hs)
      Facts₀.shapeCasts_S1x256_S256) Facts₀.shapeCasts_S256_S1x1x256) Facts₀.broadcasts_S1x1x256_S64x128x256
      (ix3 i j h) = v14 (ix2 k h) := by
  rw [broadcastTo_11c_abc_apply, shapeCast_a_11a_apply, shapeCast_1a_a_apply]
  exact slice2_axis0_apply o v14 hs 0 h k (by rw [hk]; rfl)

/-- A one-column array broadcast along the last axis times row o of the weights: at (i, j, h) the column at
    (i, j) times the weights at (o, h). -/
theorem edge_term_of_col (x : FVec Ideal S64x128x1 .f32) (v14 : Vec Ideal S9x256 .f32) (o : ℕ) (k : Fin 9)
    (hk : k.val = o) (hs : S9x256.Slices ![o, 0] S1x256) (i : Fin 64) (j : Fin 128) (h : Fin 256) :
    mulf (broadcastTo S64x128x256 x Facts₀.broadcasts_S64x128x1_S64x128x256)
      (broadcastTo S64x128x256 (shapeCast S1x1x256 (shapeCast S256 (extractStridedSlice S1x256 ![o, 0] v14 hs)
        Facts₀.shapeCasts_S1x256_S256) Facts₀.shapeCasts_S256_S1x1x256) Facts₀.broadcasts_S1x1x256_S64x128x256)
      (ix3 i j h) = x (ix3 i j 0) * v14 (ix2 k h) := by
  show (broadcastTo S64x128x256 x _ (ix3 i j h) : EReal) * broadcastTo S64x128x256 _ _ (ix3 i j h) = _
  rw [broadcastTo_ab1_abc_apply, edge_row v14 o k hk hs]

/-- Term o of the accumulation at (i, j, h): the features at (o, i, j) times the weights at (o, h). -/
theorem edge_term (v13 : FVec Ideal S9x64x128 .f32) (v14 : Vec Ideal S9x256 .f32) (o : ℕ) (k : Fin 9)
    (hk : k.val = o) (hs1 : S9x64x128.Slices ![o, 0, 0] S1x64x128) (hs2 : S9x256.Slices ![o, 0] S1x256)
    (i : Fin 64) (j : Fin 128) (h : Fin 256) :
    mulf (broadcastTo S64x128x256 (shapeCast S64x128x1 (shapeCast S64x128
        (extractStridedSlice S1x64x128 ![o, 0, 0] v13 hs1) Facts₀.shapeCasts_S1x64x128_S64x128)
        Facts₀.shapeCasts_S64x128_S64x128x1) Facts₀.broadcasts_S64x128x1_S64x128x256)
      (broadcastTo S64x128x256 (shapeCast S1x1x256 (shapeCast S256 (extractStridedSlice S1x256 ![o, 0] v14 hs2)
        Facts₀.shapeCasts_S1x256_S256) Facts₀.shapeCasts_S256_S1x1x256) Facts₀.broadcasts_S1x1x256_S64x128x256)
      (ix3 i j h) = v13 (ix3 k i j) * v14 (ix2 k h) := by
  rw [edge_term_of_col _ v14 o k hk hs2, edge_col v13 o k hk hs1]

end Cert.KerBridge

end
-- ==== Proof.PayEdgeAcc.lean ====
/-
  The accumulated edge-feature projection as the body hands it on, read at one entry.

  The first part of the body adds terms 0 and 1 of the nine products to a zero splat and keeps slab 2 of the edge
  features as a one-column array; the second part adds that column's term and terms 3 to 7 and keeps slab 8 as a
  one-column array. At (i, j, h) each partial accumulation is the earlier one plus the products of the features at
  (d, i, j) and the weights at (d, h), added in the order d = 0, 1, ..., 7.
-/
import proofs.«177483_j86474871537940_1_alg».proof.Proof.Gen.KernelIdeal.Skeleton
import proofs.«177483_j86474871537940_1_alg».proof.Proof.LibLayout
import proofs.«177483_j86474871537940_1_alg».proof.Proof.PayEdgeTerms
import Idealize.ShloMosaic.Lib.ValueIdx
import Idealize.ShloMosaic.Lib.Pipeline.Value
import Idealize.ShloMosaic.Lib.ValueLayout
import Idealize.ShloMosaic.PureOps.Ideal.Laws

noncomputable section

namespace Cert.KerBridge

open Cert.KernelIdeal Cert.KernelIdeal.Gen Idealize.ShloMosaic Idealize.ShloMosaic.ValueIdx Cert.Lib.Layout

/-- The edge features cast to their own shape are the edge features. -/
theorem pay4_eq (v12 : Vec Ideal S9x64x128 .f32) : k1_pay4 (F := Ideal) v12 = v12 := by
  unfold k1_pay4
  exact shapeCast_self v12 _

/-- The column kept for term 2 reads, at (i, j, u), the edge features at (2, i, j). -/
theorem pay6_apply (v12 : Vec Ideal S9x64x128 .f32) (i : Fin 64) (j : Fin 128) (u : Fin 1) :
    k1_pay6 (F := Ideal) v12 (ix3 i j u) = v12 (ix3 (2 : Fin 9) i j) := by
  unfold k1_pay6
  rw [pay4_eq]
  exact edge_col v12 2 2 rfl _ i j u

/-- The column kept for term 8 reads, at (i, j, u), the edge features at (8, i, j). -/
theorem pay8_apply (v13 : FVec Ideal S9x64x128 .f32) (i : Fin 64) (j : Fin 128) (u : Fin 1) :
    k1_pay8 (F := Ideal) v13 (ix3 i j u) = v13 (ix3 (8 : Fin 9) i j) := by
  unfold k1_pay8
  exact edge_col v13 8 8 rfl _ i j u

/-- Terms 0 and 1 added to zero. -/
theorem pay5_apply (v12 : Vec Ideal S9x64x128 .f32) (v14 : Vec Ideal S9x256 .f32) (i : Fin 64) (j : Fin 128)
    (h : Fin 256) :
    k1_pay5 (F := Ideal) v12 v14 (ix3 i j h)
      = (Ideal.ofBits .f32 0x00000000#32 + v12 (ix3 (0 : Fin 9) i j) * v14 (ix2 (0 : Fin 9) h))
          + v12 (ix3 (1 : Fin 9) i j) * v14 (ix2 (1 : Fin 9) h) := by
  unfold k1_pay5
  rw [pay4_eq]
  simp only [addf_apply]
  rw [edge_term v12 v14 0 0 rfl, edge_term v12 v14 1 1 rfl]
  rfl

/-- Terms 2 to 7 added to what came before, term 2 through its kept column. -/
theorem pay7_apply (v13 : FVec Ideal S9x64x128 .f32) (v14 : Vec Ideal S9x256 .f32) (v35 : FVec Ideal S64x128x256 .f32)
    (v38 : FVec Ideal S64x128x1 .f32) (i : Fin 64) (j : Fin 128) (h : Fin 256) :
    k1_pay7 (F := Ideal) v13 v14 v35 v38 (ix3 i j h)
      = (((((v35 (ix3 i j h) + v38 (ix3 i j 0) * v14 (ix2 (2 : Fin 9) h))
          + v13 (ix3 (3 : Fin 9) i j) * v14 (ix2 (3 : Fin 9) h))
          + v13 (ix3 (4 : Fin 9) i j) * v14 (ix2 (4 : Fin 9) h))
          + v13 (ix3 (5 : Fin 9) i j) * v14 (ix2 (5 : Fin 9) h))
          + v13 (ix3 (6 : Fin 9) i j) * v14 (ix2 (6 : Fin 9) h))
          + v13 (ix3 (7 : Fin 9) i j) * v14 (ix2 (7 : Fin 9) h) := by
  unfold k1_pay7
  simp only [addf_apply]
  rw [edge_term_of_col v38 v14 2 2 rfl, edge_term v13 v14 3 3 rfl, edge_term v13 v14 4 4 rfl,
    edge_term v13 v14 5 5 rfl, edge_term v13 v14 6 6 rfl, edge_term v13 v14 7 7 rfl]

end Cert.KerBridge

end
-- ==== Proof.PayEdgeHead.lean ====
/-
  The edge head's stored value in terms of the pieces handed on to its last part, read at one pair (i, j).

  The last part adds term 8 of the edge-feature products to the accumulated projection, then the row-side
  projection (constant along j), the column-side projection (constant along i) and the bias row, takes the maximum
  with zero, flattens the pairs (i, j) to the 8192 rows i * 128 + j, multiplies by the one-column second weight
  matrix into a zero accumulator, folds the resulting column back to [64, 128], adds the scalar bias, applies the
  logistic function and multiplies by the mask converted from integers.
-/
import proofs.«177483_j86474871537940_1_alg».proof.Proof.Gen.KernelIdeal.Skeleton
import proofs.«177483_j86474871537940_1_alg».proof.Proof.Spec
import proofs.«177483_j86474871537940_1_alg».proof.Proof.LibLayout
import proofs.«177483_j86474871537940_1_alg».proof.Proof.PayEdgeTerms
import Idealize.ShloMosaic.Lib.ValueIdx
import Idealize.ShloMosaic.Lib.Pipeline.Value
import Idealize.ShloMosaic.Lib.ValueLayout
import Idealize.ShloMosaic.PureOps.Ideal.Laws

noncomputable section

namespace Cert.KerBridge

open Cert.KernelIdeal Cert.KernelIdeal.Gen Idealize.ShloMosaic Idealize.ShloMosaic.ValueIdx Cert.Lib.Layout

/-- The stored value at (0, i, j) from the handed-on pieces: the logistic function of the hidden sum plus the scalar
    bias, times the mask at (i, j). -/
theorem pay1_apply (v10 : FVec Ideal S64x256 .f32) (v11 : FVec Ideal S128x256 .f32) (v14 : Vec Ideal S9x256 .f32)
    (v95 : FVec Ideal S64x128x256 .f32) (v98 : FVec Ideal S64x128x1 .f32) (v106 : Vec Ideal S1x256 .f32)
    (v121 : Vec Ideal S256x1 .f32) (v126 : Vec Ideal S1x1 .f32) (v131 : Vec Ideal S64x128 .i32)
    (i : Fin 64) (j : Fin 128) :
    k1_pay1 (F := Ideal) v10 v11 v14 v95 v98 v106 v121 v126 v131 (ix3 0 i j)
      = Ideal.logistic ((∑ h : Fin 256, Cert.Spec.relu
            ((((v95 (ix3 i j h) + v98 (ix3 i j 0) * v14 (ix2 (8 : Fin 9) h)) + v10 (ix2 i h)) + v11 (ix2 j h))
              + v106 (ix2 0 h)) * v121 (ix2 h 0)) + v126 (ix2 0 0))
          * FloatOps.sitofp (F := Ideal) .f32 (v131 (ix2 i j)) := by
  have hp : i.val * 128 + j.val < 8192 := by have := i.isLt; have := j.isLt; omega
  unfold k1_pay1
  rw [shapeCast_ab_1ab_apply]
  show Ideal.logistic ((shapeCast S64x128 _ _ (ix2 i j) : EReal) + extractAt ![0, 0] v126 _)
      * FloatOps.sitofp (F := Ideal) .f32 (v131 (ix2 i j)) = _
  rw [shapeCast_m_ab_apply _ _ i j (⟨i.val * 128 + j.val, hp⟩ : Fin 8192) rfl, shapeCast_a1_a_apply,
    extractAt_00_apply]
  show Ideal.logistic ((matmul (F := Ideal) (DotDims.plain 8192 256 1) none _ _ _
      (ix2 (⟨i.val * 128 + j.val, hp⟩ : Fin 8192) (0 : Fin 1)) : EReal) + _) * _ = _
  rw [matmul_plain_zero_apply]
  refine congrArg (fun s => Ideal.logistic (s + v126 (ix2 0 0)) * FloatOps.sitofp (F := Ideal) .f32 (v131 (ix2 i j)))
    (Finset.sum_congr rfl fun h _ => ?_)
  show (shapeCast S8192x256 _ _ (ix2 (⟨i.val * 128 + j.val, hp⟩ : Fin 8192) h) : EReal) * v121 (ix2 h 0) = _
  rw [shapeCast_abc_mc_apply _ _ _ h i j rfl]
  show max ((addf (F := Ideal) _ _ (ix3 i j h)) : EReal) (Ideal.ofBits .f32 0x00000000#32) * _ = _
  simp only [addf_apply]
  rw [edge_term_of_col v98 v14 8 8 rfl, broadcastTo_a1c_abc_apply, shapeCast_ac_a1c_apply,
    broadcastTo_1bc_abc_apply, shapeCast_ab_1ab_apply, broadcastTo_11c_abc_apply, shapeCast_a_11a_apply,
    shapeCast_1a_a_apply]
  rfl

end Cert.KerBridge

end
-- ==== Proof.PayEdge.lean ====
/-
  The edge head's stored value, read at one ordered pair (i, j) of the block.

  Putting the pieces together: the stored value at (0, i, j) is the logistic function of the sum over the 256
  hidden units h of the rectified pre-activation times the second weight at h, plus the scalar bias, times the
  mask at (i, j). The pre-activation at h is the nine edge-feature products added one after the other from zero,
  plus the row-side projection of node i, plus the column-side projection of node j, plus the bias at h: the
  term-by-term order of Spec's edgeAccAt, which equals Spec's edgeAt at every extended-real input.
-/
import proofs.«177483_j86474871537940_1_alg».proof.Proof.Gen.KernelIdeal.Skeleton
import proofs.«177483_j86474871537940_1_alg».proof.Proof.Spec
import proofs.«177483_j86474871537940_1_alg».proof.Proof.LibLayout
import proofs.«177483_j86474871537940_1_alg».proof.Proof.PayEdgeProj
import proofs.«177483_j86474871537940_1_alg».proof.Proof.PayEdgeAcc
import proofs.«177483_j86474871537940_1_alg».proof.Proof.PayEdgeHead
import Idealize.ShloMosaic.Lib.ValueIdx
import Idealize.ShloMosaic.Lib.Pipeline.Value
import Idealize.ShloMosaic.Lib.ValueLayout
import Idealize.ShloMosaic.PureOps.Ideal.Laws

noncomputable section

namespace Cert.KerBridge

open Cert.KernelIdeal Cert.KernelIdeal.Gen Idealize.ShloMosaic Idealize.ShloMosaic.ValueIdx Cert.Lib.Layout

/-- The edge body's stored value at (0, i, j) is the edge head of node rows i and j, the edge features and the mask
    at (i, j). -/
theorem edge_payload
    (v0 : Vec Ideal S1x64x128 .f32) (v3 : Vec Ideal S1x128x128 .f32) (v6 v8 : Vec Ideal S128x256 .f32)
    (v12 : Vec Ideal S9x64x128 .f32) (v14 : Vec Ideal S9x256 .f32)
    (v106 : Vec Ideal S1x256 .f32) (v121 : Vec Ideal S256x1 .f32) (v126 : Vec Ideal S1x1 .f32)
    (v131 : Vec Ideal S64x128 .i32) (i : Fin 64) (j : Fin 128) :
    k1_pay1 (F := Ideal) (k1_pay2 v0 v6) (k1_pay3 v3 v8) v14
        (k1_pay7 (k1_pay4 v12) v14 (k1_pay5 v12 v14) (k1_pay6 v12)) (k1_pay8 (k1_pay4 v12)) v106 v121 v126 v131
        (ix3 0 i j)
      = Cert.Spec.edgeAt (fun d => v0 (ix3 0 i d)) (fun d => v3 (ix3 0 j d)) (fun d => v12 (ix3 d i j))
          (FloatOps.sitofp (F := Ideal) .f32 (v131 (ix2 i j)))
          (fun d h => v6 (ix2 d h)) (fun d h => v8 (ix2 d h)) (fun d h => v14 (ix2 d h))
          (fun h => v106 (ix2 0 h)) (fun h => v121 (ix2 h 0)) (v126 (ix2 0 0)) := by
  rw [pay1_apply, ← Cert.Spec.edgeAccAt_eq]
  unfold Cert.Spec.edgeAccAt Cert.Spec.acc9
  refine congrArg (fun s => Ideal.logistic (s + v126 (ix2 0 0)) * FloatOps.sitofp (F := Ideal) .f32 (v131 (ix2 i j)))
    (Finset.sum_congr rfl fun h _ => ?_)
  rw [pay4_eq, pay7_apply, pay5_apply, pay6_apply, pay8_apply, pay2_apply, pay3_apply]

end Cert.KerBridge

end
-- ==== Proof.KI.Results.lean ====
/-
  What the idealized kernel program's two result buffers hold at the end: the reference's two result terms of the
  same launch memory.

  The organ result is in the organ module; the edge result is the edge module's statement with the edge launch's
  result array supplied, entry by entry, from the edge body's stored value at one pair of nodes.
-/
import proofs.«177483_j86474871537940_1_alg».proof.Proof.KI.Bounds
import proofs.«177483_j86474871537940_1_alg».proof.Proof.KI.HostReads
import proofs.«177483_j86474871537940_1_alg».proof.Proof.KI.ResOrgan
import proofs.«177483_j86474871537940_1_alg».proof.Proof.KI.ResEdge
import proofs.«177483_j86474871537940_1_alg».proof.Proof.KI.EdgeArray
import proofs.«177483_j86474871537940_1_alg».proof.Proof.PayEdge
import Idealize.ShloMosaic.Lib.ValueIdx
import Idealize.ShloMosaic.Lib.Pipeline.Value
import Idealize.ShloMosaic.Lib.ValueLayout

set_option maxRecDepth 16384

noncomputable section

namespace Cert.KernelIdeal.Results

open Cert.KernelIdeal Cert.KernelIdeal.Gen Cert.KernelIdeal.Run
open Idealize.ShloMosaic Idealize.ShloMosaic.TcCoe Idealize.SL.Sem Idealize.ShloMosaic.ValueIdx Cert.Lib.Layout

variable (m : (ℓ : Loc nD τ sig) → Buf (Elt Ideal) ℓ) (ρ : Dev nD → PrngReg)

/-- The edge launch's result array holds the edge head of every ordered pair of nodes of every batch element. -/
theorem edgeArraySpec : EdgeArraySpec := fun V c b i j =>
  Cert.KernelIdeal.Arrays.edge_array
    (fun v0 v3 v6 v8 v12 v14 v106 v121 v126 v131 i j =>
      Cert.KerBridge.edge_payload v0 v3 v6 v8 v12 v14 v106 v121 v126 v131 i j) V c b i j

/-- At the end the edge result buffer holds the reference's edge result of the launch memory. -/
theorem edge_result (c : Dev nD)
    (x0 : (⟨Cert.ReferenceIdeal.S2x512x128, .f32⟩ : BufTy).Contents (Elt Ideal))
    (x1 : (⟨Cert.ReferenceIdeal.S512x512x9, .f32⟩ : BufTy).Contents (Elt Ideal))
    (x2 : (⟨Cert.ReferenceIdeal.S512x512, .i32⟩ : BufTy).Contents (Elt Ideal))
    (x7 x8 : (⟨Cert.ReferenceIdeal.S128x256, .f32⟩ : BufTy).Contents (Elt Ideal))
    (x9 : (⟨Cert.ReferenceIdeal.S9x256, .f32⟩ : BufTy).Contents (Elt Ideal))
    (x10 : (⟨Cert.ReferenceIdeal.S256, .f32⟩ : BufTy).Contents (Elt Ideal))
    (x11 : (⟨Cert.ReferenceIdeal.S256x1, .f32⟩ : BufTy).Contents (Elt Ideal))
    (x12 : (⟨Cert.ReferenceIdeal.S1, .f32⟩ : BufTy).Contents (Elt Ideal))
    (h0 : x0 = m ((c : Thread nD τ).loc main_arg0)) (h1 : x1 = m ((c : Thread nD τ).loc main_arg1))
    (h2 : x2 = m ((c : Thread nD τ).loc main_arg2)) (h7 : x7 = m ((c : Thread nD τ).loc main_arg7))
    (h8 : x8 = m ((c : Thread nD τ).loc main_arg8)) (h9 : x9 = m ((c : Thread nD τ).loc main_arg9))
    (h10 : x10 = m ((c : Thread nD τ).loc main_arg10)) (h11 : x11 = m ((c : Thread nD τ).loc main_arg11))
    (h12 : x12 = m ((c : Thread nD τ).loc main_arg12)) :
    B4 m ρ c (Proc.devRef .tc main_v8)
      = Cert.ReferenceIdeal.Read.val_main_v45 (F := Ideal) x0 x1 x2 x7 x8 x9 x10 x11 x12 :=
  edge_result_of m ρ edgeArraySpec c x0 x1 x2 x7 x8 x9 x10 x11 x12 h0 h1 h2 h7 h8 h9 h10 h11 h12

end Cert.KernelIdeal.Results

end
-- ==== Proof.lean ====
/-
  The organ head and the edge head of a graph explainer: a Pallas program of two launches against a plain jnp
  reference, equal as functions over the extended reals.

  Both compute, for every node, logistic ((sum_h max (sum_d z d * W1 d h + b1 h, 0) * W2 h) + b2), and for every
  ordered pair (i, j) of nodes of a batch element, logistic ((sum_h max (pi h + pj h + pe h + b1 h, 0) * W2 h) + b2)
  times a 0/1 mask, where pi, pj are projections of the two nodes' feature rows and pe of the pair's nine edge
  features. The Pallas program flattens the node table, tiles the pairs in 64 x 128 blocks, reads the edge features
  feature-first, accumulates pe term by term from zero and adds the summands as ((pe + pi) + pj) + b1; the
  reference contracts whole arrays and adds ((pi + pj) + pe) + b1. Over the extended reals a change of float
  format is the identity, a matrix product into a zero accumulator is the plain sum, the logistic operation is the
  quotient 1 / (1 + exp (-x)) the reference spells, and addition is commutative and associative with zero neutral at
  the infinities too: the two programs are one function of the inputs, for all extended-real inputs; the
  finiteness precondition is not used.

  Frames: each kernel program is run as its four segments (host stretch, launch, host stretch, launch) with every
  unscoped buffer named at every boundary; no segment writes an argument array. The edge launch reads the
  node-feature array through two windows, which hold the two halves of its ownership during the launch. The
  reference is a straight line of host operations. The ideal pass rewrote nothing, so the word-level program's
  sanctioned idealization is its own text.
-/
import proofs.«177483_j86474871537940_1_alg».proof.Defs
import proofs.«177483_j86474871537940_1_alg».proof.Proof.Gen.Kernel
import proofs.«177483_j86474871537940_1_alg».proof.Proof.Gen.KernelIdeal
import proofs.«177483_j86474871537940_1_alg».proof.Proof.Gen.ReferenceIdeal
import proofs.«177483_j86474871537940_1_alg».proof.Proof.Gen.Pre_finite_inputs
import proofs.«177483_j86474871537940_1_alg».proof.Proof.Gen.ReferenceIdeal.Run
import proofs.«177483_j86474871537940_1_alg».proof.Proof.Gen.ReferenceIdeal.Read
import proofs.«177483_j86474871537940_1_alg».proof.Proof.KB.Run
import proofs.«177483_j86474871537940_1_alg».proof.Proof.KI.Run
import proofs.«177483_j86474871537940_1_alg».proof.Proof.KI.Results
import Idealize.ShloMosaic.Adequacy
import Idealize.ShloMosaic.Init

noncomputable section

namespace Cert.Proof

open Idealize.ShloMosaic Idealize.ShloMosaic.TcCoe Idealize.SL.Sem

namespace Claims

/-- The word-level program runs, faults nowhere and leaves its thirteen argument arrays as launched. -/
theorem frame_k : Cert.frame_Kernel := fun m ρ _ =>
  (θ_run (Cert.Kernel.defs) _ _).mono (fun r h c => ⟨Cert.Kernel.Run.kept m ρ c (h c) Cert.Kernel.main_arg0 (by decide) (by decide) (by decide) (by decide) (by decide),
    Cert.Kernel.Run.kept m ρ c (h c) Cert.Kernel.main_arg1 (by decide) (by decide) (by decide) (by decide) (by decide),
    Cert.Kernel.Run.kept m ρ c (h c) Cert.Kernel.main_arg2 (by decide) (by decide) (by decide) (by decide) (by decide),
    Cert.Kernel.Run.kept m ρ c (h c) Cert.Kernel.main_arg3 (by decide) (by decide) (by decide) (by decide) (by decide),
    Cert.Kernel.Run.kept m ρ c (h c) Cert.Kernel.main_arg4 (by decide) (by decide) (by decide) (by decide) (by decide),
    Cert.Kernel.Run.kept m ρ c (h c) Cert.Kernel.main_arg5 (by decide) (by decide) (by decide) (by decide) (by decide),
    Cert.Kernel.Run.kept m ρ c (h c) Cert.Kernel.main_arg6 (by decide) (by decide) (by decide) (by decide) (by decide),
    Cert.Kernel.Run.kept m ρ c (h c) Cert.Kernel.main_arg7 (by decide) (by decide) (by decide) (by decide) (by decide),
    Cert.Kernel.Run.kept m ρ c (h c) Cert.Kernel.main_arg8 (by decide) (by decide) (by decide) (by decide) (by decide),
    Cert.Kernel.Run.kept m ρ c (h c) Cert.Kernel.main_arg9 (by decide) (by decide) (by decide) (by decide) (by decide),
    Cert.Kernel.Run.kept m ρ c (h c) Cert.Kernel.main_arg10 (by decide) (by decide) (by decide) (by decide) (by decide),
    Cert.Kernel.Run.kept m ρ c (h c) Cert.Kernel.main_arg11 (by decide) (by decide) (by decide) (by decide) (by decide),
    Cert.Kernel.Run.kept m ρ c (h c) Cert.Kernel.main_arg12 (by decide) (by decide) (by decide) (by decide) (by decide)⟩)
    (Cert.Kernel.Run.run m ρ)

/-- The same of its idealization. -/
theorem frame_ki : Cert.frame_KernelIdeal := fun m ρ _ =>
  (θ_run (Cert.KernelIdeal.defs) _ _).mono (fun r h c => ⟨Cert.KernelIdeal.Run.kept m ρ c (h c) Cert.KernelIdeal.main_arg0 (by decide) (by decide) (by decide) (by decide) (by decide),
    Cert.KernelIdeal.Run.kept m ρ c (h c) Cert.KernelIdeal.main_arg1 (by decide) (by decide) (by decide) (by decide) (by decide),
    Cert.KernelIdeal.Run.kept m ρ c (h c) Cert.KernelIdeal.main_arg2 (by decide) (by decide) (by decide) (by decide) (by decide),
    Cert.KernelIdeal.Run.kept m ρ c (h c) Cert.KernelIdeal.main_arg3 (by decide) (by decide) (by decide) (by decide) (by decide),
    Cert.KernelIdeal.Run.kept m ρ c (h c) Cert.KernelIdeal.main_arg4 (by decide) (by decide) (by decide) (by decide) (by decide),
    Cert.KernelIdeal.Run.kept m ρ c (h c) Cert.KernelIdeal.main_arg5 (by decide) (by decide) (by decide) (by decide) (by decide),
    Cert.KernelIdeal.Run.kept m ρ c (h c) Cert.KernelIdeal.main_arg6 (by decide) (by decide) (by decide) (by decide) (by decide),
    Cert.KernelIdeal.Run.kept m ρ c (h c) Cert.KernelIdeal.main_arg7 (by decide) (by decide) (by decide) (by decide) (by decide),
    Cert.KernelIdeal.Run.kept m ρ c (h c) Cert.KernelIdeal.main_arg8 (by decide) (by decide) (by decide) (by decide) (by decide),
    Cert.KernelIdeal.Run.kept m ρ c (h c) Cert.KernelIdeal.main_arg9 (by decide) (by decide) (by decide) (by decide) (by decide),
    Cert.KernelIdeal.Run.kept m ρ c (h c) Cert.KernelIdeal.main_arg10 (by decide) (by decide) (by decide) (by decide) (by decide),
    Cert.KernelIdeal.Run.kept m ρ c (h c) Cert.KernelIdeal.main_arg11 (by decide) (by decide) (by decide) (by decide) (by decide),
    Cert.KernelIdeal.Run.kept m ρ c (h c) Cert.KernelIdeal.main_arg12 (by decide) (by decide) (by decide) (by decide) (by decide)⟩)
    (Cert.KernelIdeal.Run.run m ρ)

/-- The reference, a straight line of host operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Over the extended reals, from memories that agree on the arguments, both programs end with the organ values
    and the edge values of the same launch memory: the kernel program's two result buffers at the last boundary's
    contents, which are the reference's two result terms. -/
theorem algebraic : Cert.algebraic_KernelIdeal_ReferenceIdeal := by
  intro m ρ m' ρ' _ hagree
  refine ⟨fun c => Cert.KernelIdeal.Run.B4 m ρ c (Proc.devRef .tc Cert.KernelIdeal.main_v4),
    fun c => Cert.KernelIdeal.Run.B4 m ρ c (Proc.devRef .tc Cert.KernelIdeal.main_v8), ?_, ?_⟩
  · exact (θ_run (Cert.KernelIdeal.defs) _ _).mono (fun r h c =>
      ⟨h c _ (Cert.KernelIdeal.Run.mem_uc Cert.KernelIdeal.main_v4 (by decide)), h c _ (Cert.KernelIdeal.Run.mem_uc Cert.KernelIdeal.main_v8 (by decide)),
        Cert.KernelIdeal.Run.kept m ρ c (h c) Cert.KernelIdeal.main_arg0 (by decide) (by decide) (by decide) (by decide) (by decide),
        Cert.KernelIdeal.Run.kept m ρ c (h c) Cert.KernelIdeal.main_arg1 (by decide) (by decide) (by decide) (by decide) (by decide),
        Cert.KernelIdeal.Run.kept m ρ c (h c) Cert.KernelIdeal.main_arg2 (by decide) (by decide) (by decide) (by decide) (by decide),
        Cert.KernelIdeal.Run.kept m ρ c (h c) Cert.KernelIdeal.main_arg3 (by decide) (by decide) (by decide) (by decide) (by decide),
        Cert.KernelIdeal.Run.kept m ρ c (h c) Cert.KernelIdeal.main_arg4 (by decide) (by decide) (by decide) (by decide) (by decide),
        Cert.KernelIdeal.Run.kept m ρ c (h c) Cert.KernelIdeal.main_arg5 (by decide) (by decide) (by decide) (by decide) (by decide),
        Cert.KernelIdeal.Run.kept m ρ c (h c) Cert.KernelIdeal.main_arg6 (by decide) (by decide) (by decide) (by decide) (by decide),
        Cert.KernelIdeal.Run.kept m ρ c (h c) Cert.KernelIdeal.main_arg7 (by decide) (by decide) (by decide) (by decide) (by decide),
        Cert.KernelIdeal.Run.kept m ρ c (h c) Cert.KernelIdeal.main_arg8 (by decide) (by decide) (by decide) (by decide) (by decide),
        Cert.KernelIdeal.Run.kept m ρ c (h c) Cert.KernelIdeal.main_arg9 (by decide) (by decide) (by decide) (by decide) (by decide),
        Cert.KernelIdeal.Run.kept m ρ c (h c) Cert.KernelIdeal.main_arg10 (by decide) (by decide) (by decide) (by decide) (by decide),
        Cert.KernelIdeal.Run.kept m ρ c (h c) Cert.KernelIdeal.main_arg11 (by decide) (by decide) (by decide) (by decide) (by decide),
        Cert.KernelIdeal.Run.kept m ρ c (h c) Cert.KernelIdeal.main_arg12 (by decide) (by decide) (by decide) (by decide) (by decide)⟩)
      (Cert.KernelIdeal.Run.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · exact (Cert.KernelIdeal.Results.organ_result m ρ c _ _ _ _ _ (hagree c).1 (hagree c).2.2.2.1 (hagree c).2.2.2.2.1
        (hagree c).2.2.2.2.2.1 (hagree c).2.2.2.2.2.2.1).symm
    · exact (Cert.KernelIdeal.Results.edge_result m ρ c _ _ _ _ _ _ _ _ _ (hagree c).1 (hagree c).2.1 (hagree c).2.2.1
        (hagree c).2.2.2.2.2.2.2.1 (hagree c).2.2.2.2.2.2.2.2.1 (hagree c).2.2.2.2.2.2.2.2.2.1 (hagree c).2.2.2.2.2.2.2.2.2.2.1
        (hagree c).2.2.2.2.2.2.2.2.2.2.2.1 (hagree c).2.2.2.2.2.2.2.2.2.2.2.2).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
